-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1 : Shape := ⟨3, ![16, 1024, 1]⟩
abbrev S16x1024x1024 : Shape := ⟨3, ![16, 1024, 1024]⟩
abbrev S5x1x128 : Shape := ⟨3, ![5, 1, 128]⟩
abbrev S128 : Shape := ⟨1, ![128]⟩
abbrev S3x128x128 : Shape := ⟨3, ![3, 128, 128]⟩
abbrev S128x10 : Shape := ⟨2, ![128, 10]⟩
abbrev S10 : Shape := ⟨1, ![10]⟩
abbrev S_ : Shape := ⟨0, ![]⟩

class Facts : Prop where
  bcast_S_S16x1024x1 : S_.BroadcastsInDim S16x1024x1 (![] : Fin 0 → Fin S16x1024x1.rank)
  reducesTo_S16x1024x1_S_d0_1_2 : S16x1024x1.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S5x1x128 : S_.BroadcastsInDim S5x1x128 (![] : Fin 0 → Fin S5x1x128.rank)
  reducesTo_S5x1x128_S_d0_1_2 : S5x1x128.ReducesTo [0, 1, 2] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10 .f32) (main_v33 : IVec S_ 1) : IVec S_ 1 :=
  let main_v34 : FVec F S10 .f32 := Host.absf main_arg7
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg4 : FVec F S3x128x128 .f32) (main_arg5 : FVec F S128 .f32) (main_arg6 : FVec F S128x10 .f32) (main_arg7 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg6
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg7 main_v33

def fn {F : FTy → Type} [FloatOps F] (main_arg0 : FVec F S16x1024x1 .f32) (main_arg1 : FVec F S16x1024x1024 .f32) (main_arg2 : FVec F S5x1x128 .f32) (main_arg3 : FVec F S128 .f32) (main_arg4 : FVec F S3x128x128 .f32) (main_arg5 : FVec F S128 .f32) (main_arg6 : FVec F S128x10 .f32) (main_arg7 : FVec F S10 .f32) : IVec S_ 1 :=
  let main_v0 : FVec F S16x1024x1 .f32 := Host.absf main_arg0
  let main_cst : FVec F S_ .f32 := constant S_ .f32 0x7F800000#32
  let main_v1 : FVec F S16x1024x1 .f32 := broadcastInDim S16x1024x1 ![] bcast_S_S16x1024x1 main_cst
  let main_v2 : IVec S16x1024x1 1 := cmpf .olt main_v0 main_v1
  let main_c : IVec S_ 1 := constantI S_ 1 1#1
  let main_v3 : IVec S_ 1 := (fun x v => Host.reduce IntOp.andi x v reducesTo_S16x1024x1_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S5x1x128 .f32 := Host.absf main_arg2
  let main_cst_2 : FVec F S_ .f32 := constant S_ .f32 0x7F800000#32
  let main_v10 : FVec F S5x1x128 .f32 := broadcastInDim S5x1x128 ![] bcast_S_S5x1x128 main_cst_2
  let main_v11 : IVec S5x1x128 1 := cmpf .olt main_v9 main_v10
  let main_c_3 : IVec S_ 1 := constantI S_ 1 1#1
  let main_v12 : IVec S_ 1 := (fun x v => Host.reduce IntOp.andi x v reducesTo_S5x1x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S16x1024x1 : Shape := ⟨3, ![16, 1024, 1]⟩
abbrev S16x1024x1024 : Shape := ⟨3, ![16, 1024, 1024]⟩
abbrev S5x1x128 : Shape := ⟨3, ![5, 1, 128]⟩
abbrev S128 : Shape := ⟨1, ![128]⟩
abbrev S3x128x128 : Shape := ⟨3, ![3, 128, 128]⟩
abbrev S128x10 : Shape := ⟨2, ![128, 10]⟩
abbrev S10 : Shape := ⟨1, ![10]⟩
abbrev S5x128 : Shape := ⟨2, ![5, 128]⟩
abbrev S1x128 : Shape := ⟨2, ![1, 128]⟩
abbrev S1x10 : Shape := ⟨2, ![1, 10]⟩
abbrev S16x1x10 : Shape := ⟨3, ![16, 1, 10]⟩
abbrev S2x1024x1 : Shape := ⟨3, ![2, 1024, 1]⟩
abbrev S2x1024x1024 : Shape := ⟨3, ![2, 1024, 1024]⟩
abbrev S2x1x10 : Shape := ⟨3, ![2, 1, 10]⟩
abbrev S1x512x1024 : Shape := ⟨3, ![1, 512, 1024]⟩
abbrev S512x1024 : Shape := ⟨2, ![512, 1024]⟩
abbrev S1x1024x1 : Shape := ⟨3, ![1, 1024, 1]⟩
abbrev S1024x1 : Shape := ⟨2, ![1024, 1]⟩
abbrev S1024x128 : Shape := ⟨2, ![1024, 128]⟩
abbrev S512x1 : Shape := ⟨2, ![512, 1]⟩
abbrev S1x128x128 : Shape := ⟨3, ![1, 128, 128]⟩
abbrev S128x128 : Shape := ⟨2, ![128, 128]⟩
abbrev S512x128 : Shape := ⟨2, ![512, 128]⟩
abbrev S1x1x10 : Shape := ⟨3, ![1, 1, 10]⟩
abbrev S16x10 : Shape := ⟨2, ![16, 10]⟩

abbrev nBuf : Space → Nat
  | .hbm => 14
  | .vmem => 12
  | .smem => 0
  | _ => 0

abbrev bufTy : (tb : Table) → Fin (tcTables nBuf tb) → BufTy
  | .hbm, ⟨0, _⟩ => ⟨S16x1024x1, .f32⟩
  | .hbm, ⟨1, _⟩ => ⟨S16x1024x1024, .f32⟩
  | .hbm, ⟨2, _⟩ => ⟨S5x1x128, .f32⟩
  | .hbm, ⟨3, _⟩ => ⟨S128, .f32⟩
  | .hbm, ⟨4, _⟩ => ⟨S3x128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S5x128, .f32⟩
  | .hbm, ⟨9, _⟩ => ⟨S1x128, .f32⟩
  | .hbm, ⟨10, _⟩ => ⟨S1x128, .f32⟩
  | .hbm, ⟨11, _⟩ => ⟨S1x10, .f32⟩
  | .hbm, ⟨12, _⟩ => ⟨S16x1x10, .f32⟩
  | .hbm, ⟨13, _⟩ => ⟨S16x10, .f32⟩
  | .local _ .vmem, ⟨0, _⟩ => ⟨S2x1024x1, .f32⟩
  | .local _ .vmem, ⟨1, _⟩ => ⟨S2x1024x1, .f32⟩
  | .local _ .vmem, ⟨2, _⟩ => ⟨S2x1024x1024, .f32⟩
  | .local _ .vmem, ⟨3, _⟩ => ⟨S2x1024x1024, .f32⟩
  | .local _ .vmem, ⟨4, _⟩ => ⟨S5x128, .f32⟩
  | .local _ .vmem, ⟨5, _⟩ => ⟨S1x128, .f32⟩
  | .local _ .vmem, ⟨6, _⟩ => ⟨S3x128x128, .f32⟩
  | .local _ .vmem, ⟨7, _⟩ => ⟨S1x128, .f32⟩
  | .local _ .vmem, ⟨8, _⟩ => ⟨S128x10, .f32⟩
  | .local _ .vmem, ⟨9, _⟩ => ⟨S1x10, .f32⟩
  | .local _ .vmem, ⟨10, _⟩ => ⟨S2x1x10, .f32⟩
  | .local _ .vmem, ⟨11, _⟩ => ⟨S2x1x10, .f32⟩
  | _, _ => ⟨S16x1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x1x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S5x1x128_S5x128 : S5x1x128.ShapeCasts S5x128
  shapeCasts_S128_S1x128 : S128.ShapeCasts S1x128
  shapeCasts_S10_S1x10 : S10.ShapeCasts S1x10
  inb_S5x128_S5x128_0_0 : ∀ a, (![0, 0] : Fin 2 → Nat) a + S5x128.size a ≤ S5x128.size a
  h_S5x128 : 0 < S5x128.numel
  shapeCasts_S5x128_S5x128 : S5x128.ShapeCasts S5x128
  inb_S2x1024x1024_S1x512x1024_0_0_0 : ∀ a, (![0, 0, 0] : Fin 3 → Nat) a + S1x512x1024.size a ≤ S2x1024x1024.size a
  h_S1x512x1024 : 0 < S1x512x1024.numel
  shapeCasts_S1x512x1024_S512x1024 : S1x512x1024.ShapeCasts S512x1024
  bitsLt_bf16_f32 : FTy.bits .bf16 < FTy.bits .f32
  inb_S2x1024x1024_S1x512x1024_1_0_0 : ∀ a, (![1, 0, 0] : Fin 3 → Nat) a + S1x512x1024.size a ≤ S2x1024x1024.size a
  inb_S2x1024x1024_S1x512x1024_0_512_0 : ∀ a, (![0, 512, 0] : Fin 3 → Nat) a + S1x512x1024.size a ≤ S2x1024x1024.size a
  inb_S2x1024x1024_S1x512x1024_1_512_0 : ∀ a, (![1, 512, 0] : Fin 3 → Nat) a + S1x512x1024.size a ≤ S2x1024x1024.size a
  inb_S2x1024x1_S1x1024x1_0_0_0 : ∀ a, (![0, 0, 0] : Fin 3 → Nat) a + S1x1024x1.size a ≤ S2x1024x1.size a
  h_S1x1024x1 : 0 < S1x1024x1.numel
  shapeCasts_S1x1024x1_S1024x1 : S1x1024x1.ShapeCasts S1024x1
  inb_S2x1024x1_S1x1024x1_1_0_0 : ∀ a, (![1, 0, 0] : Fin 3 → Nat) a + S1x1024x1.size a ≤ S2x1024x1.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S5x128_o0_0_S1x128 : S5x128.Slices ![0, 0] S1x128
  broadcasts_S1024x1_S1024x128 : S1024x1.Broadcasts S1024x128
  broadcasts_S1x128_S1024x128 : S1x128.Broadcasts S1024x128
  concatenates_S512x1_S512x1_S1024x1_d0 : Shape.Concatenates [S512x1, S512x1] S1024x1 0
  slices_S5x128_o1_0_S1x128 : S5x128.Slices ![1, 0] S1x128
  slices_S5x128_o2_0_S1x128 : S5x128.Slices ![2, 0] S1x128
  slices_S5x128_o3_0_S1x128 : S5x128.Slices ![3, 0] S1x128
  slices_S5x128_o4_0_S1x128 : S5x128.Slices ![4, 0] S1x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  concatenates_S512x128_S512x128_S1024x128_d0 : Shape.Concatenates [S512x128, S512x128] S1024x128 0
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  reduces_S1024x128_S128 : S1024x128.Reduces [0] S128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S2x1x10_S1x1x10_0_0_0 : ∀ a, (![0, 0, 0] : Fin 3 → Nat) a + S1x1x10.size a ≤ S2x1x10.size a
  h_S1x1x10 : 0 < S1x1x10.numel
  shapeCasts_S1x1x10_S1x10 : S1x1x10.ShapeCasts S1x10
  shapeCasts_S1x10_S1x1x10 : S1x10.ShapeCasts S1x1x10
  inb_S2x1x10_S1x1x10_1_0_0 : ∀ a, (![1, 0, 0] : Fin 3 → Nat) a + S1x1x10.size a ≤ S2x1x10.size a
  shapeCasts_S16x1x10_S16x10 : S16x1x10.ShapeCasts S16x10
  dot_S512x1024_S1024x1_S512x1_1_0_0_1_n_n_wf : DotDims.WF S512x1024 S1024x1 S512x1 [1] [0] [0] [1] [] []
  dot_S1024x128_S128x128_S1024x128_1_0_0_1_n_n_wf : DotDims.WF S1024x128 S128x128 S1024x128 [1] [0] [0] [1] [] []
  dot_S512x1024_S1024x128_S512x128_1_0_0_1_n_n_wf : DotDims.WF S512x1024 S1024x128 S512x128 [1] [0] [0] [1] [] []
  dot_S1x128_S128x10_S1x10_1_0_0_1_n_n_wf : DotDims.WF S1x128 S128x10 S1x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1.size a ≤ S16x1024x1.size a
  hwx0_0 : ∀ i : grid0.Coords, EltTy.bits .f32 = 32 ∨ (Rect.block (s := S16x1024x1) S2x1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S16x1024x1024.size a
  hwx0_1 : ∀ i : grid0.Coords, EltTy.bits .f32 = 32 ∨ (Rect.block (s := S16x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x128.size a ≤ S5x128.size a
  hwx0_2 : ∀ i : grid0.Coords, EltTy.bits .f32 = 32 ∨ (Rect.block (s := S5x128) S5x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x10.size a ≤ S128x10.size a
  hwx0_6 : ∀ i : grid0.Coords, EltTy.bits .f32 = 32 ∨ (Rect.block (s := S128x10) S128x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x10.size a ≤ S1x10.size a
  hwx0_7 : ∀ i : grid0.Coords, EltTy.bits .f32 = 32 ∨ (Rect.block (s := S1x10) S1x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x10.size a ≤ S16x1x10.size a
  hwx0_8 : ∀ i : grid0.Coords, EltTy.bits .f32 = 32 ∨ (Rect.block (s := S16x1x10) S2x1x10.size (cc0_transform_8 i) (hinb0_8 i)).WholeWords (EltTy.packing .f32)

variable [Facts₀]

def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S1x128_S128x10_S1x10_1_0_0_1_n_n : DotDims S1x128 S128x10 S1x10 where
  lhsContracting := [1]
  rhsContracting := [0]
  lhsNonContracting := [0]
  rhsNonContracting := [1]
  lhsBatch := []
  rhsBatch := []
  wf := dot_S1x128_S128x10_S1x10_1_0_0_1_n_n_wf

abbrev win0_0 : Pipeline.Window sig grid0 :=
  Pipeline.Window.ofSpec (Memref.whole main_arg0) S2x1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2x1x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1024x1 : Shape := ⟨3, ![16, 1024, 1]⟩
abbrev S16x1024x1024 : Shape := ⟨3, ![16, 1024, 1024]⟩
abbrev S5x1x128 : Shape := ⟨3, ![5, 1, 128]⟩
abbrev S128 : Shape := ⟨1, ![128]⟩
abbrev S3x128x128 : Shape := ⟨3, ![3, 128, 128]⟩
abbrev S128x10 : Shape := ⟨2, ![128, 10]⟩
abbrev S10 : Shape := ⟨1, ![10]⟩
abbrev S1x1x128 : Shape := ⟨3, ![1, 1, 128]⟩
abbrev S1x128 : Shape := ⟨2, ![1, 128]⟩
abbrev S16x1024x128 : Shape := ⟨3, ![16, 1024, 128]⟩
abbrev S_ : Shape := ⟨0, ![]⟩
abbrev S1x128x128 : Shape := ⟨3, ![1, 128, 128]⟩
abbrev S128x128 : Shape := ⟨2, ![128, 128]⟩
abbrev S16x1024x10 : Shape := ⟨3, ![16, 1024, 10]⟩
abbrev S1x1x10 : Shape := ⟨3, ![1, 1, 10]⟩
abbrev S16x10 : Shape := ⟨2, ![16, 10]⟩

abbrev nBuf : Space → Nat
  | .hbm => 89
  | .vmem => 0
  | .smem => 0
  | _ => 0

abbrev bufTy : (tb : Table) → Fin (tcTables nBuf tb) → BufTy
  | .hbm, ⟨0, _⟩ => ⟨S16x1024x1, .f32⟩
  | .hbm, ⟨1, _⟩ => ⟨S16x1024x1024, .f32⟩
  | .hbm, ⟨2, _⟩ => ⟨S5x1x128, .f32⟩
  | .hbm, ⟨3, _⟩ => ⟨S128, .f32⟩
  | .hbm, ⟨4, _⟩ => ⟨S3x128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S1x1x128, .f32⟩
  | .hbm, ⟨9, _⟩ => ⟨S1x128, .f32⟩
  | .hbm, ⟨10, _⟩ => ⟨S16x1024x128, .f32⟩
  | .hbm, ⟨11, _⟩ => ⟨S16x1024x1, .f32⟩
  | .hbm, ⟨12, _⟩ => ⟨S1x1x128, .f32⟩
  | .hbm, ⟨13, _⟩ => ⟨S1x128, .f32⟩
  | .hbm, ⟨14, _⟩ => ⟨S16x1024x128, .f32⟩
  | .hbm, ⟨15, _⟩ => ⟨S16x1024x128, .f32⟩
  | .hbm, ⟨16, _⟩ => ⟨S16x1024x1, .f32⟩
  | .hbm, ⟨17, _⟩ => ⟨S1x1x128, .f32⟩
  | .hbm, ⟨18, _⟩ => ⟨S1x128, .f32⟩
  | .hbm, ⟨19, _⟩ => ⟨S16x1024x128, .f32⟩
  | .hbm, ⟨20, _⟩ => ⟨S16x1024x128, .f32⟩
  | .hbm, ⟨21, _⟩ => ⟨S16x1024x1, .f32⟩
  | .hbm, ⟨22, _⟩ => ⟨S1x1x128, .f32⟩
  | .hbm, ⟨23, _⟩ => ⟨S1x128, .f32⟩
  | .hbm, ⟨24, _⟩ => ⟨S16x1024x128, .f32⟩
  | .hbm, ⟨25, _⟩ => ⟨S16x1024x128, .f32⟩
  | .hbm, ⟨26, _⟩ => ⟨S16x1024x1, .f32⟩
  | .hbm, ⟨27, _⟩ => ⟨S1x1x128, .f32⟩
  | .hbm, ⟨28, _⟩ => ⟨S1x128, .f32⟩
  | .hbm, ⟨29, _⟩ => ⟨S16x1024x128, .f32⟩
  | .hbm, ⟨30, _⟩ => ⟨S16x1024x128, .f32⟩
  | .hbm, ⟨31, _⟩ => ⟨S1x1x128, .f32⟩
  | .hbm, ⟨32, _⟩ => ⟨S16x1024x128, .f32⟩
  | .hbm, ⟨33, _⟩ => ⟨S16x1024x128, .f32⟩
  | .hbm, ⟨34, _⟩ => ⟨S_, .f32⟩
  | .hbm, ⟨35, _⟩ => ⟨S16x1024x128, .f32⟩
  | .hbm, ⟨36, _⟩ => ⟨S16x1024x128, .i1⟩
  | .hbm, ⟨37, _⟩ => ⟨S_, .f32⟩
  | .hbm, ⟨38, _⟩ => ⟨S16x1024x128, .f32⟩
  | .hbm, ⟨39, _⟩ => ⟨S16x1024x128, .i1⟩
  | .hbm, ⟨40, _⟩ => ⟨S_, .f32⟩
  | .hbm, ⟨41, _⟩ => ⟨S_, .f32⟩
  | .hbm, ⟨42, _⟩ => ⟨S16x1024x128, .f32⟩
  | .hbm, ⟨43, _⟩ => ⟨S16x1024x128, .f32⟩
  | .hbm, ⟨44, _⟩ => ⟨S16x1024x128, .f32⟩
  | .hbm, ⟨45, _⟩ => ⟨S_, .f32⟩
  | .hbm, ⟨46, _⟩ => ⟨S16x1024x128, .f32⟩
  | .hbm, ⟨47, _⟩ => ⟨S16x1024x128, .f32⟩
  | .hbm, ⟨48, _⟩ => ⟨S16x1024x128, .f32⟩
  | .hbm, ⟨49, _⟩ => ⟨S1x128x128, .f32⟩
  | .hbm, ⟨50, _⟩ => ⟨S128x128, .f32⟩
  | .hbm, ⟨51, _⟩ => ⟨S16x1024x128, .f32⟩
  | .hbm, ⟨52, _⟩ => ⟨S16x1024x128, .f32⟩
  | .hbm, ⟨53, _⟩ => ⟨S1x128x128, .f32⟩
  | .hbm, ⟨54, _⟩ => ⟨S128x128, .f32⟩
  | .hbm, ⟨55, _⟩ => ⟨S16x1024x128, .f32⟩
  | .hbm, ⟨56, _⟩ => ⟨S16x1024x128, .f32⟩
  | .hbm, ⟨57, _⟩ => ⟨S16x1024x128, .f32⟩
  | .hbm, ⟨58, _⟩ => ⟨S1x128x128, .f32⟩
  | .hbm, ⟨59, _⟩ => ⟨S128x128, .f32⟩
  | .hbm, ⟨60, _⟩ => ⟨S16x1024x128, .f32⟩
  | .hbm, ⟨61, _⟩ => ⟨S16x1024x128, .f32⟩
  | .hbm, ⟨62, _⟩ => ⟨S1x1x128, .f32⟩
  | .hbm, ⟨63, _⟩ => ⟨S16x1024x128, .f32⟩
  | .hbm, ⟨64, _⟩ => ⟨S16x1024x128, .f32⟩
  | .hbm, ⟨65, _⟩ => ⟨S_, .f32⟩
  | .hbm, ⟨66, _⟩ => ⟨S16x1024x128, .f32⟩
  | .hbm, ⟨67, _⟩ => ⟨S16x1024x128, .i1⟩
  | .hbm, ⟨68, _⟩ => ⟨S_, .f32⟩
  | .hbm, ⟨69, _⟩ => ⟨S16x1024x128, .f32⟩
  | .hbm, ⟨70, _⟩ => ⟨S16x1024x128, .i1⟩
  | .hbm, ⟨71, _⟩ => ⟨S_, .f32⟩
  | .hbm, ⟨72, _⟩ => ⟨S_, .f32⟩
  | .hbm, ⟨73, _⟩ => ⟨S16x1024x128, .f32⟩
  | .hbm, ⟨74, _⟩ => ⟨S16x1024x128, .f32⟩
  | .hbm, ⟨75, _⟩ => ⟨S16x1024x128, .f32⟩
  | .hbm, ⟨76, _⟩ => ⟨S_, .f32⟩
  | .hbm, ⟨77, _⟩ => ⟨S16x1024x128, .f32⟩
  | .hbm, ⟨78, _⟩ => ⟨S16x1024x128, .f32⟩
  | .hbm, ⟨79, _⟩ => ⟨S16x1024x128, .f32⟩
  | .hbm, ⟨80, _⟩ => ⟨S16x1024x10, .f32⟩
  | .hbm, ⟨81, _⟩ => ⟨S1x1x10, .f32⟩
  | .hbm, ⟨82, _⟩ => ⟨S16x1024x10, .f32⟩
  | .hbm, ⟨83, _⟩ => ⟨S16x1024x10, .f32⟩
  | .hbm, ⟨84, _⟩ => ⟨S_, .f32⟩
  | .hbm, ⟨85, _⟩ => ⟨S16x10, .f32⟩
  | .hbm, ⟨86, _⟩ => ⟨S_, .f32⟩
  | .hbm, ⟨87, _⟩ => ⟨S16x10, .f32⟩
  | .hbm, ⟨88, _⟩ => ⟨S16x10, .f32⟩
  | _, _ => ⟨S16x1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_cst_1 : Ref sig .tc := ⟨.hbm, 40, rfl⟩
abbrev main_call0_call0_v0 : Ref sig .tc := ⟨.hbm, 41, rfl⟩
abbrev main_call0_call0_v1 : Ref sig .tc := ⟨.hbm, 42, rfl⟩
abbrev main_call0_v4 : Ref sig .tc := ⟨.hbm, 43, rfl⟩
abbrev main_call0_v5 : Ref sig .tc := ⟨.hbm, 44, rfl⟩
abbrev main_call0_cst_2 : Ref sig .tc := ⟨.hbm, 45, rfl⟩
abbrev main_call0_v6 : Ref sig .tc := ⟨.hbm, 46, rfl⟩
abbrev main_call0_v7 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_cst_0 : Ref sig .tc := ⟨.hbm, 68, rfl⟩
abbrev main_call1_v2 : Ref sig .tc := ⟨.hbm, 69, rfl⟩
abbrev main_call1_v3 : Ref sig .tc := ⟨.hbm, 70, rfl⟩
abbrev main_call1_cst_1 : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_v4 : Ref sig .tc := ⟨.hbm, 74, rfl⟩
abbrev main_call1_v5 : Ref sig .tc := ⟨.hbm, 75, rfl⟩
abbrev main_call1_cst_2 : Ref sig .tc := ⟨.hbm, 76, rfl⟩
abbrev main_call1_v6 : Ref sig .tc := ⟨.hbm, 77, rfl⟩
abbrev main_call1_v7 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst : Ref sig .tc := ⟨.hbm, 84, rfl⟩
abbrev main_v48 : Ref sig .tc := ⟨.hbm, 85, rfl⟩
abbrev main_cst_0 : Ref sig .tc := ⟨.hbm, 86, rfl⟩
abbrev main_v49 : Ref sig .tc := ⟨.hbm, 87, rfl⟩
abbrev main_v50 : Ref sig .tc := ⟨.hbm, 88, rfl⟩

abbrev nD : Nat := 1
abbrev τ : Topo := Topo.v7x

variable {F : FTy → Type} [FloatOps F]

class Facts₀ : Prop where
  slices_S5x1x128_S1x1x128_0_0_0 : S5x1x128.Slices ![0, 0, 0] S1x1x128
  shapeCasts_S1x1x128_S1x128 : S1x1x128.ShapeCasts S1x128
  slices_S5x1x128_S1x1x128_1_0_0 : S5x1x128.Slices ![1, 0, 0] S1x1x128
  slices_S5x1x128_S1x1x128_2_0_0 : S5x1x128.Slices ![2, 0, 0] S1x1x128
  slices_S5x1x128_S1x1x128_3_0_0 : S5x1x128.Slices ![3, 0, 0] S1x1x128
  slices_S5x1x128_S1x1x128_4_0_0 : S5x1x128.Slices ![4, 0, 0] S1x1x128
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  bcast_S_S16x1024x128 : S_.BroadcastsInDim S16x1024x128 (![] : Fin 0 → Fin S16x1024x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  bcast_S10_S1x1x10_2 : S10.BroadcastsInDim S1x1x10 (![2] : Fin 1 → Fin S1x1x10.rank)
  bcast_S1x1x10_S16x1024x10_0_1_2 : S1x1x10.BroadcastsInDim S16x1024x10 (![0, 1, 2] : Fin 3 → Fin S16x1024x10.rank)
  reducesTo_S16x1024x10_S16x10_d1 : S16x1024x10.ReducesTo [1] S16x10
  h_S_ : 0 < S_.numel
  bcast_S_S16x10 : S_.BroadcastsInDim S16x10 (![] : Fin 0 → Fin S16x10.rank)
  dot_S16x1024x1_S1x128_S16x1024x128_2_0_01_1_n_n_wf : DotDims.WF S16x1024x1 S1x128 S16x1024x128 [2] [0] [0, 1] [1] [] []
  dot_S16x1024x1024_S16x1024x1_S16x1024x1_2_1_1_2_0_0_wf : DotDims.WF S16x1024x1024 S16x1024x1 S16x1024x1 [2] [1] [1] [2] [0] [0]
  dot_S16x1024x128_S128x128_S16x1024x128_2_0_01_1_n_n_wf : DotDims.WF S16x1024x128 S128x128 S16x1024x128 [2] [0] [0, 1] [1] [] []
  dot_S16x1024x1024_S16x1024x128_S16x1024x128_2_1_1_2_0_0_wf : DotDims.WF S16x1024x1024 S16x1024x128 S16x1024x128 [2] [1] [1] [2] [0] [0]
  dot_S16x1024x128_S128x10_S16x1024x10_2_0_01_1_n_n_wf : DotDims.WF S16x1024x128 S128x10 S16x1024x10 [2] [0] [0, 1] [1] [] []

variable [Facts₀]

def dot_S16x1024x1_S1x128_S16x1024x128_2_0_01_1_n_n : DotDims S16x1024x1 S1x128 S16x1024x128 where
  lhsContracting := [2]
  rhsContracting := [0]
  lhsNonContracting := [0, 1]
  rhsNonContracting := [1]
  lhsBatch := []
  rhsBatch := []
  wf := dot_S16x1024x1_S1x128_S16x1024x128_2_0_01_1_n_n_wf
def dot_S16x1024x1024_S16x1024x1_S16x1024x1_2_1_1_2_0_0 : DotDims S16x1024x1024 S16x1024x1 S16x1024x1 where
  lhsContracting := [2]
  rhsContracting := [1]
  lhsNonContracting := [1]
  rhsNonContracting := [2]
  lhsBatch := [0]
  rhsBatch := [0]
  wf := dot_S16x1024x1024_S16x1024x1_S16x1024x1_2_1_1_2_0_0_wf
def dot_S16x1024x128_S128x128_S16x1024x128_2_0_01_1_n_n : DotDims S16x1024x128 S128x128 S16x1024x128 where
  lhsContracting := [2]
  rhsContracting := [0]
  lhsNonContracting := [0, 1]
  rhsNonContracting := [1]
  lhsBatch := []
  rhsBatch := []
  wf := dot_S16x1024x128_S128x128_S16x1024x128_2_0_01_1_n_n_wf
def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16x1024x128_S128x10_S16x1024x10_2_0_01_1_n_n : DotDims S16x1024x128 S128x10 S16x1024x10 where
  lhsContracting := [2]
  rhsContracting := [0]
  lhsNonContracting := [0, 1]
  rhsNonContracting := [1]
  lhsBatch := []
  rhsBatch := []
  wf := dot_S16x1024x128_S128x10_S16x1024x10_2_0_01_1_n_n_wf

class Facts : Prop extends Facts₀ where

variable [Facts]
-- ==== Proof.Spec.lean ====
/-
  The mathematics of the two programs, on the extended reals, for ONE graph of the batch.

  A graph has 1024 nodes, a scalar signal x on the nodes and a dense adjacency a. One hop of a signal z is the
  matrix-vector product a z. The first graph-filter layer mixes the 0th to 4th hops of x with five tap rows
  w1 0 … w1 4 (each hop is a rank-one update x_k ⊗ w1 k), adds the bias and applies ELU; the second layer mixes the
  0th to 2nd hops of the 128-channel hidden signal with three 128 × 128 tap matrices, adds the bias and applies ELU.
  The classifier head projects the 128 channels to 10 classes, adds a bias, and averages over the nodes.

  The two programs differ only in the head: one averages over the nodes FIRST and projects the averaged
  channels, the other projects every node and averages the projections. On real numbers the two are equal
  because the projection is linear and the mean of a constant is that constant (`headK_eq_headR`); on the
  extended reals this needs every hidden value to be a real number, which holds when every input is
  (`isReal_hid2`): sums and products of reals are real, and ELU of a real is real.
-/
import Idealize.ShloMosaic.PureOps.Ideal
import Idealize.ShloMosaic.PureOps.Ideal.Laws
import Idealize.ShloMosaic.Lib.ValueIdx

noncomputable section

namespace Cert.Backbone

open Idealize.ShloMosaic Idealize.ShloMosaic.ValueIdx

/-- ELU on the extended reals: the identity above zero, `e^v - 1` elsewhere. -/
def elu (v : EReal) : EReal := if 0 < v then v else Ideal.exp v - 1

/-- One hop of a scalar node signal: `(a z) n = Σ_m a n m · z m`. -/
def hopv (a : Fin 1024 → Fin 1024 → EReal) (z : Fin 1024 → EReal) (n : Fin 1024) : EReal :=
  ∑ m : Fin 1024, a n m * z m

/-- One hop of a 128-channel node signal, channel by channel. -/
def hopm (a : Fin 1024 → Fin 1024 → EReal) (z : Fin 1024 → Fin 128 → EReal) (n : Fin 1024) (f : Fin 128) : EReal :=
  ∑ m : Fin 1024, a n m * z m f

/-- The first layer before its ELU: bias, then the five taps in order. -/
def pre1 (xg : Fin 1024 → EReal) (a : Fin 1024 → Fin 1024 → EReal) (w1 : Fin 5 → Fin 128 → EReal) (b1 : Fin 128 → EReal)
    (n : Fin 1024) (o : Fin 128) : EReal :=
  b1 o + xg n * w1 0 o + hopv a xg n * w1 1 o + hopv a (hopv a xg) n * w1 2 o
    + hopv a (hopv a (hopv a xg)) n * w1 3 o + hopv a (hopv a (hopv a (hopv a xg))) n * w1 4 o

/-- The first hidden signal. -/
def hid1 (xg : Fin 1024 → EReal) (a : Fin 1024 → Fin 1024 → EReal) (w1 : Fin 5 → Fin 128 → EReal) (b1 : Fin 128 → EReal)
    (n : Fin 1024) (o : Fin 128) : EReal :=
  elu (pre1 xg a w1 b1 n o)

/-- The second layer before its ELU: the three taps in order, then the bias. -/
def pre2 (h : Fin 1024 → Fin 128 → EReal) (a : Fin 1024 → Fin 1024 → EReal) (w2 : Fin 3 → Fin 128 → Fin 128 → EReal)
    (b2 : Fin 128 → EReal) (n : Fin 1024) (o : Fin 128) : EReal :=
  (∑ f : Fin 128, h n f * w2 0 f o) + (∑ f : Fin 128, hopm a h n f * w2 1 f o)
    + (∑ f : Fin 128, hopm a (hopm a h) n f * w2 2 f o) + b2 o

/-- The second hidden signal, from the inputs. -/
def hid2 (xg : Fin 1024 → EReal) (a : Fin 1024 → Fin 1024 → EReal) (w1 : Fin 5 → Fin 128 → EReal) (b1 : Fin 128 → EReal)
    (w2 : Fin 3 → Fin 128 → Fin 128 → EReal) (b2 : Fin 128 → EReal) (n : Fin 1024) (o : Fin 128) : EReal :=
  elu (pre2 (hid1 xg a w1 b1) a w2 b2 n o)

/-- The number of nodes as the float literal both programs divide by. -/
def nodes : EReal := Ideal.ofBits .f32 0x44800000#32

/-- The head, mean first: average each channel over the nodes, project, add the bias. -/
def headK (h2 : Fin 1024 → Fin 128 → EReal) (wo : Fin 128 → Fin 10 → EReal) (bo : Fin 10 → EReal) (o : Fin 10) : EReal :=
  (∑ f : Fin 128, Ideal.div (∑ n : Fin 1024, h2 n f) nodes * wo f o) + bo o

/-- The head, projection first: project every node, add the bias, average over the nodes. -/
def headR (h2 : Fin 1024 → Fin 128 → EReal) (wo : Fin 128 → Fin 10 → EReal) (bo : Fin 10 → EReal) (o : Fin 10) : EReal :=
  Ideal.div (∑ n : Fin 1024, ((∑ f : Fin 128, h2 n f * wo f o) + bo o)) nodes

/-! ## Real values stay real -/

/-- An extended real that is a real number. -/
def IsReal (v : EReal) : Prop := ∃ r : ℝ, v = (r : EReal)

theorem IsReal.add {u v : EReal} (hu : IsReal u) (hv : IsReal v) : IsReal (u + v) := by
  obtain ⟨r, rfl⟩ := hu; obtain ⟨s, rfl⟩ := hv; exact ⟨r + s, (EReal.coe_add r s).symm⟩

theorem IsReal.mul {u v : EReal} (hu : IsReal u) (hv : IsReal v) : IsReal (u * v) := by
  obtain ⟨r, rfl⟩ := hu; obtain ⟨s, rfl⟩ := hv; exact ⟨r * s, (EReal.coe_mul r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert i s hi ih => rw [Finset.sum_insert hi]; exact (h i).add ih

theorem IsReal.elu {v : EReal} (hv : IsReal v) : IsReal (elu v) := by
  obtain ⟨r, rfl⟩ := hv
  unfold Backbone.elu
  split
  · exact ⟨r, rfl⟩
  · refine ⟨Real.exp r - 1, ?_⟩
    show Ideal.exp (r : EReal) - 1 = _
    rw [show Ideal.exp (r : EReal) = ((Real.exp r : ℝ) : EReal) from rfl, EReal.coe_sub, EReal.coe_one]

theorem isReal_hopv {a : Fin 1024 → Fin 1024 → EReal} {z : Fin 1024 → EReal} (ha : ∀ n m, IsReal (a n m))
    (hz : ∀ n, IsReal (z n)) (n : Fin 1024) : IsReal (hopv a z n) :=
  IsReal.sum _ _ fun m => (ha n m).mul (hz m)

theorem isReal_hopm {a : Fin 1024 → Fin 1024 → EReal} {z : Fin 1024 → Fin 128 → EReal} (ha : ∀ n m, IsReal (a n m))
    (hz : ∀ n f, IsReal (z n f)) (n : Fin 1024) (f : Fin 128) : IsReal (hopm a z n f) :=
  IsReal.sum _ _ fun m => (ha n m).mul (hz m f)

theorem isReal_hid1 {xg : Fin 1024 → EReal} {a : Fin 1024 → Fin 1024 → EReal} {w1 : Fin 5 → Fin 128 → EReal}
    {b1 : Fin 128 → EReal} (hx : ∀ n, IsReal (xg n)) (ha : ∀ n m, IsReal (a n m)) (hw : ∀ i o, IsReal (w1 i o))
    (hb : ∀ o, IsReal (b1 o)) (n : Fin 1024) (o : Fin 128) : IsReal (hid1 xg a w1 b1 n o) := by
  have h1 := isReal_hopv ha hx
  have h2 := isReal_hopv ha h1
  have h3 := isReal_hopv ha h2
  have h4 := isReal_hopv ha h3
  exact IsReal.elu ((((((hb o).add ((hx n).mul (hw 0 o))).add ((h1 n).mul (hw 1 o))).add ((h2 n).mul (hw 2 o))).add
    ((h3 n).mul (hw 3 o))).add ((h4 n).mul (hw 4 o)))

theorem isReal_hid2 {xg : Fin 1024 → EReal} {a : Fin 1024 → Fin 1024 → EReal} {w1 : Fin 5 → Fin 128 → EReal}
    {b1 : Fin 128 → EReal} {w2 : Fin 3 → Fin 128 → Fin 128 → EReal} {b2 : Fin 128 → EReal}
    (hx : ∀ n, IsReal (xg n)) (ha : ∀ n m, IsReal (a n m)) (hw : ∀ i o, IsReal (w1 i o)) (hb : ∀ o, IsReal (b1 o))
    (hw2 : ∀ i f o, IsReal (w2 i f o)) (hb2 : ∀ o, IsReal (b2 o)) (n : Fin 1024) (o : Fin 128) :
    IsReal (hid2 xg a w1 b1 w2 b2 n o) := by
  have h0 := isReal_hid1 hx ha hw hb
  have h1 := isReal_hopm ha h0
  have h2 := isReal_hopm ha h1
  exact IsReal.elu ((((IsReal.sum _ _ fun f => (h0 n f).mul (hw2 0 f o)).add
    (IsReal.sum _ _ fun f => (h1 n f).mul (hw2 1 f o))).add (IsReal.sum _ _ fun f => (h2 n f).mul (hw2 2 f o))).add (hb2 o))

/-! ## The two heads agree on real hidden values -/

/-- The float literal `1024.0` denotes the real number 1024. -/
theorem nodes_eq : nodes = ((1024 : ℝ) : EReal) := by
  unfold nodes
  simp [Ideal.ofBits, Ideal.ieee, -EReal.coe_mul]; norm_num

/-- The float literal `1.0` denotes `1`. -/
theorem ofBits_one_f32 : Ideal.ofBits .f32 0x3F800000#32 = 1 := by
  simp [Ideal.ofBits, Ideal.ieee, -EReal.coe_mul]; norm_num

/-- ELU written with a minimum: where `v` is not above zero, `min v 0 = v`. -/
theorem elu_of_min (v : EReal) :
    Scalar.select (Ideal.cmp .ogt v (Ideal.ofBits .f32 0x00000000#32)) v
      (Ideal.exp (min v (Ideal.ofBits .f32 0x00000000#32)) - Ideal.ofBits .f32 0x3F800000#32) = elu v := by
  rw [Ideal.ofBits_zero_f32, ofBits_one_f32]
  unfold elu Ideal.cmp Scalar.select
  by_cases h : 0 < v
  · simp [h]
  · simp [h, min_eq_left (not_lt.mp h)]

/-- ELU written with an inner select and `e^v - 1` scaled by one: where `v` is not above zero the inner select is `v`. -/
theorem elu_of_select (v : EReal) :
    Scalar.select (Ideal.cmp .ogt v (Ideal.ofBits .f32 0x00000000#32)) v
      (Ideal.ofBits .f32 0x3F800000#32 *
        (Ideal.exp (Scalar.select (Ideal.cmp .ogt v (Ideal.ofBits .f32 0x00000000#32)) (Ideal.ofBits .f32 0x00000000#32) v) - 1)) = elu v := by
  rw [Ideal.ofBits_zero_f32, ofBits_one_f32]
  unfold elu Ideal.cmp Scalar.select
  by_cases h : 0 < v
  · simp [h]
  · simp [h]

/-- A finite sum of coerced reals is the coerced sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- Mean-then-project equals project-then-mean when the hidden values, the projection and the bias are real. -/
theorem headK_eq_headR {h2 : Fin 1024 → Fin 128 → EReal} {wo : Fin 128 → Fin 10 → EReal} {bo : Fin 10 → EReal}
    (hh : ∀ n f, IsReal (h2 n f)) (hw : ∀ f o, IsReal (wo f o)) (hb : ∀ o, IsReal (bo o)) (o : Fin 10) :
    headK h2 wo bo o = headR h2 wo bo o := by
  choose g hg using hh
  choose w hw' using hw
  choose β hβ using hb
  have e2 : h2 = fun n f => ((g n f : ℝ) : EReal) := funext fun n => funext fun f => hg n f
  have ew : wo = fun f o => ((w f o : ℝ) : EReal) := funext fun f => funext fun o => hw' f o
  have eb : bo = fun o => ((β o : ℝ) : EReal) := funext fun o => hβ o
  subst e2 ew eb
  unfold headK headR
  rw [nodes_eq]
  simp only [Ideal.div_coe (by norm_num : (1024 : ℝ) ≠ 0), coe_sum, ← EReal.coe_mul, ← EReal.coe_add]
  congr 1
  simp only [Finset.sum_add_distrib, Finset.sum_const, Finset.card_univ, Fintype.card_fin, nsmul_eq_mul]
  rw [Finset.sum_comm, add_mul, Finset.sum_mul]
  congr 1
  · refine Finset.sum_congr rfl fun f _ => ?_
    rw [Finset.sum_mul, Finset.sum_mul, Finset.sum_mul]
    refine Finset.sum_congr rfl fun n _ => ?_
    ring
  · push_cast; ring

end Cert.Backbone

end
-- ==== Proof.SpecG.lean ====
/-
  The result of either program as ONE function of the eight whole argument arrays: entry (b, o) of the 16 × 10
  result is the mean-first head of graph b's second hidden signal at class o, graph b's node signal and adjacency
  being slab b of the first two arrays and the weights shared by all graphs.
-/
import proofs.«126231_g84078279786961_fold_wed_c4_122_26_alg».proof.Proof.Spec

noncomputable section

namespace Cert.Backbone

open Idealize.ShloMosaic Idealize.ShloMosaic.ValueIdx

/-- Entry `(b, o)` of the result, from the whole argument arrays. -/
def logit (x : (⟨3, ![16, 1024, 1]⟩ : Shape).Idx → EReal) (A : (⟨3, ![16, 1024, 1024]⟩ : Shape).Idx → EReal)
    (W1 : (⟨3, ![5, 1, 128]⟩ : Shape).Idx → EReal) (b1 : (⟨1, ![128]⟩ : Shape).Idx → EReal)
    (W2 : (⟨3, ![3, 128, 128]⟩ : Shape).Idx → EReal) (b2 : (⟨1, ![128]⟩ : Shape).Idx → EReal)
    (Wo : (⟨2, ![128, 10]⟩ : Shape).Idx → EReal) (bo : (⟨1, ![10]⟩ : Shape).Idx → EReal) (b : Fin 16) (o : Fin 10) : EReal :=
  headK
    (hid2 (fun n => x (ix3 b n (0 : Fin 1))) (fun n m => A (ix3 b n m)) (fun i f => W1 (ix3 i (0 : Fin 1) f))
      (fun f => b1 (ix1 f)) (fun i f g => W2 (ix3 i f g)) (fun f => b2 (ix1 f)))
    (fun f o => Wo (ix2 f o)) (fun o => bo (ix1 o)) o

/-- The 16 × 10 result array. -/
def G (x : (⟨3, ![16, 1024, 1]⟩ : Shape).Idx → EReal) (A : (⟨3, ![16, 1024, 1024]⟩ : Shape).Idx → EReal)
    (W1 : (⟨3, ![5, 1, 128]⟩ : Shape).Idx → EReal) (b1 : (⟨1, ![128]⟩ : Shape).Idx → EReal)
    (W2 : (⟨3, ![3, 128, 128]⟩ : Shape).Idx → EReal) (b2 : (⟨1, ![128]⟩ : Shape).Idx → EReal)
    (Wo : (⟨2, ![128, 10]⟩ : Shape).Idx → EReal) (bo : (⟨1, ![10]⟩ : Shape).Idx → EReal) :
    (⟨2, ![16, 10]⟩ : Shape).Idx → EReal :=
  fun i => logit x A W1 b1 W2 b2 Wo bo ⟨(i 0).val, idx2_lt0 i⟩ ⟨(i 1).val, idx2_lt1 i⟩

theorem G_apply (x : (⟨3, ![16, 1024, 1]⟩ : Shape).Idx → EReal) (A : (⟨3, ![16, 1024, 1024]⟩ : Shape).Idx → EReal)
    (W1 : (⟨3, ![5, 1, 128]⟩ : Shape).Idx → EReal) (b1 : (⟨1, ![128]⟩ : Shape).Idx → EReal)
    (W2 : (⟨3, ![3, 128, 128]⟩ : Shape).Idx → EReal) (b2 : (⟨1, ![128]⟩ : Shape).Idx → EReal)
    (Wo : (⟨2, ![128, 10]⟩ : Shape).Idx → EReal) (bo : (⟨1, ![10]⟩ : Shape).Idx → EReal) (b : Fin 16) (o : Fin 10) :
    G x A W1 b1 W2 b2 Wo bo (ix2 b o) = logit x A W1 b1 W2 b2 Wo bo b o := rfl

end Cert.Backbone

end
-- ==== Proof.RRun.lean ====
/-
  The reference program's run, read back. Its @main is a straight line of 81 host operations once the two calls
  of the ELU function (and the two select helpers each of them calls) are unfolded at their call sites; run in
  order from any memory, they leave the result buffer holding ONE pure function `res` of the eight argument arrays
  and leave the arguments as they were.

  `res` is the composition the source spells: layer 1 (the node signal and its first four hops through the
  adjacency, each turned into 128 channels by its tap row, summed, the bias added last), ELU, layer 2 (the hidden
  signal and its first two hops, each multiplied by its tap matrix, summed, bias), ELU, and the head (projection to
  ten classes, bias, sum over the nodes divided by 1024).
-/
import proofs.«126231_g84078279786961_fold_wed_c4_122_26_alg».proof.Proof.Gen.ReferenceIdeal
import Idealize.ShloMosaic.Lib.StableHlo.Run
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-! ## The result as a function of the arguments -/

/-- Tap row `i` of the first layer, as a 1 × 128 matrix. -/
def tap1 (off : Fin 3 → Nat) (h : S5x1x128.Slices off S1x1x128) (W1 : FVec F S5x1x128 .f32) : FVec F S1x128 .f32 :=
  shapeCast S1x128 (extractStridedSlice S1x1x128 off W1 h) shapeCasts_S1x1x128_S1x128

/-- Tap matrix `i` of the second layer, as a 128 × 128 matrix. -/
def tap2 (off : Fin 3 → Nat) (h : S3x128x128.Slices off S1x128x128) (W2 : FVec F S3x128x128 .f32) : FVec F S128x128 .f32 :=
  shapeCast S128x128 (extractStridedSlice S1x128x128 off W2 h) shapeCasts_S1x128x128_S128x128

/-- A scalar node signal times a tap row: 128 channels per node. -/
def dotXW (z : FVec F S16x1024x1 .f32) (w : FVec F S1x128 .f32) : FVec F S16x1024x128 .f32 :=
  Host.dotGeneral dot_S16x1024x1_S1x128_S16x1024x128_2_0_01_1_n_n none z w

/-- One hop of a scalar node signal through each graph's adjacency. -/
def hop1 (A : FVec F S16x1024x1024 .f32) (z : FVec F S16x1024x1 .f32) : FVec F S16x1024x1 .f32 :=
  Host.dotGeneral dot_S16x1024x1024_S16x1024x1_S16x1024x1_2_1_1_2_0_0 none A z

/-- A 128-channel node signal times a tap matrix. -/
def dotHW (h : FVec F S16x1024x128 .f32) (w : FVec F S128x128 .f32) : FVec F S16x1024x128 .f32 :=
  Host.dotGeneral dot_S16x1024x128_S128x128_S16x1024x128_2_0_01_1_n_n none h w

/-- One hop of a 128-channel node signal through each graph's adjacency. -/
def hop2 (A : FVec F S16x1024x1024 .f32) (h : FVec F S16x1024x128 .f32) : FVec F S16x1024x128 .f32 :=
  Host.dotGeneral dot_S16x1024x1024_S16x1024x128_S16x1024x128_2_1_1_2_0_0 none A h

/-- A 128-channel bias spread over every graph and node. -/
def bias128 (b : FVec F S128 .f32) : FVec F S16x1024x128 .f32 :=
  broadcastInDim S16x1024x128 ![0, 1, 2] bcast_S1x1x128_S16x1024x128_0_1_2 (broadcastInDim S1x1x128 ![2] bcast_S128_S1x1x128_2 b)

/-- A float literal spread over every graph, node and channel. -/
def splat (w : BitVec 32) : FVec F S16x1024x128 .f32 :=
  broadcastInDim S16x1024x128 ![] bcast_S_S16x1024x128 (constant S_ .f32 w)

/-- ELU as the source spells it: where `v > 0` the value, elsewhere `1 · expm1` of (`0` where `v > 0`, else `v`). -/
def eluH (v : FVec F S16x1024x128 .f32) : FVec F S16x1024x128 .f32 :=
  select (cmpf .ogt v (splat 0x00000000#32)) v
    (mulf (splat 0x3F800000#32) (Host.expm1 (select (cmpf .ogt v (splat 0x00000000#32)) (splat 0x00000000#32) v)))

/-- The first layer before its ELU. -/
def layer1 (x : FVec F S16x1024x1 .f32) (A : FVec F S16x1024x1024 .f32) (W1 : FVec F S5x1x128 .f32) (b1 : FVec F S128 .f32) :
    FVec F S16x1024x128 .f32 :=
  addf (addf (addf (addf (addf (dotXW x (tap1 ![0, 0, 0] slices_S5x1x128_S1x1x128_0_0_0 W1))
      (dotXW (hop1 A x) (tap1 ![1, 0, 0] slices_S5x1x128_S1x1x128_1_0_0 W1)))
      (dotXW (hop1 A (hop1 A x)) (tap1 ![2, 0, 0] slices_S5x1x128_S1x1x128_2_0_0 W1)))
      (dotXW (hop1 A (hop1 A (hop1 A x))) (tap1 ![3, 0, 0] slices_S5x1x128_S1x1x128_3_0_0 W1)))
      (dotXW (hop1 A (hop1 A (hop1 A (hop1 A x)))) (tap1 ![4, 0, 0] slices_S5x1x128_S1x1x128_4_0_0 W1)))
    (bias128 b1)

/-- The second layer before its ELU. -/
def layer2 (h : FVec F S16x1024x128 .f32) (A : FVec F S16x1024x1024 .f32) (W2 : FVec F S3x128x128 .f32) (b2 : FVec F S128 .f32) :
    FVec F S16x1024x128 .f32 :=
  addf (addf (addf (dotHW h (tap2 ![0, 0, 0] slices_S3x128x128_S1x128x128_0_0_0 W2))
      (dotHW (hop2 A h) (tap2 ![1, 0, 0] slices_S3x128x128_S1x128x128_1_0_0 W2)))
      (dotHW (hop2 A (hop2 A h)) (tap2 ![2, 0, 0] slices_S3x128x128_S1x128x128_2_0_0 W2)))
    (bias128 b2)

/-- The head: projection, bias, sum over the nodes, division by the number of nodes. -/
def head (h2 : FVec F S16x1024x128 .f32) (Wo : FVec F S128x10 .f32) (bo : FVec F S10 .f32) : FVec F S16x10 .f32 :=
  Host.divf
    (Host.reduceAdd
      (addf (Host.dotGeneral dot_S16x1024x128_S128x10_S16x1024x10_2_0_01_1_n_n none h2 Wo)
        (broadcastInDim S16x1024x10 ![0, 1, 2] bcast_S1x1x10_S16x1024x10_0_1_2 (broadcastInDim S1x1x10 ![2] bcast_S10_S1x1x10_2 bo)))
      (constant S_ .f32 0x00000000#32) reducesTo_S16x1024x10_S16x10_d1 h_S_)
    (broadcastInDim S16x10 ![] bcast_S_S16x10 (constant S_ .f32 0x44800000#32))

/-- The reference's result, from its eight arguments. -/
def res (x : FVec F S16x1024x1 .f32) (A : FVec F S16x1024x1024 .f32) (W1 : FVec F S5x1x128 .f32) (b1 : FVec F S128 .f32)
    (W2 : FVec F S3x128x128 .f32) (b2 : FVec F S128 .f32) (Wo : FVec F S128x10 .f32) (bo : FVec F S10 .f32) : FVec F S16x10 .f32 :=
  head (eluH (layer2 (eluH (layer1 x A W1 b1)) A W2 b2)) Wo bo

/-! ## The run -/

/-- @main's operations in order, the calls unfolded at their sites. -/
abbrev ops : List (HloOp τ sig (Elt F)) :=
  [ StableHlo.unary main_arg2 main_v0 ((extractStridedSlice S1x1x128 ![0, 0, 0] · slices_S5x1x128_S1x1x128_0_0_0) : (⟨S5x1x128, .f32⟩ : BufTy).Contents (Elt F) → (⟨S1x1x128, .f32⟩ : BufTy).Contents (Elt F)),
    StableHlo.reshape main_v0 main_v1 rfl shapeCasts_S1x1x128_S1x128,
    StableHlo.binary main_arg0 main_v1 main_v2 ((fun l r => Host.dotGeneral dot_S16x1024x1_S1x128_S16x1024x128_2_0_01_1_n_n none l r) : (⟨S16x1024x1, .f32⟩ : BufTy).Contents (Elt F) → (⟨S1x128, .f32⟩ : BufTy).Contents (Elt F) → (⟨S16x1024x128, .f32⟩ : BufTy).Contents (Elt F)),
    StableHlo.binary main_arg1 main_arg0 main_v3 ((fun l r => Host.dotGeneral dot_S16x1024x1024_S16x1024x1_S16x1024x1_2_1_1_2_0_0 none l r) : (⟨S16x1024x1024, .f32⟩ : BufTy).Contents (Elt F) → (⟨S16x1024x1, .f32⟩ : BufTy).Contents (Elt F) → (⟨S16x1024x1, .f32⟩ : BufTy).Contents (Elt F)),
    StableHlo.unary main_arg2 main_v4 ((extractStridedSlice S1x1x128 ![1, 0, 0] · slices_S5x1x128_S1x1x128_1_0_0) : (⟨S5x1x128, .f32⟩ : BufTy).Contents (Elt F) → (⟨S1x1x128, .f32⟩ : BufTy).Contents (Elt F)),
    StableHlo.reshape main_v4 main_v5 rfl shapeCasts_S1x1x128_S1x128,
    StableHlo.binary main_v3 main_v5 main_v6 ((fun l r => Host.dotGeneral dot_S16x1024x1_S1x128_S16x1024x128_2_0_01_1_n_n none l r) : (⟨S16x1024x1, .f32⟩ : BufTy).Contents (Elt F) → (⟨S1x128, .f32⟩ : BufTy).Contents (Elt F) → (⟨S16x1024x128, .f32⟩ : BufTy).Contents (Elt F)),
    StableHlo.binary main_v2 main_v6 main_v7 (addf : (⟨S16x1024x128, .f32⟩ : BufTy).Contents (Elt F) → (⟨S16x1024x128, .f32⟩ : BufTy).Contents (Elt F) → (⟨S16x1024x128, .f32⟩ : BufTy).Contents (Elt F)),
    StableHlo.binary main_arg1 main_v3 main_v8 ((fun l r => Host.dotGeneral dot_S16x1024x1024_S16x1024x1_S16x1024x1_2_1_1_2_0_0 none l r) : (⟨S16x1024x1024, .f32⟩ : BufTy).Contents (Elt F) → (⟨S16x1024x1, .f32⟩ : BufTy).Contents (Elt F) → (⟨S16x1024x1, .f32⟩ : BufTy).Contents (Elt F)),
    StableHlo.unary main_arg2 main_v9 ((extractStridedSlice S1x1x128 ![2, 0, 0] · slices_S5x1x128_S1x1x128_2_0_0) : (⟨S5x1x128, .f32⟩ : BufTy).Contents (Elt F) → (⟨S1x1x128, .f32⟩ : BufTy).Contents (Elt F)),
    StableHlo.reshape main_v9 main_v10 rfl shapeCasts_S1x1x128_S1x128,
    StableHlo.binary main_v8 main_v10 main_v11 ((fun l r => Host.dotGeneral dot_S16x1024x1_S1x128_S16x1024x128_2_0_01_1_n_n none l r) : (⟨S16x1024x1, .f32⟩ : BufTy).Contents (Elt F) → (⟨S1x128, .f32⟩ : BufTy).Contents (Elt F) → (⟨S16x1024x128, .f32⟩ : BufTy).Contents (Elt F)),
    StableHlo.binary main_v7 main_v11 main_v12 (addf : (⟨S16x1024x128, .f32⟩ : BufTy).Contents (Elt F) → (⟨S16x1024x128, .f32⟩ : BufTy).Contents (Elt F) → (⟨S16x1024x128, .f32⟩ : BufTy).Contents (Elt F)),
    StableHlo.binary main_arg1 main_v8 main_v13 ((fun l r => Host.dotGeneral dot_S16x1024x1024_S16x1024x1_S16x1024x1_2_1_1_2_0_0 none l r) : (⟨S16x1024x1024, .f32⟩ : BufTy).Contents (Elt F) → (⟨S16x1024x1, .f32⟩ : BufTy).Contents (Elt F) → (⟨S16x1024x1, .f32⟩ : BufTy).Contents (Elt F)),
    StableHlo.unary main_arg2 main_v14 ((extractStridedSlice S1x1x128 ![3, 0, 0] · slices_S5x1x128_S1x1x128_3_0_0) : (⟨S5x1x128, .f32⟩ : BufTy).Contents (Elt F) → (⟨S1x1x128, .f32⟩ : BufTy).Contents (Elt F)),
    StableHlo.reshape main_v14 main_v15 rfl shapeCasts_S1x1x128_S1x128,
    StableHlo.binary main_v13 main_v15 main_v16 ((fun l r => Host.dotGeneral dot_S16x1024x1_S1x128_S16x1024x128_2_0_01_1_n_n none l r) : (⟨S16x1024x1, .f32⟩ : BufTy).Contents (Elt F) → (⟨S1x128, .f32⟩ : BufTy).Contents (Elt F) → (⟨S16x1024x128, .f32⟩ : BufTy).Contents (Elt F)),
    StableHlo.binary main_v12 main_v16 main_v17 (addf : (⟨S16x1024x128, .f32⟩ : BufTy).Contents (Elt F) → (⟨S16x1024x128, .f32⟩ : BufTy).Contents (Elt F) → (⟨S16x1024x128, .f32⟩ : BufTy).Contents (Elt F)),
    StableHlo.binary main_arg1 main_v13 main_v18 ((fun l r => Host.dotGeneral dot_S16x1024x1024_S16x1024x1_S16x1024x1_2_1_1_2_0_0 none l r) : (⟨S16x1024x1024, .f32⟩ : BufTy).Contents (Elt F) → (⟨S16x1024x1, .f32⟩ : BufTy).Contents (Elt F) → (⟨S16x1024x1, .f32⟩ : BufTy).Contents (Elt F)),
    StableHlo.unary main_arg2 main_v19 ((extractStridedSlice S1x1x128 ![4, 0, 0] · slices_S5x1x128_S1x1x128_4_0_0) : (⟨S5x1x128, .f32⟩ : BufTy).Contents (Elt F) → (⟨S1x1x128, .f32⟩ : BufTy).Contents (Elt F)),
    StableHlo.reshape main_v19 main_v20 rfl shapeCasts_S1x1x128_S1x128,
    StableHlo.binary main_v18 main_v20 main_v21 ((fun l r => Host.dotGeneral dot_S16x1024x1_S1x128_S16x1024x128_2_0_01_1_n_n none l r) : (⟨S16x1024x1, .f32⟩ : BufTy).Contents (Elt F) → (⟨S1x128, .f32⟩ : BufTy).Contents (Elt F) → (⟨S16x1024x128, .f32⟩ : BufTy).Contents (Elt F)),
    StableHlo.binary main_v17 main_v21 main_v22 (addf : (⟨S16x1024x128, .f32⟩ : BufTy).Contents (Elt F) → (⟨S16x1024x128, .f32⟩ : BufTy).Contents (Elt F) → (⟨S16x1024x128, .f32⟩ : BufTy).Contents (Elt F)),
    StableHlo.unary main_arg3 main_v23 (broadcastInDim S1x1x128 ![2] bcast_S128_S1x1x128_2 : (⟨S128, .f32⟩ : BufTy).Contents (Elt F) → (⟨S1x1x128, .f32⟩ : BufTy).Contents (Elt F)),
    StableHlo.unary main_v23 main_v24 (broadcastInDim S16x1024x128 ![0, 1, 2] bcast_S1x1x128_S16x1024x128_0_1_2 : (⟨S1x1x128, .f32⟩ : BufTy).Contents (Elt F) → (⟨S16x1024x128, .f32⟩ : BufTy).Contents (Elt F)),
    StableHlo.binary main_v22 main_v24 main_v25 (addf : (⟨S16x1024x128, .f32⟩ : BufTy).Contents (Elt F) → (⟨S16x1024x128, .f32⟩ : BufTy).Contents (Elt F) → (⟨S16x1024x128, .f32⟩ : BufTy).Contents (Elt F)),
    StableHlo.TRef.nullary main_call0.cst (constant S_ .f32 0x00000000#32),
    StableHlo.TRef.unary main_call0.cst main_call0.v0 (broadcastInDim S16x1024x128 ![] bcast_S_S16x1024x128),
    StableHlo.TRef.binary (.of main_v25) main_call0.v0 main_call0.v1 (cmpf .ogt),
    StableHlo.TRef.nullary main_call0.cst_0 (constant S_ .f32 0x00000000#32),
    StableHlo.TRef.unary main_call0.cst_0 main_call0.v2 (broadcastInDim S16x1024x128 ![] bcast_S_S16x1024x128),
    StableHlo.TRef.binary (.of main_v25) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S16x1024x128 ![] bcast_S_S16x1024x128),
    StableHlo.TRef.ternary main_call0.v3 main_call0.call0.v1 (.of main_v25) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S16x1024x128 ![] bcast_S_S16x1024x128),
    StableHlo.TRef.binary main_call0.v6 main_call0.v5 main_call0.v7 mulf,
    StableHlo.TRef.ternary main_call0.v1 (.of main_v25) main_call0.v7 main_call0.call1.v0 select,
    StableHlo.unary main_arg4 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v27 main_v28 rfl shapeCasts_S1x128x128_S128x128,
    StableHlo.binary main_v26 main_v28 main_v29 ((fun l r => Host.dotGeneral dot_S16x1024x128_S128x128_S16x1024x128_2_0_01_1_n_n none l r) : (⟨S16x1024x128, .f32⟩ : BufTy).Contents (Elt F) → (⟨S128x128, .f32⟩ : BufTy).Contents (Elt F) → (⟨S16x1024x128, .f32⟩ : BufTy).Contents (Elt F)),
    StableHlo.binary main_arg1 main_v26 main_v30 ((fun l r => Host.dotGeneral dot_S16x1024x1024_S16x1024x128_S16x1024x128_2_1_1_2_0_0 none l r) : (⟨S16x1024x1024, .f32⟩ : BufTy).Contents (Elt F) → (⟨S16x1024x128, .f32⟩ : BufTy).Contents (Elt F) → (⟨S16x1024x128, .f32⟩ : BufTy).Contents (Elt F)),
    StableHlo.unary main_arg4 main_v31 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v31 main_v32 rfl shapeCasts_S1x128x128_S128x128,
    StableHlo.binary main_v30 main_v32 main_v33 ((fun l r => Host.dotGeneral dot_S16x1024x128_S128x128_S16x1024x128_2_0_01_1_n_n none l r) : (⟨S16x1024x128, .f32⟩ : BufTy).Contents (Elt F) → (⟨S128x128, .f32⟩ : BufTy).Contents (Elt F) → (⟨S16x1024x128, .f32⟩ : BufTy).Contents (Elt F)),
    StableHlo.binary main_v29 main_v33 main_v34 (addf : (⟨S16x1024x128, .f32⟩ : BufTy).Contents (Elt F) → (⟨S16x1024x128, .f32⟩ : BufTy).Contents (Elt F) → (⟨S16x1024x128, .f32⟩ : BufTy).Contents (Elt F)),
    StableHlo.binary main_arg1 main_v30 main_v35 ((fun l r => Host.dotGeneral dot_S16x1024x1024_S16x1024x128_S16x1024x128_2_1_1_2_0_0 none l r) : (⟨S16x1024x1024, .f32⟩ : BufTy).Contents (Elt F) → (⟨S16x1024x128, .f32⟩ : BufTy).Contents (Elt F) → (⟨S16x1024x128, .f32⟩ : BufTy).Contents (Elt F)),
    StableHlo.unary main_arg4 main_v36 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v36 main_v37 rfl shapeCasts_S1x128x128_S128x128,
    StableHlo.binary main_v35 main_v37 main_v38 ((fun l r => Host.dotGeneral dot_S16x1024x128_S128x128_S16x1024x128_2_0_01_1_n_n none l r) : (⟨S16x1024x128, .f32⟩ : BufTy).Contents (Elt F) → (⟨S128x128, .f32⟩ : BufTy).Contents (Elt F) → (⟨S16x1024x128, .f32⟩ : BufTy).Contents (Elt F)),
    StableHlo.binary main_v34 main_v38 main_v39 (addf : (⟨S16x1024x128, .f32⟩ : BufTy).Contents (Elt F) → (⟨S16x1024x128, .f32⟩ : BufTy).Contents (Elt F) → (⟨S16x1024x128, .f32⟩ : BufTy).Contents (Elt F)),
    StableHlo.unary main_arg5 main_v40 (broadcastInDim S1x1x128 ![2] bcast_S128_S1x1x128_2 : (⟨S128, .f32⟩ : BufTy).Contents (Elt F) → (⟨S1x1x128, .f32⟩ : BufTy).Contents (Elt F)),
    StableHlo.unary main_v40 main_v41 (broadcastInDim S16x1024x128 ![0, 1, 2] bcast_S1x1x128_S16x1024x128_0_1_2 : (⟨S1x1x128, .f32⟩ : BufTy).Contents (Elt F) → (⟨S16x1024x128, .f32⟩ : BufTy).Contents (Elt F)),
    StableHlo.binary main_v39 main_v41 main_v42 (addf : (⟨S16x1024x128, .f32⟩ : BufTy).Contents (Elt F) → (⟨S16x1024x128, .f32⟩ : BufTy).Contents (Elt F) → (⟨S16x1024x128, .f32⟩ : BufTy).Contents (Elt F)),
    StableHlo.TRef.nullary main_call1.cst (constant S_ .f32 0x00000000#32),
    StableHlo.TRef.unary main_call1.cst main_call1.v0 (broadcastInDim S16x1024x128 ![] bcast_S_S16x1024x128),
    StableHlo.TRef.binary (.of main_v42) main_call1.v0 main_call1.v1 (cmpf .ogt),
    StableHlo.TRef.nullary main_call1.cst_0 (constant S_ .f32 0x00000000#32),
    StableHlo.TRef.unary main_call1.cst_0 main_call1.v2 (broadcastInDim S16x1024x128 ![] bcast_S_S16x1024x128),
    StableHlo.TRef.binary (.of main_v42) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S16x1024x128 ![] bcast_S_S16x1024x128),
    StableHlo.TRef.ternary main_call1.v3 main_call1.call0.v1 (.of main_v42) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S16x1024x128 ![] bcast_S_S16x1024x128),
    StableHlo.TRef.binary main_call1.v6 main_call1.v5 main_call1.v7 mulf,
    StableHlo.TRef.ternary main_call1.v1 (.of main_v42) main_call1.v7 main_call1.call1.v0 select,
    StableHlo.binary main_v43 main_arg6 main_v44 ((fun l r => Host.dotGeneral dot_S16x1024x128_S128x10_S16x1024x10_2_0_01_1_n_n none l r) : (⟨S16x1024x128, .f32⟩ : BufTy).Contents (Elt F) → (⟨S128x10, .f32⟩ : BufTy).Contents (Elt F) → (⟨S16x1024x10, .f32⟩ : BufTy).Contents (Elt F)),
    StableHlo.unary main_arg7 main_v45 (broadcastInDim S1x1x10 ![2] bcast_S10_S1x1x10_2 : (⟨S10, .f32⟩ : BufTy).Contents (Elt F) → (⟨S1x1x10, .f32⟩ : BufTy).Contents (Elt F)),
    StableHlo.unary main_v45 main_v46 (broadcastInDim S16x1024x10 ![0, 1, 2] bcast_S1x1x10_S16x1024x10_0_1_2 : (⟨S1x1x10, .f32⟩ : BufTy).Contents (Elt F) → (⟨S16x1024x10, .f32⟩ : BufTy).Contents (Elt F)),
    StableHlo.binary main_v44 main_v46 main_v47 (addf : (⟨S16x1024x10, .f32⟩ : BufTy).Contents (Elt F) → (⟨S16x1024x10, .f32⟩ : BufTy).Contents (Elt F) → (⟨S16x1024x10, .f32⟩ : BufTy).Contents (Elt F)),
    StableHlo.nullary main_cst (constant S_ .f32 0x00000000#32),
    StableHlo.binary main_v47 main_cst main_v48 ((fun x v => Host.reduceAdd x v reducesTo_S16x1024x10_S16x10_d1 h_S_) : (⟨S16x1024x10, .f32⟩ : BufTy).Contents (Elt F) → (⟨S_, .f32⟩ : BufTy).Contents (Elt F) → (⟨S16x10, .f32⟩ : BufTy).Contents (Elt F)),
    StableHlo.nullary main_cst_0 (constant S_ .f32 0x44800000#32),
    StableHlo.unary main_cst_0 main_v49 (broadcastInDim S16x10 ![] bcast_S_S16x10 : (⟨S_, .f32⟩ : BufTy).Contents (Elt F) → (⟨S16x10, .f32⟩ : BufTy).Contents (Elt F)),
    StableHlo.binary main_v48 main_v49 main_v50 (Host.divf : (⟨S16x10, .f32⟩ : BufTy).Contents (Elt F) → (⟨S16x10, .f32⟩ : BufTy).Contents (Elt F) → (⟨S16x10, .f32⟩ : BufTy).Contents (Elt F)) ]

/-- @main is that straight line: unfolding the three functions at their calls and re-associating the sequencing
    turns it into the list, operation by operation. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., binary_bufs_sub .., binary_bufs_sub .., unary_bufs_sub .., reshape_bufs_sub .., binary_bufs_sub .., binary_bufs_sub .., binary_bufs_sub .., unary_bufs_sub .., reshape_bufs_sub .., binary_bufs_sub .., binary_bufs_sub .., binary_bufs_sub .., unary_bufs_sub .., reshape_bufs_sub .., binary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., binary_bufs_sub .., binary_bufs_sub .., unary_bufs_sub .., reshape_bufs_sub .., binary_bufs_sub .., binary_bufs_sub .., binary_bufs_sub .., unary_bufs_sub .., reshape_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub ..⟩

/-- Every weakly fair execution of @main terminates with each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The fold of the operations at the result buffer is `res` of the argument buffers' contents: each operation's
    result is its pure function of its operands' contents, and no operation writes an argument. -/
theorem res_eq (V : Valuation τ sig (Elt F)) :
    after ops V (main_v50 : DevRef τ sig)
      = res (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp
theorem arg6_eq (V : Valuation τ sig (Elt F)) : after ops V (main_arg6 : DevRef τ sig) = V (main_arg6 : DevRef τ sig) := by
  after_results_simp
theorem arg7_eq (V : Valuation τ sig (Elt F)) : after ops V (main_arg7 : DevRef τ sig) = V (main_arg7 : DevRef τ sig) := by
  after_results_simp

/-- Every weakly fair execution of @main terminates with the result buffer at `res` of the arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v50)
          = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v50).trans (res_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.RefRun

end
-- ==== Proof.ROpsDot.lean ====
/-
  The reference's contractions read at an output index.

  A contraction over ONE axis, read at an output index, is the sum over that axis's coordinate k of the left operand
  times the right operand at the two operand indices with coordinate k. Two forms occur: a stack of matrices times a
  stack of matrices, member by member (the hop a·z of a node signal z, for every graph of the batch), and a stack of
  row-matrices times ONE matrix (the mixing of the channels by a tap matrix). When the contracted axis has extent one
  the sum has a single term.
-/
import proofs.«126231_g84078279786961_fold_wed_c4_122_26_alg».proof.Proof.Gen.ReferenceIdeal
import Idealize.ShloMosaic.Lib.StackMember
import Idealize.ShloMosaic.PureOps.Ideal.Laws
import Idealize.ShloMosaic.Lib.ValueIdx

noncomputable section

namespace Cert.ReferenceIdeal.RefOps

open Cert.ReferenceIdeal Cert.ReferenceIdeal.Facts₀ Idealize.ShloMosaic Idealize.ShloMosaic.ValueIdx

/-- A stack of B matrices N × K times ONE K × O matrix, read at (b, n, o): Σ_k X(b, n, k) · W(k, o). -/
theorem dotGeneral_rows_apply {B N K O : Nat} {φ₁ φ₂ : FTy}
    (w : DotDims.WF ⟨3, ![B, N, K]⟩ ⟨2, ![K, O]⟩ ⟨3, ![B, N, O]⟩ [2] [0] [0, 1] [1] [] [])
    (prec : Option ContractPrecision) (X : FVec Ideal ⟨3, ![B, N, K]⟩ φ₁) (W : FVec Ideal ⟨2, ![K, O]⟩ φ₂)
    (b : Fin B) (n : Fin N) (o : Fin O) :
    Host.dotGeneral (⟨[2], [0], [0, 1], [1], [], [], w⟩ : DotDims _ _ _) prec X W (ix3 b n o)
      = ∑ k : Fin K, X (ix3 b n k) * W (ix2 k o) := by
  show FloatOps.dotGeneral _ prec _ X W (ix3 b n o) = _
  rw [Ideal.dotGeneral_apply,
    ← Equiv.sum_comp (contrEquiv1 (⟨[2], [0], [0, 1], [1], [], [], w⟩ : DotDims _ _ _) K rfl rfl).symm]
  refine Finset.sum_congr rfl fun c _ => ?_
  have c3 := contrEquiv1_symm_val
    (⟨[2], [0], [0, 1], [1], [], [], w⟩ : DotDims ⟨3, ![B, N, K]⟩ ⟨2, ![K, O]⟩ ⟨3, ![B, N, O]⟩) K rfl rfl c
  have l3 : (⟨[2], [0], [0, 1], [1], [], [], w⟩ : DotDims ⟨3, ![B, N, K]⟩ ⟨2, ![K, O]⟩ ⟨3, ![B, N, O]⟩).lhsIdx (ix3 b n o)
      ((contrEquiv1 _ K rfl rfl).symm c) = ix3 b n c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [0], [0, 1], [1], [], [], w⟩ : DotDims ⟨3, ![B, N, K]⟩ ⟨2, ![K, O]⟩ ⟨3, ![B, N, O]⟩).rhsIdx (ix3 b n o)
      ((contrEquiv1 _ K rfl rfl).symm c) = ix2 c o := by
    funext ax; apply Fin.ext
    match ax with
    | ⟨0, _⟩ => simp [DotDims.rhsIdx]; exact c3
    | ⟨1, _⟩ => simp [DotDims.rhsIdx]; rfl
  rw [l3, r3]

variable [Facts₀]

/-- One hop of a one-channel node signal, for every graph: (a z)(b, n, ·) = Σ_m a(b, n, m) · z(b, m, ·). -/
theorem hop1_apply (A : FVec Ideal S16x1024x1024 .f32) (z : FVec Ideal S16x1024x1 .f32) (b : Fin 16) (n : Fin 1024) (u : Fin 1) :
    Host.dotGeneral dot_S16x1024x1024_S16x1024x1_S16x1024x1_2_1_1_2_0_0 none A z (ix3 b n u)
      = ∑ m : Fin 1024, A (ix3 b n m) * z (ix3 b m u) :=
  StackMember.dotGeneral_stack_apply (G := 16) (m := 1024) (n := 1) (k := 1024)
    dot_S16x1024x1024_S16x1024x1_S16x1024x1_2_1_1_2_0_0_wf none A z b n u

/-- One hop of a 128-channel node signal, for every graph: (a z)(b, n, f) = Σ_m a(b, n, m) · z(b, m, f). -/
theorem hop128_apply (A : FVec Ideal S16x1024x1024 .f32) (z : FVec Ideal S16x1024x128 .f32) (b : Fin 16) (n : Fin 1024) (f : Fin 128) :
    Host.dotGeneral dot_S16x1024x1024_S16x1024x128_S16x1024x128_2_1_1_2_0_0 none A z (ix3 b n f)
      = ∑ m : Fin 1024, A (ix3 b n m) * z (ix3 b m f) :=
  StackMember.dotGeneral_stack_apply (G := 16) (m := 1024) (n := 128) (k := 1024)
    dot_S16x1024x1024_S16x1024x128_S16x1024x128_2_1_1_2_0_0_wf none A z b n f

/-- A one-channel signal times a tap row: the contracted axis has extent one, so the sum is the single product. -/
theorem tap1_apply (z : FVec Ideal S16x1024x1 .f32) (w : FVec Ideal S1x128 .f32) (b : Fin 16) (n : Fin 1024) (o : Fin 128) :
    Host.dotGeneral dot_S16x1024x1_S1x128_S16x1024x128_2_0_01_1_n_n none z w (ix3 b n o)
      = z (ix3 b n (0 : Fin 1)) * w (ix2 (0 : Fin 1) o) :=
  (dotGeneral_rows_apply (B := 16) (N := 1024) (K := 1) (O := 128)
    dot_S16x1024x1_S1x128_S16x1024x128_2_0_01_1_n_n_wf none z w b n o).trans (Fin.sum_univ_one _)

/-- A 128-channel signal times a 128 × 128 tap matrix: Σ_f h(b, n, f) · w(f, o). -/
theorem tap128_apply (h : FVec Ideal S16x1024x128 .f32) (w : FVec Ideal S128x128 .f32) (b : Fin 16) (n : Fin 1024) (o : Fin 128) :
    Host.dotGeneral dot_S16x1024x128_S128x128_S16x1024x128_2_0_01_1_n_n none h w (ix3 b n o)
      = ∑ f : Fin 128, h (ix3 b n f) * w (ix2 f o) :=
  dotGeneral_rows_apply (B := 16) (N := 1024) (K := 128) (O := 128)
    dot_S16x1024x128_S128x128_S16x1024x128_2_0_01_1_n_n_wf none h w b n o

/-- A 128-channel signal times the 128 × 10 projection: Σ_f h(b, n, f) · w(f, o). -/
theorem proj_apply (h : FVec Ideal S16x1024x128 .f32) (w : FVec Ideal S128x10 .f32) (b : Fin 16) (n : Fin 1024) (o : Fin 10) :
    Host.dotGeneral dot_S16x1024x128_S128x10_S16x1024x10_2_0_01_1_n_n none h w (ix3 b n o)
      = ∑ f : Fin 128, h (ix3 b n f) * w (ix2 f o) :=
  dotGeneral_rows_apply (B := 16) (N := 1024) (K := 128) (O := 10)
    dot_S16x1024x128_S128x10_S16x1024x10_2_0_01_1_n_n_wf none h w b n o

end Cert.ReferenceIdeal.RefOps

end
-- ==== Proof.ROpsLayout.lean ====
/-
  The reference's layout operations and its node sum, read at an index.

  Tap i of a stack of taps is cut out by a unit-stride slice at offset (i, 0, 0) and a reshape that drops the leading
  unit axis: at (·, o), resp. (f, g), it is the stack at (i, ·, o), resp. (i, f, g). A bias vector is copied to every
  node of every graph in two steps (to a 1 × 1 × c block, then to the whole array): at (b, n, o) it is the vector at o.
  A scalar constant copied to every index is that constant. The sum over the node axis, from an initial value, read at
  (b, o), is the initial value plus Σ_n of the operand at (b, n, o); the host's division is the division of extended reals.
-/
import proofs.«126231_g84078279786961_fold_wed_c4_122_26_alg».proof.Proof.Gen.ReferenceIdeal
import Idealize.ShloMosaic.Lib.Pipeline.Value
import Idealize.ShloMosaic.PureOps.Ideal
import Idealize.ShloMosaic.PureOps.Ideal.Laws
import Idealize.ShloMosaic.Lib.ValueIdx

noncomputable section

namespace Cert.ReferenceIdeal.RefOps

open Cert.ReferenceIdeal Cert.ReferenceIdeal.Facts₀ Idealize.ShloMosaic Idealize.ShloMosaic.ValueIdx

variable {α : Type}

/-- Tap row i of the five 1 × 128 tap rows. -/
theorem tapRow_apply (W1 : S5x1x128.Idx → α) (off : Fin 3 → Nat) (i : Fin 5) (hoff : off = ![i.val, 0, 0])
    (h : S5x1x128.Slices off S1x1x128) (h' : S1x1x128.ShapeCasts S1x128) (u : Fin 1) (o : Fin 128) :
    shapeCast S1x128 (extractStridedSlice S1x1x128 off W1 h) h' (ix2 u o) = W1 (ix3 i (0 : Fin 1) o) := by
  subst hoff
  refine (shapeCast_apply _ h' (ix2 u o) (ix3 (0 : Fin 1) (0 : Fin 1) o) ?_).trans ?_
  · rw [Shape.rowMajor_val_three, Shape.rowMajor_val_two]
    show ((0 : ℕ) * 1 + 0) * 128 + o.val = u.val * 128 + o.val
    have hu : u.val = 0 := by omega
    rw [hu]
  · refine extractStridedSlice_apply _ W1 h (ix3 (0 : Fin 1) (0 : Fin 1) o) (ix3 i (0 : Fin 1) o) fun a => ?_
    match a with
    | ⟨0, _⟩ => show i.val = i.val + 0; omega
    | ⟨1, _⟩ => show (0 : ℕ) = 0 + 0; rfl
    | ⟨2, _⟩ => show o.val = 0 + o.val; omega

/-- Tap matrix i of the three 128 × 128 tap matrices. -/
theorem tapMat_apply (W2 : S3x128x128.Idx → α) (off : Fin 3 → Nat) (i : Fin 3) (hoff : off = ![i.val, 0, 0])
    (h : S3x128x128.Slices off S1x128x128) (h' : S1x128x128.ShapeCasts S128x128) (f g : Fin 128) :
    shapeCast S128x128 (extractStridedSlice S1x128x128 off W2 h) h' (ix2 f g) = W2 (ix3 i f g) := by
  subst hoff
  refine (shapeCast_apply _ h' (ix2 f g) (ix3 (0 : Fin 1) f g) ?_).trans ?_
  · rw [Shape.rowMajor_val_three, Shape.rowMajor_val_two]
    show ((0 : ℕ) * 128 + f.val) * 128 + g.val = f.val * 128 + g.val
    omega
  · refine extractStridedSlice_apply _ W2 h (ix3 (0 : Fin 1) f g) (ix3 i f g) fun a => ?_
    match a with
    | ⟨0, _⟩ => show i.val = i.val + 0; omega
    | ⟨1, _⟩ => show f.val = 0 + f.val; omega
    | ⟨2, _⟩ => show g.val = 0 + g.val; omega

/-- A 128-vector copied to every node of every graph. -/
theorem bias128_apply (v : S128.Idx → α) (h1 : S128.BroadcastsInDim S1x1x128 (![2] : Fin 1 → Fin S1x1x128.rank))
    (h2 : S1x1x128.BroadcastsInDim S16x1024x128 (![0, 1, 2] : Fin 3 → Fin S16x1024x128.rank))
    (b : Fin 16) (n : Fin 1024) (o : Fin 128) :
    broadcastInDim S16x1024x128 ![0, 1, 2] h2 (broadcastInDim S1x1x128 ![2] h1 v) (ix3 b n o) = v (ix1 o) := by
  refine (broadcastInDim_apply _ h2 _ (ix3 b n o) (ix3 (0 : Fin 1) (0 : Fin 1) o) fun a => ?_).trans ?_
  · match a with
    | ⟨0, _⟩ => rfl
    | ⟨1, _⟩ => rfl
    | ⟨2, _⟩ => rfl
  · refine broadcastInDim_apply _ h1 v (ix3 (0 : Fin 1) (0 : Fin 1) o) (ix1 o) fun a => ?_
    match a with
    | ⟨0, _⟩ => rfl

/-- A 10-vector copied to every node of every graph. -/
theorem bias10_apply (v : S10.Idx → α) (h1 : S10.BroadcastsInDim S1x1x10 (![2] : Fin 1 → Fin S1x1x10.rank))
    (h2 : S1x1x10.BroadcastsInDim S16x1024x10 (![0, 1, 2] : Fin 3 → Fin S16x1024x10.rank))
    (b : Fin 16) (n : Fin 1024) (o : Fin 10) :
    broadcastInDim S16x1024x10 ![0, 1, 2] h2 (broadcastInDim S1x1x10 ![2] h1 v) (ix3 b n o) = v (ix1 o) := by
  refine (broadcastInDim_apply _ h2 _ (ix3 b n o) (ix3 (0 : Fin 1) (0 : Fin 1) o) fun a => ?_).trans ?_
  · match a with
    | ⟨0, _⟩ => rfl
    | ⟨1, _⟩ => rfl
    | ⟨2, _⟩ => rfl
  · refine broadcastInDim_apply _ h1 v (ix3 (0 : Fin 1) (0 : Fin 1) o) (ix1 o) fun a => ?_
    match a with
    | ⟨0, _⟩ => rfl

/-- A scalar copied to every index of a shape reads the scalar everywhere. -/
theorem splat_apply {t : Shape} (c : S_.Idx → α) (h : S_.BroadcastsInDim t (![] : Fin 0 → Fin t.rank)) (j : t.Idx) (k : S_.Idx) :
    broadcastInDim t ![] h c j = c k :=
  broadcastInDim_apply _ h c j k fun a => a.elim0

/-- A scalar float constant copied to every index of a shape reads the constant's value everywhere. -/
theorem splat_constant_apply {t : Shape} (w : BitVec 32) (h : S_.BroadcastsInDim t (![] : Fin 0 → Fin t.rank)) (j : t.Idx) :
    broadcastInDim t ![] h (constant (F := Ideal) S_ .f32 w) j = Ideal.ofBits .f32 w :=
  splat_apply _ h j (fun a => a.elim0)

/-- The sum over the node axis from an initial scalar: the scalar plus Σ_n x(b, n, o). -/
theorem nodeSum_apply (x : FVec Ideal S16x1024x10 .f32) (v : FVec Ideal S_ .f32) (h' : S16x1024x10.ReducesTo [1] S16x10)
    (hu : 0 < S_.numel) (b : Fin 16) (o : Fin 10) :
    Host.reduceAdd x v h' hu (ix2 b o) = v (Shape.Idx.first hu) + ∑ n : Fin 1024, x (ix3 b n o) := by
  have h : S16x1024x10.Reduces [1] S16x10 := ⟨h'.1, Nat.two_pos, h'.2⟩
  show Ideal.hostReduceAdd h' x _ (ix2 b o) = _
  rw [Ideal.hostReduceAdd_single h' h]
  refine congrArg (_ + ·) (Finset.sum_congr rfl fun k _ => ?_)
  refine congrArg x (funext fun a => Fin.ext ?_)
  match a with
  | ⟨0, _⟩ => rfl
  | ⟨1, _⟩ => rfl
  | ⟨2, _⟩ => rfl

/-- The sum over the node axis from the zero constant: Σ_n x(b, n, o). -/
theorem nodeSum_zero_apply (x : FVec Ideal S16x1024x10 .f32) (h' : S16x1024x10.ReducesTo [1] S16x10)
    (hu : 0 < S_.numel) (b : Fin 16) (o : Fin 10) :
    Host.reduceAdd x (constant (F := Ideal) S_ .f32 0x00000000#32) h' hu (ix2 b o) = ∑ n : Fin 1024, x (ix3 b n o) := by
  rw [nodeSum_apply]
  show Ideal.ofBits .f32 0x00000000#32 + _ = _
  rw [Ideal.ofBits_zero_f32, zero_add]

/-- The host's division at an index divides the elements. -/
theorem hostDivf_apply {s : Shape} (x y : FVec Ideal s .f32) (j : s.Idx) : Host.divf x y j = Ideal.div (x j) (y j) := rfl

end Cert.ReferenceIdeal.RefOps

end
-- ==== Proof.ROpsElu.lean ====
/-
  The reference's ELU read at an index.

  The program computes ELU of v as  select(v > 0, v, 1 · expm1(select(v > 0, 0, v))):  the inner select keeps the
  exponential's argument at most zero, the factor one is ELU's scale parameter at its default. Where v is not above
  zero the inner select is v, so the whole is v above zero and e^v - 1 elsewhere: the ELU of the extended real v.
-/
import proofs.«126231_g84078279786961_fold_wed_c4_122_26_alg».proof.Proof.Gen.ReferenceIdeal
import proofs.«126231_g84078279786961_fold_wed_c4_122_26_alg».proof.Proof.Spec
import Idealize.ShloMosaic.Lib.Pipeline.Value
import Idealize.ShloMosaic.PureOps.Ideal
import Idealize.ShloMosaic.PureOps.Ideal.Laws
import Idealize.ShloMosaic.Lib.ValueIdx

noncomputable section

namespace Cert.ReferenceIdeal.RefOps

open Cert.ReferenceIdeal Cert.ReferenceIdeal.Facts₀ Idealize.ShloMosaic Idealize.ShloMosaic.ValueIdx

/-- The ELU's operations composed, as one function of the pre-activation array: the zero and one constants copied to
    every index, the two comparisons with zero, the inner select, expm1, the product with one, the outer select. -/
def eluChain (h : S_.BroadcastsInDim S16x1024x128 (![] : Fin 0 → Fin S16x1024x128.rank)) (v : FVec Ideal S16x1024x128 .f32) :
    FVec Ideal S16x1024x128 .f32 :=
  select (cmpf .ogt v (broadcastInDim S16x1024x128 ![] h (constant (F := Ideal) S_ .f32 0x00000000#32))) v
    (mulf (broadcastInDim S16x1024x128 ![] h (constant (F := Ideal) S_ .f32 0x3F800000#32))
      (Host.expm1 (select (cmpf .ogt v (broadcastInDim S16x1024x128 ![] h (constant (F := Ideal) S_ .f32 0x00000000#32)))
        (broadcastInDim S16x1024x128 ![] h (id (constant (F := Ideal) S_ .f32 0x00000000#32))) v)))

/-- At every index the chain is the ELU of the element. -/
theorem eluChain_apply (h : S_.BroadcastsInDim S16x1024x128 (![] : Fin 0 → Fin S16x1024x128.rank))
    (v : FVec Ideal S16x1024x128 .f32) (j : S16x1024x128.Idx) : eluChain h v j = Cert.Backbone.elu (v j) :=
  Cert.Backbone.elu_of_select (v j)

/-- The same at coordinates. -/
theorem eluChain_ix3 (h : S_.BroadcastsInDim S16x1024x128 (![] : Fin 0 → Fin S16x1024x128.rank))
    (v : FVec Ideal S16x1024x128 .f32) (b : Fin 16) (n : Fin 1024) (o : Fin 128) :
    eluChain h v (ix3 b n o) = Cert.Backbone.elu (v (ix3 b n o)) :=
  eluChain_apply h v _

end Cert.ReferenceIdeal.RefOps

end
-- ==== Proof.RValLayers.lean ====
/-
  The reference's two graph-filter layers and its head, read at an index.

  Each is stated over ARBITRARY tap and bias operands, given what they read at an index: the five tap rows r_i at
  (·, o) are w1 i o, the three tap matrices m_i at (f, g) are w2 i f g, the bias arrays at (b, n, o) are the bias at o.
  For graph b of the batch, with xg n = x(b, n, ·) and a n m = A(b, n, m):

  • the k-th hop array at (b, n, ·) is the k-fold hop of xg at n, so the first layer's sum — the five rank-one
    updates in order, then the bias — is pre1 at (n, o), in which the bias comes first: addition of extended reals is
    commutative and associative;
  • the second layer's sum — three channel mixings of the 0th to 2nd hops of the hidden signal, then the bias — is
    pre2 at (n, o), term for term;
  • the head — projection, bias, sum over the nodes from zero, division by the node count — is headR.
-/
import proofs.«126231_g84078279786961_fold_wed_c4_122_26_alg».proof.Proof.Gen.ReferenceIdeal
import proofs.«126231_g84078279786961_fold_wed_c4_122_26_alg».proof.Proof.Spec
import proofs.«126231_g84078279786961_fold_wed_c4_122_26_alg».proof.Proof.ROpsDot
import proofs.«126231_g84078279786961_fold_wed_c4_122_26_alg».proof.Proof.ROpsLayout
import proofs.«126231_g84078279786961_fold_wed_c4_122_26_alg».proof.Proof.ROpsElu

noncomputable section

namespace Cert.ReferenceIdeal.RefOps

open Cert.ReferenceIdeal Cert.ReferenceIdeal.Facts₀ Idealize.ShloMosaic Idealize.ShloMosaic.ValueIdx Cert.Backbone

variable [Facts₀]

local notation "hop1" => Host.dotGeneral (F := Ideal) dot_S16x1024x1024_S16x1024x1_S16x1024x1_2_1_1_2_0_0 none
local notation "tap1" => Host.dotGeneral (F := Ideal) dot_S16x1024x1_S1x128_S16x1024x128_2_0_01_1_n_n none
local notation "hop128" => Host.dotGeneral (F := Ideal) dot_S16x1024x1024_S16x1024x128_S16x1024x128_2_1_1_2_0_0 none
local notation "tap128" => Host.dotGeneral (F := Ideal) dot_S16x1024x128_S128x128_S16x1024x128_2_0_01_1_n_n none
local notation "proj" => Host.dotGeneral (F := Ideal) dot_S16x1024x128_S128x10_S16x1024x10_2_0_01_1_n_n none

/-- A sum of two arrays at an index is the sum of the elements. -/
theorem addf_apply {s : Shape} (u v : FVec Ideal s .f32) (j : s.Idx) : addf u v j = u j + v j := rfl

/-- The hop array of a one-channel signal, for graph b, is the hop of that graph's signal. -/
theorem hop1_fun (A : FVec Ideal S16x1024x1024 .f32) (z : FVec Ideal S16x1024x1 .f32) (b : Fin 16) :
    (fun n => hop1 A z (ix3 b n (0 : Fin 1))) = hopv (fun n m => A (ix3 b n m)) (fun n => z (ix3 b n (0 : Fin 1))) := by
  funext n
  rw [hop1_apply]
  rfl

/-- The hop array of a 128-channel signal, for graph b, is the hop of that graph's signal. -/
theorem hop128_fun (A : FVec Ideal S16x1024x1024 .f32) (z : FVec Ideal S16x1024x128 .f32) (b : Fin 16) :
    (fun n f => hop128 A z (ix3 b n f)) = hopm (fun n m => A (ix3 b n m)) (fun n f => z (ix3 b n f)) := by
  funext n f
  rw [hop128_apply]
  rfl

/-- The first layer before its ELU. -/
theorem layer1_apply (x : FVec Ideal S16x1024x1 .f32) (A : FVec Ideal S16x1024x1024 .f32)
    (r0 r1 r2 r3 r4 : FVec Ideal S1x128 .f32) (bb : FVec Ideal S16x1024x128 .f32)
    (w1 : Fin 5 → Fin 128 → EReal) (b1 : Fin 128 → EReal)
    (h0 : ∀ o, r0 (ix2 (0 : Fin 1) o) = w1 0 o) (h1 : ∀ o, r1 (ix2 (0 : Fin 1) o) = w1 1 o)
    (h2 : ∀ o, r2 (ix2 (0 : Fin 1) o) = w1 2 o) (h3 : ∀ o, r3 (ix2 (0 : Fin 1) o) = w1 3 o)
    (h4 : ∀ o, r4 (ix2 (0 : Fin 1) o) = w1 4 o) (hb : ∀ b n o, bb (ix3 b n o) = b1 o)
    (b : Fin 16) (n : Fin 1024) (o : Fin 128) :
    addf (addf (addf (addf (addf (tap1 x r0) (tap1 (hop1 A x) r1)) (tap1 (hop1 A (hop1 A x)) r2))
        (tap1 (hop1 A (hop1 A (hop1 A x))) r3)) (tap1 (hop1 A (hop1 A (hop1 A (hop1 A x)))) r4)) bb (ix3 b n o)
      = pre1 (fun n => x (ix3 b n (0 : Fin 1))) (fun n m => A (ix3 b n m)) w1 b1 n o := by
  have E1 := hop1_fun A x b
  have E2 := (hop1_fun A (hop1 A x) b).trans (congrArg (hopv fun n m => A (ix3 b n m)) E1)
  have E3 := (hop1_fun A (hop1 A (hop1 A x)) b).trans (congrArg (hopv fun n m => A (ix3 b n m)) E2)
  have E4 := (hop1_fun A (hop1 A (hop1 A (hop1 A x))) b).trans (congrArg (hopv fun n m => A (ix3 b n m)) E3)
  have e1 := congrFun E1 n
  have e2 := congrFun E2 n
  have e3 := congrFun E3 n
  have e4 := congrFun E4 n
  rw [addf_apply, addf_apply, addf_apply, addf_apply, addf_apply, tap1_apply, tap1_apply, tap1_apply, tap1_apply,
    tap1_apply, h0, h1, h2, h3, h4, hb, e1, e2, e3, e4]
  unfold pre1
  beta_reduce
  ac_rfl

/-- The second layer before its ELU. -/
theorem layer2_apply (h : FVec Ideal S16x1024x128 .f32) (A : FVec Ideal S16x1024x1024 .f32)
    (m0 m1 m2 : FVec Ideal S128x128 .f32) (bb : FVec Ideal S16x1024x128 .f32)
    (w2 : Fin 3 → Fin 128 → Fin 128 → EReal) (b2 : Fin 128 → EReal)
    (h0 : ∀ f g, m0 (ix2 f g) = w2 0 f g) (h1 : ∀ f g, m1 (ix2 f g) = w2 1 f g) (h2 : ∀ f g, m2 (ix2 f g) = w2 2 f g)
    (hb : ∀ b n o, bb (ix3 b n o) = b2 o) (b : Fin 16) (n : Fin 1024) (o : Fin 128) :
    addf (addf (addf (tap128 h m0) (tap128 (hop128 A h) m1)) (tap128 (hop128 A (hop128 A h)) m2)) bb (ix3 b n o)
      = pre2 (fun n f => h (ix3 b n f)) (fun n m => A (ix3 b n m)) w2 b2 n o := by
  have E1 := hop128_fun A h b
  have E2 := (hop128_fun A (hop128 A h) b).trans (congrArg (hopm fun n m => A (ix3 b n m)) E1)
  rw [addf_apply, addf_apply, addf_apply, tap128_apply, tap128_apply, tap128_apply, hb]
  unfold pre2
  refine congrArg₂ (· + ·) (congrArg₂ (· + ·) (congrArg₂ (· + ·) ?_ ?_) ?_) rfl
  · exact Finset.sum_congr rfl fun f _ => by rw [h0]
  · exact Finset.sum_congr rfl fun f _ => by rw [h1]; exact congrArg (· * _) (congrFun (congrFun E1 n) f)
  · exact Finset.sum_congr rfl fun f _ => by rw [h2]; exact congrArg (· * _) (congrFun (congrFun E2 n) f)

/-- The head: projection, bias, mean over the nodes. -/
theorem head_apply (h2 : FVec Ideal S16x1024x128 .f32) (Wo : FVec Ideal S128x10 .f32) (bb : FVec Ideal S16x1024x10 .f32)
    (bo : Fin 10 → EReal) (hb : ∀ b n o, bb (ix3 b n o) = bo o) (h' : S16x1024x10.ReducesTo [1] S16x10) (hu : 0 < S_.numel)
    (hs : S_.BroadcastsInDim S16x10 (![] : Fin 0 → Fin S16x10.rank)) (b : Fin 16) (o : Fin 10) :
    Host.divf (Host.reduceAdd (addf (proj h2 Wo) bb) (constant (F := Ideal) S_ .f32 0x00000000#32) h' hu)
        (broadcastInDim S16x10 ![] hs (constant (F := Ideal) S_ .f32 0x44800000#32)) (ix2 b o)
      = headR (fun n f => h2 (ix3 b n f)) (fun f o => Wo (ix2 f o)) bo o := by
  rw [hostDivf_apply, nodeSum_zero_apply, splat_constant_apply]
  unfold headR nodes
  refine congrArg (Ideal.div · _) (Finset.sum_congr rfl fun n _ => ?_)
  rw [addf_apply, proj_apply, hb]

end Cert.ReferenceIdeal.RefOps

end
-- ==== Proof.RValue.lean ====
/-
  The reference's result read at an index.

  The result is the head of ELU of the second layer of ELU of the first layer. For graph b of the batch, with
  xg n = x(b, n, ·), a n m = A(b, n, m) and the taps and biases read off their arrays, the first layer's ELU at
  (b, n, f) is hid1 at (n, f), the second layer's ELU is hid2 there, and the head at (b, o) is headR of hid2 at o.
-/
import proofs.«126231_g84078279786961_fold_wed_c4_122_26_alg».proof.Proof.Gen.ReferenceIdeal
import proofs.«126231_g84078279786961_fold_wed_c4_122_26_alg».proof.Proof.Spec
import proofs.«126231_g84078279786961_fold_wed_c4_122_26_alg».proof.Proof.RRun
import proofs.«126231_g84078279786961_fold_wed_c4_122_26_alg».proof.Proof.RValLayers

noncomputable section

namespace Cert.ReferenceIdeal.RefValue

open Cert.ReferenceIdeal Idealize.ShloMosaic Idealize.ShloMosaic.ValueIdx Cert.Backbone

/-- The ELU stage at an index is the ELU of the element. -/
theorem eluH_apply (v : FVec Ideal S16x1024x128 .f32) (j : S16x1024x128.Idx) :
    RefRun.eluH (F := Ideal) v j = elu (v j) :=
  elu_of_select (v j)

/-- The bias stage at (b, n, o) is the bias at o. -/
theorem bias128_apply (v : FVec Ideal S128 .f32) (b : Fin 16) (n : Fin 1024) (o : Fin 128) :
    RefRun.bias128 (F := Ideal) v (ix3 b n o) = v (ix1 o) :=
  RefOps.bias128_apply v _ _ b n o

/-- The first layer before its ELU, for graph b. -/
theorem layer1_apply (x : FVec Ideal S16x1024x1 .f32) (A : FVec Ideal S16x1024x1024 .f32) (W1 : FVec Ideal S5x1x128 .f32)
    (b1 : FVec Ideal S128 .f32) (b : Fin 16) (n : Fin 1024) (o : Fin 128) :
    RefRun.layer1 (F := Ideal) x A W1 b1 (ix3 b n o)
      = pre1 (fun n => x (ix3 b n (0 : Fin 1))) (fun n m => A (ix3 b n m)) (fun i f => W1 (ix3 i (0 : Fin 1) f))
          (fun f => b1 (ix1 f)) n o :=
  RefOps.layer1_apply x A _ _ _ _ _ (RefRun.bias128 b1) (fun i f => W1 (ix3 i (0 : Fin 1) f)) (fun f => b1 (ix1 f))
    (fun o => RefOps.tapRow_apply W1 _ 0 rfl _ _ 0 o) (fun o => RefOps.tapRow_apply W1 _ 1 rfl _ _ 0 o)
    (fun o => RefOps.tapRow_apply W1 _ 2 rfl _ _ 0 o) (fun o => RefOps.tapRow_apply W1 _ 3 rfl _ _ 0 o)
    (fun o => RefOps.tapRow_apply W1 _ 4 rfl _ _ 0 o) (fun b n o => bias128_apply b1 b n o) b n o

/-- The second layer before its ELU, for graph b, of any hidden signal. -/
theorem layer2_apply (h : FVec Ideal S16x1024x128 .f32) (A : FVec Ideal S16x1024x1024 .f32) (W2 : FVec Ideal S3x128x128 .f32)
    (b2 : FVec Ideal S128 .f32) (b : Fin 16) (n : Fin 1024) (o : Fin 128) :
    RefRun.layer2 (F := Ideal) h A W2 b2 (ix3 b n o)
      = pre2 (fun n f => h (ix3 b n f)) (fun n m => A (ix3 b n m)) (fun i f g => W2 (ix3 i f g)) (fun f => b2 (ix1 f)) n o :=
  RefOps.layer2_apply h A _ _ _ (RefRun.bias128 b2) (fun i f g => W2 (ix3 i f g)) (fun f => b2 (ix1 f))
    (fun f g => RefOps.tapMat_apply W2 _ 0 rfl _ _ f g) (fun f g => RefOps.tapMat_apply W2 _ 1 rfl _ _ f g)
    (fun f g => RefOps.tapMat_apply W2 _ 2 rfl _ _ f g) (fun b n o => bias128_apply b2 b n o) b n o

/-- The head, for graph b, of any hidden signal. -/
theorem head_apply (h2 : FVec Ideal S16x1024x128 .f32) (Wo : FVec Ideal S128x10 .f32) (bo : FVec Ideal S10 .f32)
    (b : Fin 16) (o : Fin 10) :
    RefRun.head (F := Ideal) h2 Wo bo (ix2 b o)
      = headR (fun n f => h2 (ix3 b n f)) (fun f o => Wo (ix2 f o)) (fun o => bo (ix1 o)) o :=
  RefOps.head_apply h2 Wo _ (fun o => bo (ix1 o)) (fun b n o => RefOps.bias10_apply bo _ _ b n o) _ _ _ b o

/-- The first hidden signal, for graph b. -/
theorem hid1_fun (x : FVec Ideal S16x1024x1 .f32) (A : FVec Ideal S16x1024x1024 .f32) (W1 : FVec Ideal S5x1x128 .f32)
    (b1 : FVec Ideal S128 .f32) (b : Fin 16) :
    (fun n f => RefRun.eluH (F := Ideal) (RefRun.layer1 x A W1 b1) (ix3 b n f))
      = hid1 (fun n => x (ix3 b n (0 : Fin 1))) (fun n m => A (ix3 b n m)) (fun i f => W1 (ix3 i (0 : Fin 1) f))
          (fun f => b1 (ix1 f)) := by
  funext n f
  rw [eluH_apply, layer1_apply]
  rfl

/-- The second hidden signal, for graph b. -/
theorem hid2_fun (x : FVec Ideal S16x1024x1 .f32) (A : FVec Ideal S16x1024x1024 .f32) (W1 : FVec Ideal S5x1x128 .f32)
    (b1 : FVec Ideal S128 .f32) (W2 : FVec Ideal S3x128x128 .f32) (b2 : FVec Ideal S128 .f32) (b : Fin 16) :
    (fun n f => RefRun.eluH (F := Ideal) (RefRun.layer2 (RefRun.eluH (RefRun.layer1 x A W1 b1)) A W2 b2) (ix3 b n f))
      = hid2 (fun n => x (ix3 b n (0 : Fin 1))) (fun n m => A (ix3 b n m)) (fun i f => W1 (ix3 i (0 : Fin 1) f))
          (fun f => b1 (ix1 f)) (fun i f g => W2 (ix3 i f g)) (fun f => b2 (ix1 f)) := by
  funext n f
  rw [eluH_apply, layer2_apply, hid1_fun]
  rfl

/-- The reference's result at (b, o): the projection-first head of the second hidden signal of graph b. -/
theorem res_apply (x : FVec Ideal S16x1024x1 .f32) (A : FVec Ideal S16x1024x1024 .f32) (W1 : FVec Ideal S5x1x128 .f32)
    (b1 : FVec Ideal S128 .f32) (W2 : FVec Ideal S3x128x128 .f32) (b2 : FVec Ideal S128 .f32) (Wo : FVec Ideal S128x10 .f32)
    (bo : FVec Ideal S10 .f32) (b : Fin 16) (o : Fin 10) :
    Cert.ReferenceIdeal.RefRun.res (F := Ideal) x A W1 b1 W2 b2 Wo bo (ix2 b o)
      = Cert.Backbone.headR
          (Cert.Backbone.hid2 (fun n => x (ix3 b n (0 : Fin 1))) (fun n m => A (ix3 b n m)) (fun i f => W1 (ix3 i (0 : Fin 1) f))
            (fun f => b1 (ix1 f)) (fun i f g => W2 (ix3 i f g)) (fun f => b2 (ix1 f)))
          (fun f o => Wo (ix2 f o)) (fun o => bo (ix1 o)) o := by
  show RefRun.head (RefRun.eluH (RefRun.layer2 (RefRun.eluH (RefRun.layer1 x A W1 b1)) A W2 b2)) Wo bo (ix2 b o) = _
  rw [head_apply, hid2_fun]

end Cert.ReferenceIdeal.RefValue

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.KOps.lean ====
/-
  The kernel's vector operations read at one index, at the ideal values, over VARIABLES of the literal vector types:
  the four matrix products into a zero accumulator as plain sums, two half-height products stacked along the rows as
  one hop of the adjacency, a rank-one tap update, the ELU, the column sum, and the tap matrices read through a
  dropped unit axis.
-/
import proofs.«126231_g84078279786961_fold_wed_c4_122_26_alg».proof.Proof.Spec
import proofs.«126231_g84078279786961_fold_wed_c4_122_26_alg».proof.Proof.LibMatmul
import proofs.«126231_g84078279786961_fold_wed_c4_122_26_alg».proof.Proof.LibKeepdims
import proofs.«126231_g84078279786961_fold_wed_c4_122_26_alg».proof.Proof.Gen.KernelIdeal.Skeleton
import Idealize.ShloMosaic.Lib.ValueLayout

noncomputable section

namespace Cert.KernelIdeal.Pay

open Idealize.ShloMosaic Idealize.ShloMosaic.ValueIdx Cert.KernelIdeal Cert.KernelIdeal.Gen Cert.Backbone

/-- The one column of a 1024 × 1 matrix, as a function of the node. -/
def colOf {φ : FTy} (v : FVec Ideal S1024x1 φ) : Fin 1024 → EReal := fun m => v (ix2 m (0 : Fin 1))

/-- A 1024 × 128 matrix as a function of the node and the channel. -/
def matOf {φ : FTy} (v : FVec Ideal S1024x128 φ) : Fin 1024 → Fin 128 → EReal := fun n f => v (ix2 n f)

/-! ## The four products, each a sum over its one contracted axis -/

theorem mm_v (A : FVec Ideal S512x1024 .bf16) (z : FVec Ideal S1024x1 .bf16) (p : Fin 512) (u : Fin 1) :
    matmul dot_S512x1024_S1024x1_S512x1_1_0_0_1_n_n none A z (constant S512x1 .f32 0x00000000#32) (ix2 p u)
      = ∑ m : Fin 1024, A (ix2 p m) * z (ix2 m u) := by
  refine Cert.LibMatmul.matmul_zero_sum1 dot_S512x1024_S1024x1_S512x1_1_0_0_1_n_n none 1024 rfl rfl A z (ix2 p u)
    (fun m => ix2 p m) (fun m => ix2 m u) (fun q k hk => ?_) (fun q k hk => ?_)
  · funext a
    match a with
    | ⟨0, _⟩ => apply Fin.ext; simp [DotDims.lhsIdx, dot_S512x1024_S1024x1_S512x1_1_0_0_1_n_n]; try first | rfl | exact hk
    | ⟨1, _⟩ => apply Fin.ext; simp [DotDims.lhsIdx, dot_S512x1024_S1024x1_S512x1_1_0_0_1_n_n]; try first | rfl | exact hk
  · funext a
    match a with
    | ⟨0, _⟩ => apply Fin.ext; simp [DotDims.rhsIdx, dot_S512x1024_S1024x1_S512x1_1_0_0_1_n_n]; try first | rfl | exact hk
    | ⟨1, _⟩ => apply Fin.ext; simp [DotDims.rhsIdx, dot_S512x1024_S1024x1_S512x1_1_0_0_1_n_n]; try first | rfl | exact hk

theorem mm_m (A : FVec Ideal S512x1024 .bf16) (z : FVec Ideal S1024x128 .bf16) (p : Fin 512) (f : Fin 128) :
    matmul dot_S512x1024_S1024x128_S512x128_1_0_0_1_n_n none A z (constant S512x128 .f32 0x00000000#32) (ix2 p f)
      = ∑ m : Fin 1024, A (ix2 p m) * z (ix2 m f) := by
  refine Cert.LibMatmul.matmul_zero_sum1 dot_S512x1024_S1024x128_S512x128_1_0_0_1_n_n none 1024 rfl rfl A z (ix2 p f)
    (fun m => ix2 p m) (fun m => ix2 m f) (fun q k hk => ?_) (fun q k hk => ?_)
  · funext a
    match a with
    | ⟨0, _⟩ => apply Fin.ext; simp [DotDims.lhsIdx, dot_S512x1024_S1024x128_S512x128_1_0_0_1_n_n]; try first | rfl | exact hk
    | ⟨1, _⟩ => apply Fin.ext; simp [DotDims.lhsIdx, dot_S512x1024_S1024x128_S512x128_1_0_0_1_n_n]; try first | rfl | exact hk
  · funext a
    match a with
    | ⟨0, _⟩ => apply Fin.ext; simp [DotDims.rhsIdx, dot_S512x1024_S1024x128_S512x128_1_0_0_1_n_n]; try first | rfl | exact hk
    | ⟨1, _⟩ => apply Fin.ext; simp [DotDims.rhsIdx, dot_S512x1024_S1024x128_S512x128_1_0_0_1_n_n]; try first | rfl | exact hk

theorem mm_w (H : FVec Ideal S1024x128 .f32) (W : FVec Ideal S128x128 .f32) (n : Fin 1024) (o : Fin 128) :
    matmul dot_S1024x128_S128x128_S1024x128_1_0_0_1_n_n none H W (constant S1024x128 .f32 0x00000000#32) (ix2 n o)
      = ∑ f : Fin 128, H (ix2 n f) * W (ix2 f o) := by
  refine Cert.LibMatmul.matmul_zero_sum1 dot_S1024x128_S128x128_S1024x128_1_0_0_1_n_n none 128 rfl rfl H W (ix2 n o)
    (fun f => ix2 n f) (fun f => ix2 f o) (fun q k hk => ?_) (fun q k hk => ?_)
  · funext a
    match a with
    | ⟨0, _⟩ => apply Fin.ext; simp [DotDims.lhsIdx, dot_S1024x128_S128x128_S1024x128_1_0_0_1_n_n]; try first | rfl | exact hk
    | ⟨1, _⟩ => apply Fin.ext; simp [DotDims.lhsIdx, dot_S1024x128_S128x128_S1024x128_1_0_0_1_n_n]; try first | rfl | exact hk
  · funext a
    match a with
    | ⟨0, _⟩ => apply Fin.ext; simp [DotDims.rhsIdx, dot_S1024x128_S128x128_S1024x128_1_0_0_1_n_n]; try first | rfl | exact hk
    | ⟨1, _⟩ => apply Fin.ext; simp [DotDims.rhsIdx, dot_S1024x128_S128x128_S1024x128_1_0_0_1_n_n]; try first | rfl | exact hk

theorem mm_o (M : FVec Ideal S1x128 .f32) (W : FVec Ideal S128x10 .f32) (u : Fin 1) (o : Fin 10) :
    matmul dot_S1x128_S128x10_S1x10_1_0_0_1_n_n none M W (constant S1x10 .f32 0x00000000#32) (ix2 u o)
      = ∑ f : Fin 128, M (ix2 u f) * W (ix2 f o) := by
  refine Cert.LibMatmul.matmul_zero_sum1 dot_S1x128_S128x10_S1x10_1_0_0_1_n_n none 128 rfl rfl M W (ix2 u o)
    (fun f => ix2 u f) (fun f => ix2 f o) (fun q k hk => ?_) (fun q k hk => ?_)
  · funext a
    match a with
    | ⟨0, _⟩ => apply Fin.ext; simp [DotDims.lhsIdx, dot_S1x128_S128x10_S1x10_1_0_0_1_n_n]; try first | rfl | exact hk
    | ⟨1, _⟩ => apply Fin.ext; simp [DotDims.lhsIdx, dot_S1x128_S128x10_S1x10_1_0_0_1_n_n]; try first | rfl | exact hk
  · funext a
    match a with
    | ⟨0, _⟩ => apply Fin.ext; simp [DotDims.rhsIdx, dot_S1x128_S128x10_S1x10_1_0_0_1_n_n]; try first | rfl | exact hk
    | ⟨1, _⟩ => apply Fin.ext; simp [DotDims.rhsIdx, dot_S1x128_S128x10_S1x10_1_0_0_1_n_n]; try first | rfl | exact hk

/-! ## Two matrices stacked along the rows -/

theorem concat_rows_left {α : Type} {n1 n2 n c : ℕ} (x₁ : (⟨2, ![n1, c]⟩ : Shape).Idx → α) (x₂ : (⟨2, ![n2, c]⟩ : Shape).Idx → α)
    (h : Shape.Concatenates [⟨2, ![n1, c]⟩, ⟨2, ![n2, c]⟩] ⟨2, ![n, c]⟩ 0) (j : Fin n) (e : Fin c) (hj : j.val < n1) :
    concatenate ⟨2, ![n, c]⟩ 0 [⟨⟨2, ![n1, c]⟩, x₁⟩, ⟨⟨2, ![n2, c]⟩, x₂⟩] h (ix2 j e) = x₁ (ix2 ⟨j.val, hj⟩ e) :=
  concatenate_pair_apply_left 0 x₁ x₂ h (ix2 j e) rfl (ix2 ⟨j.val, hj⟩ e) (fun b => by
    match b with
    | ⟨0, _⟩ => rfl
    | ⟨1, _⟩ => rfl)

theorem concat_rows_right {α : Type} {n1 n2 n c : ℕ} (x₁ : (⟨2, ![n1, c]⟩ : Shape).Idx → α) (x₂ : (⟨2, ![n2, c]⟩ : Shape).Idx → α)
    (h : Shape.Concatenates [⟨2, ![n1, c]⟩, ⟨2, ![n2, c]⟩] ⟨2, ![n, c]⟩ 0) (j : Fin n) (e : Fin c) (hj : n1 ≤ j.val)
    (hj2 : j.val - n1 < n2) :
    concatenate ⟨2, ![n, c]⟩ 0 [⟨⟨2, ![n1, c]⟩, x₁⟩, ⟨⟨2, ![n2, c]⟩, x₂⟩] h (ix2 j e) = x₂ (ix2 ⟨j.val - n1, hj2⟩ e) :=
  concatenate_pair_apply_right 0 x₁ x₂ h (ix2 j e) rfl rfl (ix2 ⟨j.val - n1, hj2⟩ e)
    (fun b hb => by
      match b, hb with
      | ⟨0, _⟩, hb => exact absurd rfl hb
      | ⟨1, _⟩, _ => rfl)
    (by show (j.val - n1) + n1 = j.val; omega)

/-! ## One hop of the adjacency: two half-height products stacked -/

/-- A node below 512 reads the top half, a node from 512 on the bottom half at the row 512 less: together, row `n` of
    the whole adjacency `a`. -/
theorem hopV_apply (a : Fin 1024 → Fin 1024 → EReal) (At Ab : FVec Ideal S512x1024 .bf16) (z : FVec Ideal S1024x1 .bf16)
    (hAt : ∀ (p : Fin 512) (m : Fin 1024), At (ix2 p m) = a ⟨p.val, Nat.lt_of_lt_of_le p.isLt (by decide)⟩ m)
    (hAb : ∀ (p : Fin 512) (m : Fin 1024), Ab (ix2 p m) = a ⟨512 + p.val, Nat.add_lt_add_left p.isLt 512⟩ m)
    (n : Fin 1024) :
    concatenate S1024x1 0
        [⟨S512x1, matmul dot_S512x1024_S1024x1_S512x1_1_0_0_1_n_n none At z (constant S512x1 .f32 0x00000000#32)⟩,
         ⟨S512x1, matmul dot_S512x1024_S1024x1_S512x1_1_0_0_1_n_n none Ab z (constant S512x1 .f32 0x00000000#32)⟩] Facts₀.concatenates_S512x1_S512x1_S1024x1_d0
        (ix2 n (0 : Fin 1))
      = hopv a (colOf z) n := by
  unfold hopv colOf
  by_cases hn : n.val < 512
  · refine (concat_rows_left _ _ Facts₀.concatenates_S512x1_S512x1_S1024x1_d0 n 0 hn).trans ?_
    refine (mm_v At z ⟨n.val, hn⟩ 0).trans ?_
    exact Finset.sum_congr rfl fun m _ => by rw [hAt]
  · have h1 : 512 ≤ n.val := by omega
    have h2 : n.val - 512 < 512 := by have := n.isLt; omega
    refine (concat_rows_right _ _ Facts₀.concatenates_S512x1_S512x1_S1024x1_d0 n 0 h1 h2).trans ?_
    refine (mm_v Ab z ⟨n.val - 512, h2⟩ 0).trans ?_
    refine Finset.sum_congr rfl fun m _ => ?_
    rw [hAb]
    have e : (⟨512 + (n.val - 512), Nat.add_lt_add_left h2 512⟩ : Fin 1024) = n := Fin.ext (by show 512 + (n.val - 512) = n.val; omega)
    rw [e]

/-- The same for a 128-channel signal, channel by channel. -/
theorem hopM_apply (a : Fin 1024 → Fin 1024 → EReal) (At Ab : FVec Ideal S512x1024 .bf16) (z : FVec Ideal S1024x128 .bf16)
    (hAt : ∀ (p : Fin 512) (m : Fin 1024), At (ix2 p m) = a ⟨p.val, Nat.lt_of_lt_of_le p.isLt (by decide)⟩ m)
    (hAb : ∀ (p : Fin 512) (m : Fin 1024), Ab (ix2 p m) = a ⟨512 + p.val, Nat.add_lt_add_left p.isLt 512⟩ m)
    (n : Fin 1024) (f : Fin 128) :
    concatenate S1024x128 0
        [⟨S512x128, matmul dot_S512x1024_S1024x128_S512x128_1_0_0_1_n_n none At z (constant S512x128 .f32 0x00000000#32)⟩,
         ⟨S512x128, matmul dot_S512x1024_S1024x128_S512x128_1_0_0_1_n_n none Ab z (constant S512x128 .f32 0x00000000#32)⟩] Facts₀.concatenates_S512x128_S512x128_S1024x128_d0
        (ix2 n f)
      = hopm a (matOf z) n f := by
  unfold hopm matOf
  by_cases hn : n.val < 512
  · refine (concat_rows_left _ _ Facts₀.concatenates_S512x128_S512x128_S1024x128_d0 n f hn).trans ?_
    refine (mm_m At z ⟨n.val, hn⟩ f).trans ?_
    exact Finset.sum_congr rfl fun m _ => by rw [hAt]
  · have h1 : 512 ≤ n.val := by omega
    have h2 : n.val - 512 < 512 := by have := n.isLt; omega
    refine (concat_rows_right _ _ Facts₀.concatenates_S512x128_S512x128_S1024x128_d0 n f h1 h2).trans ?_
    refine (mm_m Ab z ⟨n.val - 512, h2⟩ f).trans ?_
    refine Finset.sum_congr rfl fun m _ => ?_
    rw [hAb]
    have e : (⟨512 + (n.val - 512), Nat.add_lt_add_left h2 512⟩ : Fin 1024) = n := Fin.ext (by show 512 + (n.val - 512) = n.val; omega)
    rw [e]

/-! ## A rank-one tap update, the bias row, the ELU, the column sum, a tap matrix -/

/-- Adding the outer product of a node column with tap row `i` of the 5 × 128 tap array. -/
theorem tap_apply (acc : FVec Ideal S1024x128 .f32) (col : FVec Ideal S1024x1 .f32) (w1 : FVec Ideal S5x128 .f32) (i : ℕ) (k : Fin 5)
    (hk : k.val = i) (hs : S5x128.Slices ![i, 0] S1x128) (hb1 : S1024x1.Broadcasts S1024x128) (hb2 : S1x128.Broadcasts S1024x128)
    (n : Fin 1024) (o : Fin 128) :
    addf acc (mulf (broadcastTo S1024x128 col hb1) (broadcastTo S1024x128 (extractStridedSlice S1x128 ![i, 0] w1 hs) hb2)) (ix2 n o)
      = acc (ix2 n o) + colOf col n * w1 (ix2 k o) := by
  unfold colOf
  rw [addf_apply, mulf_apply, Cert.LibKeepdims.broadcastTo_a1_ab_apply, broadcastTo_1b_ab_apply,
    slice2_axis0_apply i w1 hs (0 : Fin 1) o k (by show k.val = i + 0; rw [hk]; rfl)]

/-- A 1 × 128 row broadcast over the nodes. -/
theorem row_apply (b : FVec Ideal S1x128 .f32) (hb2 : S1x128.Broadcasts S1024x128) (n : Fin 1024) (o : Fin 128) :
    broadcastTo S1024x128 b hb2 (ix2 n o) = b (ix2 (0 : Fin 1) o) :=
  broadcastTo_1b_ab_apply b hb2 n o

/-- The ELU as the kernel spells it, at an index. -/
theorem elu_apply (v : FVec Ideal S1024x128 .f32) (i : S1024x128.Idx) :
    select (cmpf .ogt v (broadcast S1024x128 (Scalar.ofBits .f32 0x00000000#32))) v
        (subf (exp (minimumf v (broadcast S1024x128 (Scalar.ofBits .f32 0x00000000#32))))
          (broadcast S1024x128 (Scalar.ofBits .f32 0x3F800000#32))) i
      = elu (v i) :=
  elu_of_min (v i)

/-- The sum over the nodes of one channel. -/
theorem colsum_apply (v : FVec Ideal S1024x128 .f32) (h : S1024x128.Reduces [0] S128) (hφ : FKind.Formats .f32)
    (hacc : (0x00000000#32 : BitVec 32) = 0x00000000#32) (f : Fin 128) :
    multiReduction .add [0] S128 v 0x00000000#32 h hφ hacc (ix1 f) = ∑ n : Fin 1024, v (ix2 n f) := by
  refine (Ideal.multiReduction_add_single v 0x00000000#32 h hφ hacc (ix1 f)).trans ?_
  refine Finset.sum_congr rfl fun n _ => congrArg v ?_
  funext c
  match c with
  | ⟨0, _⟩ => rfl
  | ⟨1, _⟩ => rfl

/-- A product with a 128 × 128 tap matrix loaded as a 1 × 128 × 128 block. -/
theorem proj_apply (H : FVec Ideal S1024x128 .f32) (W : Vec Ideal S1x128x128 .f32) (hs : S1x128x128.ShapeCasts S128x128)
    (n : Fin 1024) (o : Fin 128) :
    matmul dot_S1024x128_S128x128_S1024x128_1_0_0_1_n_n none H (shapeCast S128x128 W hs : FVec Ideal S128x128 .f32) (constant S1024x128 .f32 0x00000000#32) (ix2 n o)
      = ∑ f : Fin 128, H (ix2 n f) * W (ix3 (0 : Fin 1) f o) := by
  refine (mm_w H (shapeCast S128x128 W hs : FVec Ideal S128x128 .f32) n o).trans ?_
  refine Finset.sum_congr rfl fun f _ => ?_
  rw [shapeCast_1ab_ab_apply]

end Cert.KernelIdeal.Pay

end
-- ==== Proof.KPayA.lean ====
/-
  Graph 0's chain of stored values, each read at an index: the hops of the node signal, the first layer's accumulator,
  its ELU, the second layer's accumulator, and the head (mean over the nodes, projection, bias).
-/
import proofs.«126231_g84078279786961_fold_wed_c4_122_26_alg».proof.Proof.KOps

noncomputable section

namespace Cert.KernelIdeal.Pay

open Idealize.ShloMosaic Idealize.ShloMosaic.ValueIdx Cert.KernelIdeal Cert.KernelIdeal.Gen Cert.Backbone

section
variable (a : Fin 1024 → Fin 1024 → EReal) (At Ab : FVec Ideal S512x1024 .bf16)
  (hAt : ∀ (p : Fin 512) (m : Fin 1024), At (ix2 p m) = a ⟨p.val, Nat.lt_of_lt_of_le p.isLt (by decide)⟩ m)
  (hAb : ∀ (p : Fin 512) (m : Fin 1024), Ab (ix2 p m) = a ⟨512 + p.val, Nat.add_lt_add_left p.isLt 512⟩ m)

include hAt hAb

/-- The first three hops of the node signal. -/
theorem colOf_pay12 (z : FVec Ideal S1024x1 .bf16) : colOf (k0_pay12 At Ab z) = hopv a (colOf z) :=
  funext fun n => hopV_apply a At Ab z hAt hAb n

theorem colOf_pay14 (z : FVec Ideal S1024x1 .bf16) : colOf (k0_pay14 At Ab z) = hopv a (hopv a (colOf z)) := by
  funext n
  refine (hopV_apply a At Ab _ hAt hAb n).trans ?_
  exact congrArg (fun c => hopv a c n) (colOf_pay12 a At Ab hAt hAb z)

theorem colOf_pay17 (z : FVec Ideal S1024x1 .bf16) : colOf (k0_pay17 At Ab z) = hopv a (hopv a (hopv a (colOf z))) := by
  funext n
  refine (hopV_apply a At Ab _ hAt hAb n).trans ?_
  exact congrArg (fun c => hopv a c n) (colOf_pay14 a At Ab hAt hAb z)

/-- The first layer's accumulator after taps 1 to 3. -/
theorem pay19_apply (v1 : FVec Ideal S5x128 .f32) (v25 : FVec Ideal S1024x128 .f32) (z : FVec Ideal S1024x1 .bf16)
    (n : Fin 1024) (o : Fin 128) :
    k0_pay19 v1 At Ab v25 z (ix2 n o)
      = v25 (ix2 n o) + hopv a (colOf z) n * v1 (ix2 (1 : Fin 5) o) + hopv a (hopv a (colOf z)) n * v1 (ix2 (2 : Fin 5) o)
        + hopv a (hopv a (hopv a (colOf z))) n * v1 (ix2 (3 : Fin 5) o) := by
  simp only [k0_pay19]
  rw [tap_apply _ _ _ 3 3 rfl, tap_apply _ _ _ 2 2 rfl, tap_apply _ _ _ 1 1 rfl,
    colOf_pay12 a At Ab hAt hAb, colOf_pay14 a At Ab hAt hAb, colOf_pay17 a At Ab hAt hAb]

/-- The fourth hop, the last tap and the ELU: the first hidden signal. -/
theorem pay20_apply (v1 : FVec Ideal S5x128 .f32) (v73 : FVec Ideal S1024x1 .f32) (v82 : FVec Ideal S1024x128 .f32)
    (n : Fin 1024) (o : Fin 128) :
    k0_pay20 v1 At Ab v73 v82 (ix2 n o) = elu (v82 (ix2 n o) + hopv a (colOf v73) n * v1 (ix2 (4 : Fin 5) o)) := by
  refine (elu_apply _ (ix2 n o)).trans ?_
  refine congrArg elu ?_
  refine (tap_apply v82 _ v1 4 4 rfl Facts₀.slices_S5x128_o4_0_S1x128 Facts₀.broadcasts_S1024x1_S1024x128 Facts₀.broadcasts_S1x128_S1024x128 n o).trans ?_
  refine congrArg (fun c => v82 (ix2 n o) + c * v1 (ix2 (4 : Fin 5) o)) ?_
  exact hopV_apply a At Ab _ hAt hAb n

/-- The second layer's accumulator: tap 0 arrives as `v124`, taps 1 and 2 are one and two hops of the hidden signal. -/
theorem pay23_apply (v113 v124 : FVec Ideal S1024x128 .f32) (v136 v152 : Vec Ideal S1x128x128 .f32) (n : Fin 1024) (o : Fin 128) :
    k0_pay23 At Ab v113 v124 v136 v152 (ix2 n o)
      = v124 (ix2 n o) + (∑ f : Fin 128, hopm a (matOf v113) n f * v136 (ix3 (0 : Fin 1) f o))
        + (∑ f : Fin 128, hopm a (hopm a (matOf v113)) n f * v152 (ix3 (0 : Fin 1) f o)) := by
  simp only [k0_pay23]
  rw [addf_apply, addf_apply, proj_apply, proj_apply]
  refine congrArg₂ (· + ·) (congrArg₂ (· + ·) rfl (Finset.sum_congr rfl fun f _ => congrArg (· * _) ?_))
    (Finset.sum_congr rfl fun f _ => congrArg (· * _) ?_)
  · exact hopM_apply a At Ab _ hAt hAb n f
  · refine (hopM_apply a At Ab _ hAt hAb n f).trans ?_
    refine congrFun (congrFun (congrArg (hopm a) ?_) n) f
    funext m g
    exact hopM_apply a At Ab _ hAt hAb m g

end

/-- The first layer's accumulator before any hop: the bias row plus the signal times tap row 0. -/
theorem pay9_apply (v0 : Vec Ideal S5x128 .f32) (v14 : Vec Ideal S1x1024x1 .f32) (v18 : Vec Ideal S1x128 .f32) (n : Fin 1024) (o : Fin 128) :
    k0_pay9 v0 v14 v18 (ix2 n o) = v18 (ix2 (0 : Fin 1) o) + v14 (ix3 (0 : Fin 1) n (0 : Fin 1)) * v0 (ix2 (0 : Fin 5) o) := by
  refine (tap_apply _ (k0_pay7 v14) (k0_pay2 v0) 0 0 rfl Facts₀.slices_S5x128_o0_0_S1x128 Facts₀.broadcasts_S1024x1_S1024x128 Facts₀.broadcasts_S1x128_S1024x128 n o).trans ?_
  rw [row_apply, shapeCast_self]
  unfold colOf k0_pay7 k0_pay2
  rw [shapeCast_1ab_ab_apply, shapeCast_self]

/-- The signal as the hops take it. -/
theorem colOf_pay11 (v14 : Vec Ideal S1x1024x1 .f32) : colOf (k0_pay11 v14) = fun n => v14 (ix3 (0 : Fin 1) n (0 : Fin 1)) := by
  funext n
  unfold colOf k0_pay11 k0_pay7
  rw [truncf_apply, shapeCast_1ab_ab_apply]

/-- Tap 0 of the second layer. -/
theorem pay22_apply (v1 : FVec Ideal S5x128 .f32) (At Ab : FVec Ideal S512x1024 .bf16) (v73 : FVec Ideal S1024x1 .f32)
    (v82 : FVec Ideal S1024x128 .f32) (v122 : Vec Ideal S1x128x128 .f32) (n : Fin 1024) (o : Fin 128) :
    k0_pay22 v1 At Ab v73 v82 v122 (ix2 n o) = ∑ f : Fin 128, k0_pay20 v1 At Ab v73 v82 (ix2 n f) * v122 (ix3 (0 : Fin 1) f o) :=
  proj_apply _ v122 Facts₀.shapeCasts_S1x128x128_S128x128 n o

/-- The head: bias, ELU, mean over the nodes, projection, bias. -/
theorem pay25_apply (v155 : FVec Ideal S1024x128 .f32) (v160 : Vec Ideal S1x128 .f32) (v188 : Vec Ideal S128x10 .f32)
    (v190 : Vec Ideal S1x10 .f32) (u w : Fin 1) (o : Fin 10) :
    k0_pay25 v155 v160 v188 v190 (ix3 u w o)
      = (∑ f : Fin 128, Ideal.div (∑ n : Fin 1024, elu (v155 (ix2 n f) + v160 (ix2 (0 : Fin 1) f))) nodes * v188 (ix2 f o))
        + v190 (ix2 (0 : Fin 1) o) := by
  simp only [k0_pay25, shapeCast_self]
  rw [shapeCast_ab_1ab_apply, addf_apply, mm_o]
  have hw : w = 0 := Subsingleton.elim _ _
  subst hw
  refine congrArg (· + v190 (ix2 (0 : Fin 1) o)) (Finset.sum_congr rfl fun f _ => congrArg (· * v188 (ix2 f o)) ?_)
  rw [divf_apply, shapeCast_a_1a_apply, colsum_apply]
  refine congrArg₂ Ideal.div (Finset.sum_congr rfl fun n _ => ?_) rfl
  rw [elu_apply, addf_apply, row_apply]

end Cert.KernelIdeal.Pay

end
-- ==== Proof.KPayB.lean ====
/-
  Graph 1's chain of stored values, each read at an index. The same mathematics as graph 0's, cut into stored values at
  other places: the hops take the float signal and narrow it themselves, the third tap is added with the fourth, tap 0 of
  the second layer is added with the others, and the mean's division is done with the projection.
-/
import proofs.«126231_g84078279786961_fold_wed_c4_122_26_alg».proof.Proof.KOps

noncomputable section

namespace Cert.KernelIdeal.Pay

open Idealize.ShloMosaic Idealize.ShloMosaic.ValueIdx Cert.KernelIdeal Cert.KernelIdeal.Gen Cert.Backbone

section
variable (a : Fin 1024 → Fin 1024 → EReal) (At Ab : FVec Ideal S512x1024 .bf16)
  (hAt : ∀ (p : Fin 512) (m : Fin 1024), At (ix2 p m) = a ⟨p.val, Nat.lt_of_lt_of_le p.isLt (by decide)⟩ m)
  (hAb : ∀ (p : Fin 512) (m : Fin 1024), Ab (ix2 p m) = a ⟨512 + p.val, Nat.add_lt_add_left p.isLt 512⟩ m)

include hAt hAb

/-- The first three hops of the node signal. -/
theorem colOf_pay13 (z : FVec Ideal S1024x1 .f32) : colOf (k0_pay13 At Ab z) = hopv a (colOf z) :=
  funext fun n => hopV_apply a At Ab _ hAt hAb n

theorem colOf_pay15 (z : FVec Ideal S1024x1 .f32) : colOf (k0_pay15 At Ab z) = hopv a (hopv a (colOf z)) := by
  funext n
  refine (hopV_apply a At Ab _ hAt hAb n).trans ?_
  exact congrArg (fun c => hopv a c n) (colOf_pay13 a At Ab hAt hAb z)

theorem colOf_pay18 (z : FVec Ideal S1024x1 .f32) : colOf (k0_pay18 At Ab z) = hopv a (hopv a (hopv a (colOf z))) := by
  funext n
  refine (hopV_apply a At Ab _ hAt hAb n).trans ?_
  exact congrArg (fun c => hopv a c n) (colOf_pay15 a At Ab hAt hAb z)

/-- The first layer's accumulator after taps 1 and 2. -/
theorem pay16_apply (v1 : FVec Ideal S5x128 .f32) (z : FVec Ideal S1024x1 .f32) (v33 : FVec Ideal S1024x128 .f32)
    (n : Fin 1024) (o : Fin 128) :
    k0_pay16 v1 At Ab z v33 (ix2 n o)
      = v33 (ix2 n o) + hopv a (colOf z) n * v1 (ix2 (1 : Fin 5) o) + hopv a (hopv a (colOf z)) n * v1 (ix2 (2 : Fin 5) o) := by
  simp only [k0_pay16]
  rw [tap_apply _ _ _ 2 2 rfl, tap_apply _ _ _ 1 1 rfl,
    colOf_pay13 a At Ab hAt hAb, colOf_pay15 a At Ab hAt hAb]

/-- Tap 3, the fourth hop, tap 4 and the ELU: the first hidden signal. -/
theorem pay21_apply (v1 : FVec Ideal S5x128 .f32) (v69 : FVec Ideal S1024x128 .f32) (v77 : FVec Ideal S1024x1 .f32)
    (n : Fin 1024) (o : Fin 128) :
    k0_pay21 v1 At Ab v69 v77 (ix2 n o)
      = elu (v69 (ix2 n o) + colOf v77 n * v1 (ix2 (3 : Fin 5) o) + hopv a (colOf v77) n * v1 (ix2 (4 : Fin 5) o)) := by
  refine (elu_apply _ (ix2 n o)).trans ?_
  refine congrArg elu ?_
  refine (tap_apply _ _ v1 4 4 rfl Facts₀.slices_S5x128_o4_0_S1x128 Facts₀.broadcasts_S1024x1_S1024x128 Facts₀.broadcasts_S1x128_S1024x128 n o).trans ?_
  refine congrArg₂ (fun x c => x + c * v1 (ix2 (4 : Fin 5) o)) ?_ ?_
  · exact tap_apply v69 v77 v1 3 3 rfl Facts₀.slices_S5x128_o3_0_S1x128 Facts₀.broadcasts_S1024x1_S1024x128 Facts₀.broadcasts_S1x128_S1024x128 n o
  · exact hopV_apply a At Ab _ hAt hAb n

/-- The second layer's accumulator: the hidden signal and its one and two hops through the three tap matrices. -/
theorem pay24_apply (v121 : FVec Ideal S1024x128 .f32) (v125 v140 v156 : Vec Ideal S1x128x128 .f32) (n : Fin 1024) (o : Fin 128) :
    k0_pay24 At Ab v121 v125 v140 v156 (ix2 n o)
      = (∑ f : Fin 128, v121 (ix2 n f) * v125 (ix3 (0 : Fin 1) f o))
        + (∑ f : Fin 128, hopm a (matOf v121) n f * v140 (ix3 (0 : Fin 1) f o))
        + (∑ f : Fin 128, hopm a (hopm a (matOf v121)) n f * v156 (ix3 (0 : Fin 1) f o)) := by
  simp only [k0_pay24]
  rw [addf_apply, addf_apply, proj_apply, proj_apply, proj_apply]
  refine congrArg₂ (· + ·) (congrArg₂ (· + ·) rfl (Finset.sum_congr rfl fun f _ => congrArg (· * _) ?_))
    (Finset.sum_congr rfl fun f _ => congrArg (· * _) ?_)
  · exact hopM_apply a At Ab _ hAt hAb n f
  · refine (hopM_apply a At Ab _ hAt hAb n f).trans ?_
    refine congrFun (congrFun (congrArg (hopm a) ?_) n) f
    funext m g
    exact hopM_apply a At Ab _ hAt hAb m g

end

/-- The first layer's accumulator before any hop: the bias row plus the signal times tap row 0. -/
theorem pay10_apply (v0 : Vec Ideal S5x128 .f32) (v16 : Vec Ideal S1x1024x1 .f32) (v26 : Vec Ideal S1x128 .f32) (n : Fin 1024) (o : Fin 128) :
    k0_pay10 v0 v16 v26 (ix2 n o) = v26 (ix2 (0 : Fin 1) o) + v16 (ix3 (0 : Fin 1) n (0 : Fin 1)) * v0 (ix2 (0 : Fin 5) o) := by
  refine (tap_apply _ (k0_pay8 v16) (k0_pay2 v0) 0 0 rfl Facts₀.slices_S5x128_o0_0_S1x128 Facts₀.broadcasts_S1024x1_S1024x128 Facts₀.broadcasts_S1x128_S1024x128 n o).trans ?_
  rw [row_apply, shapeCast_self]
  unfold colOf k0_pay8 k0_pay2
  rw [shapeCast_1ab_ab_apply, shapeCast_self]

/-- The signal as the hops take it. -/
theorem colOf_pay8 (v16 : Vec Ideal S1x1024x1 .f32) : colOf (k0_pay8 v16) = fun n => v16 (ix3 (0 : Fin 1) n (0 : Fin 1)) := by
  funext n
  unfold colOf k0_pay8
  rw [shapeCast_1ab_ab_apply]

/-- Bias, ELU and the sum over the nodes. -/
theorem pay26_apply (v159 : FVec Ideal S1024x128 .f32) (v172 : Vec Ideal S1x128 .f32) (u : Fin 1) (f : Fin 128) :
    k0_pay26 v159 v172 (ix2 u f) = ∑ n : Fin 1024, elu (v159 (ix2 n f) + v172 (ix2 (0 : Fin 1) f)) := by
  simp only [k0_pay26]
  rw [shapeCast_a_1a_apply, colsum_apply]
  refine Finset.sum_congr rfl fun n _ => ?_
  rw [elu_apply, addf_apply, row_apply, shapeCast_self]

/-- The division by the number of nodes, the projection and its bias. -/
theorem pay1_apply (v197 : FVec Ideal S1x128 .f32) (c : Ideal .f32) (v200 : Vec Ideal S128x10 .f32) (v202 : Vec Ideal S1x10 .f32)
    (u w : Fin 1) (o : Fin 10) :
    k0_pay1 v197 c v200 v202 (ix3 u w o)
      = (∑ f : Fin 128, Ideal.div (v197 (ix2 (0 : Fin 1) f)) c * v200 (ix2 f o)) + v202 (ix2 (0 : Fin 1) o) := by
  simp only [k0_pay1]
  rw [shapeCast_ab_1ab_apply, addf_apply, mm_o, shapeCast_self]
  have hw : w = 0 := Subsingleton.elim _ _
  subst hw
  refine congrArg (· + v202 (ix2 (0 : Fin 1) o)) (Finset.sum_congr rfl fun f _ => congrArg (· * v200 (ix2 f o)) ?_)
  rw [divf_apply, broadcast_apply]

end Cert.KernelIdeal.Pay

end
-- ==== Proof.KLd.lean ====
/-
  The kernel's loads read at an index: each unit-stride rectangle of a block places its own index at the rectangle's
  offsets in the block.
-/
import proofs.«126231_g84078279786961_fold_wed_c4_122_26_alg».proof.Proof.Gen.KernelIdeal.Frame
import Idealize.ShloMosaic.Lib.ValueLayout

noncomputable section

namespace Cert.KernelIdeal.Pay

open Idealize.ShloMosaic Idealize.ShloMosaic.ValueIdx Cert.KernelIdeal Cert.KernelIdeal.Gen

theorem hz2 : (![0, 0] : Fin 2 → Nat) = fun _ => 0 := funext fun a => by fin_cases a <;> rfl

/-- The whole-block loads read the block. -/
theorem ld_r0_0 (x : Vec Ideal S5x128 .f32) : View.ld x r0_0 = x := View.ld_unit_zero hz2 _ x
theorem ld_r0_7 (x : Vec Ideal S1x128 .f32) : View.ld x r0_7 = x := View.ld_unit_zero hz2 _ x
theorem ld_r0_11 (x : Vec Ideal S128x10 .f32) : View.ld x r0_11 = x := View.ld_unit_zero hz2 _ x
theorem ld_r0_12 (x : Vec Ideal S1x10 .f32) : View.ld x r0_12 = x := View.ld_unit_zero hz2 _ x

/-- The top and bottom halves of each graph's adjacency. -/
theorem ld_r0_1 (x : Vec Ideal S2x1024x1024 .f32) (p : Fin 512) (m : Fin 1024) :
    View.ld x r0_1 (ix3 (0 : Fin 1) p m) = x (ix3 (0 : Fin 2) (⟨p.val, Nat.lt_of_lt_of_le p.isLt (by decide)⟩ : Fin 1024) m) := by
  refine congrArg x ?_
  funext a
  match a with
  | ⟨0, _⟩ => rfl
  | ⟨1, _⟩ => exact Fin.ext (by show 0 + 1 * p.val = p.val; omega)
  | ⟨2, _⟩ => exact Fin.ext (by show 0 + 1 * m.val = m.val; omega)

theorem ld_r0_2 (x : Vec Ideal S2x1024x1024 .f32) (p : Fin 512) (m : Fin 1024) :
    View.ld x r0_2 (ix3 (0 : Fin 1) p m) = x (ix3 (1 : Fin 2) (⟨p.val, Nat.lt_of_lt_of_le p.isLt (by decide)⟩ : Fin 1024) m) := by
  refine congrArg x ?_
  funext a
  match a with
  | ⟨0, _⟩ => rfl
  | ⟨1, _⟩ => exact Fin.ext (by show 0 + 1 * p.val = p.val; omega)
  | ⟨2, _⟩ => exact Fin.ext (by show 0 + 1 * m.val = m.val; omega)

theorem ld_r0_3 (x : Vec Ideal S2x1024x1024 .f32) (p : Fin 512) (m : Fin 1024) :
    View.ld x r0_3 (ix3 (0 : Fin 1) p m) = x (ix3 (0 : Fin 2) (⟨512 + p.val, Nat.add_lt_add_left p.isLt 512⟩ : Fin 1024) m) := by
  refine congrArg x ?_
  funext a
  match a with
  | ⟨0, _⟩ => rfl
  | ⟨1, _⟩ => exact Fin.ext (by show 512 + 1 * p.val = 512 + p.val; omega)
  | ⟨2, _⟩ => exact Fin.ext (by show 0 + 1 * m.val = m.val; omega)

theorem ld_r0_4 (x : Vec Ideal S2x1024x1024 .f32) (p : Fin 512) (m : Fin 1024) :
    View.ld x r0_4 (ix3 (0 : Fin 1) p m) = x (ix3 (1 : Fin 2) (⟨512 + p.val, Nat.add_lt_add_left p.isLt 512⟩ : Fin 1024) m) := by
  refine congrArg x ?_
  funext a
  match a with
  | ⟨0, _⟩ => rfl
  | ⟨1, _⟩ => exact Fin.ext (by show 512 + 1 * p.val = 512 + p.val; omega)
  | ⟨2, _⟩ => exact Fin.ext (by show 0 + 1 * m.val = m.val; omega)

/-- Each graph's node signal. -/
theorem ld_r0_5 (x : Vec Ideal S2x1024x1 .f32) (n : Fin 1024) (u : Fin 1) :
    View.ld x r0_5 (ix3 (0 : Fin 1) n u) = x (ix3 (0 : Fin 2) n (0 : Fin 1)) := by
  refine congrArg x ?_
  funext a
  match a with
  | ⟨0, _⟩ => rfl
  | ⟨1, _⟩ => exact Fin.ext (by show 0 + 1 * n.val = n.val; omega)
  | ⟨2, _⟩ => exact Fin.ext (by show 0 + 1 * u.val = 0; omega)

theorem ld_r0_6 (x : Vec Ideal S2x1024x1 .f32) (n : Fin 1024) (u : Fin 1) :
    View.ld x r0_6 (ix3 (0 : Fin 1) n u) = x (ix3 (1 : Fin 2) n (0 : Fin 1)) := by
  refine congrArg x ?_
  funext a
  match a with
  | ⟨0, _⟩ => rfl
  | ⟨1, _⟩ => exact Fin.ext (by show 0 + 1 * n.val = n.val; omega)
  | ⟨2, _⟩ => exact Fin.ext (by show 0 + 1 * u.val = 0; omega)

/-- The three tap matrices of the second layer. -/
theorem ld_r0_8 (x : Vec Ideal S3x128x128 .f32) (f g : Fin 128) :
    View.ld x r0_8 (ix3 (0 : Fin 1) f g) = x (ix3 (0 : Fin 3) f g) := by
  refine congrArg x ?_
  funext a
  match a with
  | ⟨0, _⟩ => rfl
  | ⟨1, _⟩ => exact Fin.ext (by show 0 + 1 * f.val = f.val; omega)
  | ⟨2, _⟩ => exact Fin.ext (by show 0 + 1 * g.val = g.val; omega)

theorem ld_r0_9 (x : Vec Ideal S3x128x128 .f32) (f g : Fin 128) :
    View.ld x r0_9 (ix3 (0 : Fin 1) f g) = x (ix3 (1 : Fin 3) f g) := by
  refine congrArg x ?_
  funext a
  match a with
  | ⟨0, _⟩ => rfl
  | ⟨1, _⟩ => exact Fin.ext (by show 0 + 1 * f.val = f.val; omega)
  | ⟨2, _⟩ => exact Fin.ext (by show 0 + 1 * g.val = g.val; omega)

theorem ld_r0_10 (x : Vec Ideal S3x128x128 .f32) (f g : Fin 128) :
    View.ld x r0_10 (ix3 (0 : Fin 1) f g) = x (ix3 (2 : Fin 3) f g) := by
  refine congrArg x ?_
  funext a
  match a with
  | ⟨0, _⟩ => rfl
  | ⟨1, _⟩ => exact Fin.ext (by show 0 + 1 * f.val = f.val; omega)
  | ⟨2, _⟩ => exact Fin.ext (by show 0 + 1 * g.val = g.val; omega)

end Cert.KernelIdeal.Pay

end
-- ==== Proof.KPay.lean ====
/-
  The kernel's stored block read at an index: row j of the output block is the mean-first head of graph j's second
  hidden signal. Each graph's chain of stored values is folded back, value by value, into the per-graph functions of the
  specification; the block itself is two one-row pieces, read by which piece holds the row.
-/
import proofs.«126231_g84078279786961_fold_wed_c4_122_26_alg».proof.Proof.KPayA
import proofs.«126231_g84078279786961_fold_wed_c4_122_26_alg».proof.Proof.KPayB
import proofs.«126231_g84078279786961_fold_wed_c4_122_26_alg».proof.Proof.KLd

noncomputable section

namespace Cert.KernelIdeal.Pay

open Idealize.ShloMosaic Idealize.ShloMosaic.ValueIdx Cert.KernelIdeal Cert.KernelIdeal.Gen Cert.Backbone

/-- The tap array's own-shape cast is the identity. -/
theorem pay2_apply (W1 : Vec Ideal S5x128 .f32) (i : Fin 5) (f : Fin 128) : k0_pay2 W1 (ix2 i f) = W1 (ix2 i f) := by
  unfold k0_pay2; rw [shapeCast_self]

/-! ## Graph 0 -/

/-- Graph 0's first hidden signal. -/
theorem hid1_0 (xg : Fin 1024 → EReal) (a : Fin 1024 → Fin 1024 → EReal) (w1 : Fin 5 → Fin 128 → EReal) (b1 : Fin 128 → EReal)
    (At Ab : FVec Ideal S512x1024 .bf16)
    (hAt : ∀ (p : Fin 512) (m : Fin 1024), At (ix2 p m) = a ⟨p.val, Nat.lt_of_lt_of_le p.isLt (by decide)⟩ m)
    (hAb : ∀ (p : Fin 512) (m : Fin 1024), Ab (ix2 p m) = a ⟨512 + p.val, Nat.add_lt_add_left p.isLt 512⟩ m)
    (W1 : Vec Ideal S5x128 .f32) (hW1 : ∀ i f, W1 (ix2 i f) = w1 i f)
    (X0 : Vec Ideal S1x1024x1 .f32) (hX0 : ∀ n, X0 (ix3 (0 : Fin 1) n (0 : Fin 1)) = xg n)
    (B1 : Vec Ideal S1x128 .f32) (hB1 : ∀ f, B1 (ix2 (0 : Fin 1) f) = b1 f) :
    matOf (k0_pay20 (k0_pay2 W1) At Ab (k0_pay17 At Ab (k0_pay11 X0)) (k0_pay19 (k0_pay2 W1) At Ab (k0_pay9 W1 X0 B1) (k0_pay11 X0))) = hid1 xg a w1 b1 := by
  funext n g
  show k0_pay20 _ At Ab _ _ (ix2 n g) = _
  have hx : (fun n => X0 (ix3 (0 : Fin 1) n (0 : Fin 1))) = xg := funext hX0
  rw [pay20_apply a At Ab hAt hAb, pay19_apply a At Ab hAt hAb, pay9_apply, colOf_pay17 a At Ab hAt hAb, colOf_pay11, hx]
  simp only [pay2_apply, hW1, hX0, hB1]
  rfl

/-- Graph 0's stored row. -/
theorem chain0 (xg : Fin 1024 → EReal) (a : Fin 1024 → Fin 1024 → EReal) (w1 : Fin 5 → Fin 128 → EReal) (b1 : Fin 128 → EReal)
    (At Ab : FVec Ideal S512x1024 .bf16)
    (hAt : ∀ (p : Fin 512) (m : Fin 1024), At (ix2 p m) = a ⟨p.val, Nat.lt_of_lt_of_le p.isLt (by decide)⟩ m)
    (hAb : ∀ (p : Fin 512) (m : Fin 1024), Ab (ix2 p m) = a ⟨512 + p.val, Nat.add_lt_add_left p.isLt 512⟩ m)
    (W1 : Vec Ideal S5x128 .f32) (hW1 : ∀ i f, W1 (ix2 i f) = w1 i f)
    (X0 : Vec Ideal S1x1024x1 .f32) (hX0 : ∀ n, X0 (ix3 (0 : Fin 1) n (0 : Fin 1)) = xg n)
    (B1 : Vec Ideal S1x128 .f32) (hB1 : ∀ f, B1 (ix2 (0 : Fin 1) f) = b1 f)
    (w2 : Fin 3 → Fin 128 → Fin 128 → EReal) (b2 : Fin 128 → EReal) (wo : Fin 128 → Fin 10 → EReal) (bo : Fin 10 → EReal)
    (T0 T1 T2 : Vec Ideal S1x128x128 .f32) (hT0 : ∀ f g, T0 (ix3 (0 : Fin 1) f g) = w2 0 f g)
    (hT1 : ∀ f g, T1 (ix3 (0 : Fin 1) f g) = w2 1 f g) (hT2 : ∀ f g, T2 (ix3 (0 : Fin 1) f g) = w2 2 f g)
    (B2 : Vec Ideal S1x128 .f32) (hB2 : ∀ f, B2 (ix2 (0 : Fin 1) f) = b2 f)
    (WO : Vec Ideal S128x10 .f32) (hWO : ∀ f o, WO (ix2 f o) = wo f o)
    (BO : Vec Ideal S1x10 .f32) (hBO : ∀ o, BO (ix2 (0 : Fin 1) o) = bo o) (u w : Fin 1) (o : Fin 10) :
    k0_pay25 (k0_pay23 At Ab (k0_pay20 (k0_pay2 W1) At Ab (k0_pay17 At Ab (k0_pay11 X0)) (k0_pay19 (k0_pay2 W1) At Ab (k0_pay9 W1 X0 B1) (k0_pay11 X0)))
        (k0_pay22 (k0_pay2 W1) At Ab (k0_pay17 At Ab (k0_pay11 X0)) (k0_pay19 (k0_pay2 W1) At Ab (k0_pay9 W1 X0 B1) (k0_pay11 X0)) T0) T1 T2) B2 WO BO (ix3 u w o)
      = headK (hid2 xg a w1 b1 w2 b2) wo bo o := by
  have hM := hid1_0 xg a w1 b1 At Ab hAt hAb W1 hW1 X0 hX0 B1 hB1
  rw [pay25_apply]
  unfold headK
  refine congrArg₂ (· + ·) (Finset.sum_congr rfl fun f _ => congrArg₂ (· * ·)
    (congrArg (Ideal.div · nodes) (Finset.sum_congr rfl fun n _ => ?_)) (hWO f o)) (hBO o)
  unfold hid2 pre2
  refine congrArg elu (congrArg₂ (· + ·) ?_ (hB2 f))
  rw [pay23_apply a At Ab hAt hAb, pay22_apply, hM]
  refine congrArg₂ (· + ·) (congrArg₂ (· + ·) (Finset.sum_congr rfl fun g _ => ?_) (Finset.sum_congr rfl fun g _ => ?_))
    (Finset.sum_congr rfl fun g _ => ?_)
  · exact congrArg₂ (· * ·) (congrFun (congrFun hM n) g) (hT0 g f)
  · rw [hT1]
  · rw [hT2]

/-! ## Graph 1 -/

/-- Graph 1's first hidden signal. -/
theorem hid1_1 (xg : Fin 1024 → EReal) (a : Fin 1024 → Fin 1024 → EReal) (w1 : Fin 5 → Fin 128 → EReal) (b1 : Fin 128 → EReal)
    (At Ab : FVec Ideal S512x1024 .bf16)
    (hAt : ∀ (p : Fin 512) (m : Fin 1024), At (ix2 p m) = a ⟨p.val, Nat.lt_of_lt_of_le p.isLt (by decide)⟩ m)
    (hAb : ∀ (p : Fin 512) (m : Fin 1024), Ab (ix2 p m) = a ⟨512 + p.val, Nat.add_lt_add_left p.isLt 512⟩ m)
    (W1 : Vec Ideal S5x128 .f32) (hW1 : ∀ i f, W1 (ix2 i f) = w1 i f)
    (X0 : Vec Ideal S1x1024x1 .f32) (hX0 : ∀ n, X0 (ix3 (0 : Fin 1) n (0 : Fin 1)) = xg n)
    (B1 : Vec Ideal S1x128 .f32) (hB1 : ∀ f, B1 (ix2 (0 : Fin 1) f) = b1 f) :
    matOf (k0_pay21 (k0_pay2 W1) At Ab (k0_pay16 (k0_pay2 W1) At Ab (k0_pay8 X0) (k0_pay10 W1 X0 B1)) (k0_pay18 At Ab (k0_pay8 X0))) = hid1 xg a w1 b1 := by
  funext n g
  show k0_pay21 _ At Ab _ _ (ix2 n g) = _
  have hx : (fun n => X0 (ix3 (0 : Fin 1) n (0 : Fin 1))) = xg := funext hX0
  rw [pay21_apply a At Ab hAt hAb, pay16_apply a At Ab hAt hAb, pay10_apply, colOf_pay18 a At Ab hAt hAb, colOf_pay8, hx]
  simp only [pay2_apply, hW1, hX0, hB1]
  rfl

/-- Graph 1's stored row. -/
theorem chain1 (xg : Fin 1024 → EReal) (a : Fin 1024 → Fin 1024 → EReal) (w1 : Fin 5 → Fin 128 → EReal) (b1 : Fin 128 → EReal)
    (At Ab : FVec Ideal S512x1024 .bf16)
    (hAt : ∀ (p : Fin 512) (m : Fin 1024), At (ix2 p m) = a ⟨p.val, Nat.lt_of_lt_of_le p.isLt (by decide)⟩ m)
    (hAb : ∀ (p : Fin 512) (m : Fin 1024), Ab (ix2 p m) = a ⟨512 + p.val, Nat.add_lt_add_left p.isLt 512⟩ m)
    (W1 : Vec Ideal S5x128 .f32) (hW1 : ∀ i f, W1 (ix2 i f) = w1 i f)
    (X0 : Vec Ideal S1x1024x1 .f32) (hX0 : ∀ n, X0 (ix3 (0 : Fin 1) n (0 : Fin 1)) = xg n)
    (B1 : Vec Ideal S1x128 .f32) (hB1 : ∀ f, B1 (ix2 (0 : Fin 1) f) = b1 f)
    (w2 : Fin 3 → Fin 128 → Fin 128 → EReal) (b2 : Fin 128 → EReal) (wo : Fin 128 → Fin 10 → EReal) (bo : Fin 10 → EReal)
    (T0 T1 T2 : Vec Ideal S1x128x128 .f32) (hT0 : ∀ f g, T0 (ix3 (0 : Fin 1) f g) = w2 0 f g)
    (hT1 : ∀ f g, T1 (ix3 (0 : Fin 1) f g) = w2 1 f g) (hT2 : ∀ f g, T2 (ix3 (0 : Fin 1) f g) = w2 2 f g)
    (B2 : Vec Ideal S1x128 .f32) (hB2 : ∀ f, B2 (ix2 (0 : Fin 1) f) = b2 f)
    (WO : Vec Ideal S128x10 .f32) (hWO : ∀ f o, WO (ix2 f o) = wo f o)
    (BO : Vec Ideal S1x10 .f32) (hBO : ∀ o, BO (ix2 (0 : Fin 1) o) = bo o) (u w : Fin 1) (o : Fin 10) :
    k0_pay1 (k0_pay26 (k0_pay24 At Ab (k0_pay21 (k0_pay2 W1) At Ab (k0_pay16 (k0_pay2 W1) At Ab (k0_pay8 X0) (k0_pay10 W1 X0 B1)) (k0_pay18 At Ab (k0_pay8 X0))) T0 T1 T2) B2) nodes WO BO (ix3 u w o)
      = headK (hid2 xg a w1 b1 w2 b2) wo bo o := by
  have hM := hid1_1 xg a w1 b1 At Ab hAt hAb W1 hW1 X0 hX0 B1 hB1
  rw [pay1_apply]
  unfold headK
  refine congrArg₂ (· + ·) (Finset.sum_congr rfl fun f _ => congrArg₂ (· * ·)
    (congrArg (Ideal.div · nodes) ?_) (hWO f o)) (hBO o)
  rw [pay26_apply]
  refine Finset.sum_congr rfl fun n _ => ?_
  unfold hid2 pre2
  refine congrArg elu (congrArg₂ (· + ·) ?_ (hB2 f))
  rw [pay24_apply a At Ab hAt hAb, hM]
  refine congrArg₂ (· + ·) (congrArg₂ (· + ·) (Finset.sum_congr rfl fun g _ => ?_) (Finset.sum_congr rfl fun g _ => ?_))
    (Finset.sum_congr rfl fun g _ => ?_)
  · exact congrArg₂ (· * ·) (congrFun (congrFun hM n) g) (hT0 g f)
  · rw [hT1]
  · rw [hT2]

/-! ## The halves of the adjacency as the hops take them -/

theorem top0 (x1 : Vec Ideal S2x1024x1024 .f32) (p : Fin 512) (m : Fin 1024) :
    k0_pay3 (View.ld x1 r0_1) (ix2 p m) = x1 (ix3 (0 : Fin 2) (⟨p.val, Nat.lt_of_lt_of_le p.isLt (by decide)⟩ : Fin 1024) m) := by
  unfold k0_pay3; rw [truncf_apply, shapeCast_1ab_ab_apply, ld_r0_1]
theorem bot0 (x1 : Vec Ideal S2x1024x1024 .f32) (p : Fin 512) (m : Fin 1024) :
    k0_pay5 (View.ld x1 r0_3) (ix2 p m) = x1 (ix3 (0 : Fin 2) (⟨512 + p.val, Nat.add_lt_add_left p.isLt 512⟩ : Fin 1024) m) := by
  unfold k0_pay5; rw [truncf_apply, shapeCast_1ab_ab_apply, ld_r0_3]
theorem top1 (x1 : Vec Ideal S2x1024x1024 .f32) (p : Fin 512) (m : Fin 1024) :
    k0_pay4 (View.ld x1 r0_2) (ix2 p m) = x1 (ix3 (1 : Fin 2) (⟨p.val, Nat.lt_of_lt_of_le p.isLt (by decide)⟩ : Fin 1024) m) := by
  unfold k0_pay4; rw [truncf_apply, shapeCast_1ab_ab_apply, ld_r0_2]
theorem bot1 (x1 : Vec Ideal S2x1024x1024 .f32) (p : Fin 512) (m : Fin 1024) :
    k0_pay6 (View.ld x1 r0_4) (ix2 p m) = x1 (ix3 (1 : Fin 2) (⟨512 + p.val, Nat.add_lt_add_left p.isLt 512⟩ : Fin 1024) m) := by
  unfold k0_pay6; rw [truncf_apply, shapeCast_1ab_ab_apply, ld_r0_4]

/-! ## The block: two one-row pieces -/

/-- The later store holds row 1, the earlier one row 0. -/
theorem canon_rows (P1 P0 : Vec Ideal S1x1x10 .f32) (o : Fin 10) :
    View.canon ([⟨r0_14, P1⟩, ⟨r0_13, P0⟩] : List (View.Piece (Elt Ideal) S2x1x10 .f32)) (ix3 (1 : Fin 2) (0 : Fin 1) o)
        = P1 (ix3 (0 : Fin 1) (0 : Fin 1) o)
      ∧ View.canon ([⟨r0_14, P1⟩, ⟨r0_13, P0⟩] : List (View.Piece (Elt Ideal) S2x1x10 .f32)) (ix3 (0 : Fin 2) (0 : Fin 1) o)
        = P0 (ix3 (0 : Fin 1) (0 : Fin 1) o) := by
  have e1 : (ix3 (1 : Fin 2) (0 : Fin 1) o : S2x1x10.Idx) = r0_14.emb (ix3 (0 : Fin 1) (0 : Fin 1) o) := by
    funext c
    match c with
    | ⟨0, _⟩ => exact Fin.ext (by show 1 = 1 + 1 * 0; rfl)
    | ⟨1, _⟩ => exact Fin.ext (by show 0 = 0 + 1 * 0; rfl)
    | ⟨2, _⟩ => exact Fin.ext (by show o.val = 0 + 1 * o.val; omega)
  have e0 : (ix3 (0 : Fin 2) (0 : Fin 1) o : S2x1x10.Idx) = r0_13.emb (ix3 (0 : Fin 1) (0 : Fin 1) o) := by
    funext c
    match c with
    | ⟨0, _⟩ => exact Fin.ext (by show 0 = 0 + 1 * 0; rfl)
    | ⟨1, _⟩ => exact Fin.ext (by show 0 = 0 + 1 * 0; rfl)
    | ⟨2, _⟩ => exact Fin.ext (by show o.val = 0 + 1 * o.val; omega)
  have hn : (ix3 (0 : Fin 2) (0 : Fin 1) o : S2x1x10.Idx) ∉ r0_14.set := by
    rw [Rect.mem_set_unit]
    intro h
    have h0 := (h ⟨0, by decide⟩).1
    exact absurd h0 (Nat.not_succ_le_zero 0)
  refine ⟨?_, ?_⟩
  · refine (congrArg (View.canon _) e1).trans ?_
    exact View.canon_cons_emb r0_14 P1 _ (ix3 (0 : Fin 1) (0 : Fin 1) o)
  · refine (View.canon_cons_of_not_mem (⟨r0_14, P1⟩ : View.Piece (Elt Ideal) S2x1x10 .f32) [⟨r0_13, P0⟩] hn).trans ?_
    refine (congrArg (View.canon _) e0).trans ?_
    exact View.canon_cons_emb r0_13 P0 [] (ix3 (0 : Fin 1) (0 : Fin 1) o)

/-! ## The stored block at an index -/

theorem out0_8_apply (x0 : Vec Ideal S2x1024x1 .f32) (x1 : Vec Ideal S2x1024x1024 .f32) (x2 : Vec Ideal S5x128 .f32)
    (x3 : Vec Ideal S1x128 .f32) (x4 : Vec Ideal S3x128x128 .f32) (x5 : Vec Ideal S1x128 .f32) (x6 : Vec Ideal S128x10 .f32)
    (x7 : Vec Ideal S1x10 .f32) (j : Fin 2) (o : Fin 10) :
    Cert.KernelIdeal.Gen.out0_8 (F := Ideal) x0 x1 x2 x3 x4 x5 x6 x7 (ix3 j (0 : Fin 1) o)
      = Cert.Backbone.headK
          (Cert.Backbone.hid2 (fun n => x0 (ix3 j n (0 : Fin 1))) (fun n m => x1 (ix3 j n m)) (fun i f => x2 (ix2 i f))
            (fun f => x3 (ix2 (0 : Fin 1) f)) (fun i f g => x4 (ix3 i f g)) (fun f => x5 (ix2 (0 : Fin 1) f)))
          (fun f o => x6 (ix2 f o)) (fun o => x7 (ix2 (0 : Fin 1) o)) o := by
  unfold out0_8
  match j with
  | ⟨0, _⟩ =>
    refine ((canon_rows _ _ o).2).trans ?_
    exact chain0 (fun n => x0 (ix3 (0 : Fin 2) n (0 : Fin 1))) (fun n m => x1 (ix3 (0 : Fin 2) n m)) (fun i f => x2 (ix2 i f))
      (fun f => x3 (ix2 (0 : Fin 1) f)) _ _ (top0 x1) (bot0 x1)
      (View.ld x2 r0_0) (fun i f => by rw [ld_r0_0]) (View.ld x0 r0_5) (fun n => ld_r0_5 x0 n 0)
      (View.ld x3 r0_7) (fun f => by rw [ld_r0_7])
      (fun i f g => x4 (ix3 i f g)) (fun f => x5 (ix2 (0 : Fin 1) f)) (fun f o => x6 (ix2 f o)) (fun o => x7 (ix2 (0 : Fin 1) o))
      (View.ld x4 r0_8) (View.ld x4 r0_9) (View.ld x4 r0_10) (ld_r0_8 x4) (ld_r0_9 x4) (ld_r0_10 x4)
      (View.ld x5 r0_7) (fun f => by rw [ld_r0_7]) (View.ld x6 r0_11) (fun f o => by rw [ld_r0_11])
      (View.ld x7 r0_12) (fun o => by rw [ld_r0_12]) 0 0 o
  | ⟨1, _⟩ =>
    refine ((canon_rows _ _ o).1).trans ?_
    exact chain1 (fun n => x0 (ix3 (1 : Fin 2) n (0 : Fin 1))) (fun n m => x1 (ix3 (1 : Fin 2) n m)) (fun i f => x2 (ix2 i f))
      (fun f => x3 (ix2 (0 : Fin 1) f)) _ _ (top1 x1) (bot1 x1)
      (View.ld x2 r0_0) (fun i f => by rw [ld_r0_0]) (View.ld x0 r0_6) (fun n => ld_r0_6 x0 n 0)
      (View.ld x3 r0_7) (fun f => by rw [ld_r0_7])
      (fun i f g => x4 (ix3 i f g)) (fun f => x5 (ix2 (0 : Fin 1) f)) (fun f o => x6 (ix2 f o)) (fun o => x7 (ix2 (0 : Fin 1) o))
      (View.ld x4 r0_8) (View.ld x4 r0_9) (View.ld x4 r0_10) (ld_r0_8 x4) (ld_r0_9 x4) (ld_r0_10 x4)
      (View.ld x5 r0_7) (fun f => by rw [ld_r0_7]) (View.ld x6 r0_11) (fun f o => by rw [ld_r0_11])
      (View.ld x7 r0_12) (fun o => by rw [ld_r0_12]) 0 0 o

end Cert.KernelIdeal.Pay

end
-- ==== Proof.KValue.lean ====
/-
  From the blocks the grid points write back to the whole output array.

  The grid has 8 points; point t works on graphs 2t and 2t+1: the node-signal and adjacency blocks at t are slabs
  2t, 2t+1 of their arrays, the output block at t is rows 2t, 2t+1 of the 16 × 1 × 10 output array, and every weight
  block is its whole array at every point. Given what the body stores at an index of its output block (the
  hypothesis PayAt: the mean-first head of the block's graph j at class o), the block written back at t is block t of
  ONE function Gv4 of the arrays the region finds; the 8 blocks tile the output array (row g lies in the block of
  point g / 2), so the array ends holding Gv4.
-/
import proofs.«126231_g84078279786961_fold_wed_c4_122_26_alg».proof.Proof.Gen.KernelIdeal.Frame
import proofs.«126231_g84078279786961_fold_wed_c4_122_26_alg».proof.Proof.SpecG
import Idealize.ShloMosaic.Lib.Pipeline.Value
import Idealize.ShloMosaic.Lib.Tactic

noncomputable section

namespace Cert.KernelIdeal.KValue

open Idealize.ShloMosaic Idealize.ShloMosaic.ValueIdx Cert.KernelIdeal Cert.KernelIdeal.Gen
open Idealize.ShloMosaic.TcCoe Idealize.SL.Sem
open Idealize.ShloMosaic.Pipeline (Dat)

/-- What the body stores into the output block, read at an index: graph j of the block, class o. -/
def PayAt : Prop :=
  ∀ (x0 : Vec Ideal S2x1024x1 .f32) (x1 : Vec Ideal S2x1024x1024 .f32) (x2 : Vec Ideal S5x128 .f32) (x3 : Vec Ideal S1x128 .f32)
    (x4 : Vec Ideal S3x128x128 .f32) (x5 : Vec Ideal S1x128 .f32) (x6 : Vec Ideal S128x10 .f32) (x7 : Vec Ideal S1x10 .f32)
    (j : Fin 2) (o : Fin 10),
    Cert.KernelIdeal.Gen.out0_8 (F := Ideal) x0 x1 x2 x3 x4 x5 x6 x7 (ix3 j (0 : Fin 1) o)
      = Cert.Backbone.headK
          (Cert.Backbone.hid2 (fun n => x0 (ix3 j n (0 : Fin 1))) (fun n m => x1 (ix3 j n m)) (fun i f => x2 (ix2 i f))
            (fun f => x3 (ix2 (0 : Fin 1) f)) (fun i f g => x4 (ix3 i f g)) (fun f => x5 (ix2 (0 : Fin 1) f)))
          (fun f o => x6 (ix2 f o)) (fun o => x7 (ix2 (0 : Fin 1) o)) o

variable (m : (ℓ : Loc nD τ sig) → Buf (Elt Ideal) ℓ) (ρ : Dev nD → PrngReg)

/-- The printed index maps over the grid: the two per-graph inputs and the output move with the point, two graphs a
    point; the shared weights sit at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-! ## Each window's block at a point, read off its array -/

/-- The node-signal block at point t holds graphs 2t and 2t+1 of the array. -/
theorem iblk0_apply (c : Dev nD) (t : Fin cfg0.N) (y : S2x1024x1.Idx) (k : S16x1024x1.Idx)
    (hk0 : (k 0).val = 2 * t.val + (y 0).val) (hk1 : (k 1).val = (y 1).val) (hk2 : (k 2).val = (y 2).val) :
    (iblk m c 0 t : Vec Ideal S2x1024x1 .f32) y = (V m c main_arg0 : Vec Ideal S16x1024x1 .f32) k := by
  obtain ⟨⟨e0, e1, e2⟩, -⟩ := idx_facts t
  unfold iblk
  rw [View.read_apply]
  refine congrArg (V m c main_arg0 : Vec Ideal S16x1024x1 .f32) (funext fun a => Fin.ext ?_)
  match a with
  | ⟨0, _⟩ => show win0_0.index t (0 : Fin 3) * 2 + 1 * (y 0).val = (k 0).val; rw [e0, hk0]; omega
  | ⟨1, _⟩ => show win0_0.index t (1 : Fin 3) * 1024 + 1 * (y 1).val = (k 1).val; rw [e1, hk1]; omega
  | ⟨2, _⟩ => show win0_0.index t (2 : Fin 3) * 1 + 1 * (y 2).val = (k 2).val; rw [e2, hk2]; omega

/-- The adjacency block at point t holds graphs 2t and 2t+1 of the array. -/
theorem iblk1_apply (c : Dev nD) (t : Fin cfg0.N) (y : S2x1024x1024.Idx) (k : S16x1024x1024.Idx)
    (hk0 : (k 0).val = 2 * t.val + (y 0).val) (hk1 : (k 1).val = (y 1).val) (hk2 : (k 2).val = (y 2).val) :
    (iblk m c 1 t : Vec Ideal S2x1024x1024 .f32) y = (V m c main_arg1 : Vec Ideal S16x1024x1024 .f32) k := by
  obtain ⟨-, ⟨e0, e1, e2⟩, -⟩ := idx_facts t
  unfold iblk
  rw [View.read_apply]
  refine congrArg (V m c main_arg1 : Vec Ideal S16x1024x1024 .f32) (funext fun a => Fin.ext ?_)
  match a with
  | ⟨0, _⟩ => show win0_1.index t (0 : Fin 3) * 2 + 1 * (y 0).val = (k 0).val; rw [e0, hk0]; omega
  | ⟨1, _⟩ => show win0_1.index t (1 : Fin 3) * 1024 + 1 * (y 1).val = (k 1).val; rw [e1, hk1]; omega
  | ⟨2, _⟩ => show win0_1.index t (2 : Fin 3) * 1024 + 1 * (y 2).val = (k 2).val; rw [e2, hk2]; omega

/-- A shared weight's block is its whole array, at every point. -/
theorem iblk2_eq (c : Dev nD) (t : Fin cfg0.N) : (iblk m c 2 t : Vec Ideal S5x128 .f32) = (V m c main_v0 : Vec Ideal S5x128 .f32) := by
  obtain ⟨-, -, ⟨e0, e1⟩, -⟩ := idx_facts t
  funext y
  unfold iblk
  rw [View.read_apply]
  refine congrArg (V m c main_v0 : Vec Ideal S5x128 .f32) (funext fun a => Fin.ext ?_)
  match a with
  | ⟨0, _⟩ => show win0_2.index t (0 : Fin 2) * 5 + 1 * (y 0).val = (y 0).val; rw [e0]; omega
  | ⟨1, _⟩ => show win0_2.index t (1 : Fin 2) * 128 + 1 * (y 1).val = (y 1).val; rw [e1]; omega

theorem iblk3_eq (c : Dev nD) (t : Fin cfg0.N) : (iblk m c 3 t : Vec Ideal S1x128 .f32) = (V m c main_v1 : Vec Ideal S1x128 .f32) := by
  obtain ⟨-, -, -, ⟨e0, e1⟩, -⟩ := idx_facts t
  funext y
  unfold iblk
  rw [View.read_apply]
  refine congrArg (V m c main_v1 : Vec Ideal S1x128 .f32) (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem iblk4_eq (c : Dev nD) (t : Fin cfg0.N) : (iblk m c 4 t : Vec Ideal S3x128x128 .f32) = (V m c main_arg4 : Vec Ideal S3x128x128 .f32) := by
  obtain ⟨-, -, -, -, ⟨e0, e1, e2⟩, -⟩ := idx_facts t
  funext y
  unfold iblk
  rw [View.read_apply]
  refine congrArg (V m c main_arg4 : Vec Ideal S3x128x128 .f32) (funext fun a => Fin.ext ?_)
  match a with
  | ⟨0, _⟩ => show win0_4.index t (0 : Fin 3) * 3 + 1 * (y 0).val = (y 0).val; rw [e0]; omega
  | ⟨1, _⟩ => show win0_4.index t (1 : Fin 3) * 128 + 1 * (y 1).val = (y 1).val; rw [e1]; omega
  | ⟨2, _⟩ => show win0_4.index t (2 : Fin 3) * 128 + 1 * (y 2).val = (y 2).val; rw [e2]; omega

theorem iblk5_eq (c : Dev nD) (t : Fin cfg0.N) : (iblk m c 5 t : Vec Ideal S1x128 .f32) = (V m c main_v2 : Vec Ideal S1x128 .f32) := by
  obtain ⟨-, -, -, -, -, ⟨e0, e1⟩, -⟩ := idx_facts t
  funext y
  unfold iblk
  rw [View.read_apply]
  refine congrArg (V m c main_v2 : Vec Ideal S1x128 .f32) (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem iblk6_eq (c : Dev nD) (t : Fin cfg0.N) : (iblk m c 6 t : Vec Ideal S128x10 .f32) = (V m c main_arg6 : Vec Ideal S128x10 .f32) := by
  obtain ⟨-, -, -, -, -, -, ⟨e0, e1⟩, -⟩ := idx_facts t
  funext y
  unfold iblk
  rw [View.read_apply]
  refine congrArg (V m c main_arg6 : Vec Ideal S128x10 .f32) (funext fun a => Fin.ext ?_)
  match a with
  | ⟨0, _⟩ => show win0_6.index t (0 : Fin 2) * 128 + 1 * (y 0).val = (y 0).val; rw [e0]; omega
  | ⟨1, _⟩ => show win0_6.index t (1 : Fin 2) * 10 + 1 * (y 1).val = (y 1).val; rw [e1]; omega

theorem iblk7_eq (c : Dev nD) (t : Fin cfg0.N) : (iblk m c 7 t : Vec Ideal S1x10 .f32) = (V m c main_v3 : Vec Ideal S1x10 .f32) := by
  obtain ⟨-, -, -, -, -, -, -, ⟨e0, e1⟩, -⟩ := idx_facts t
  funext y
  unfold iblk
  rw [View.read_apply]
  refine congrArg (V m c main_v3 : Vec Ideal S1x10 .f32) (funext fun a => Fin.ext ?_)
  match a with
  | ⟨0, _⟩ => show win0_7.index t (0 : Fin 2) * 1 + 1 * (y 0).val = (y 0).val; rw [e0]; omega
  | ⟨1, _⟩ => show win0_7.index t (1 : Fin 2) * 10 + 1 * (y 1).val = (y 1).val; rw [e1]; omega

/-! ## The output array as one function of the arrays the region finds -/

/-- Entry (g, ·, o) of the 16 × 1 × 10 output array: the mean-first head of graph g's second hidden signal at class o,
    the weights read in the two-axis forms the region finds them in. -/
def Gv4 (X : S16x1024x1.Idx → EReal) (A : S16x1024x1024.Idx → EReal) (w1 : S5x128.Idx → EReal) (b1r : S1x128.Idx → EReal)
    (W2 : S3x128x128.Idx → EReal) (b2r : S1x128.Idx → EReal) (Wo : S128x10.Idx → EReal) (bor : S1x10.Idx → EReal) :
    S16x1x10.Idx → EReal := fun i =>
  Cert.Backbone.headK
    (Cert.Backbone.hid2 (fun n => X (ix3 (⟨(i 0).val, (i 0).isLt⟩ : Fin 16) n (0 : Fin 1)))
      (fun n m => A (ix3 (⟨(i 0).val, (i 0).isLt⟩ : Fin 16) n m))
      (fun k f => w1 (ix2 k f)) (fun f => b1r (ix2 (0 : Fin 1) f)) (fun k f g => W2 (ix3 k f g))
      (fun f => b2r (ix2 (0 : Fin 1) f)))
    (fun f o => Wo (ix2 f o)) (fun o => bor (ix2 (0 : Fin 1) o)) (⟨(i 2).val, (i 2).isLt⟩ : Fin 10)

/-- The body's stored block, at block index y of point q, is the output function at array index i = (2q + y₀, ·, y₂),
    when the two per-graph input blocks hold graphs 2q and 2q+1 of their arrays. -/
theorem out_eq_Gv4 (hpay : PayAt) (X : S16x1024x1.Idx → EReal) (A : S16x1024x1024.Idx → EReal)
    (x0 : Vec Ideal S2x1024x1 .f32) (x1 : Vec Ideal S2x1024x1024 .f32) (x2 : Vec Ideal S5x128 .f32) (x3 : Vec Ideal S1x128 .f32)
    (x4 : Vec Ideal S3x128x128 .f32) (x5 : Vec Ideal S1x128 .f32) (x6 : Vec Ideal S128x10 .f32) (x7 : Vec Ideal S1x10 .f32)
    (q : ℕ)
    (h0 : ∀ (y : S2x1024x1.Idx) (k : S16x1024x1.Idx), (k 0).val = 2 * q + (y 0).val → (k 1).val = (y 1).val →
      (k 2).val = (y 2).val → x0 y = X k)
    (h1 : ∀ (y : S2x1024x1024.Idx) (k : S16x1024x1024.Idx), (k 0).val = 2 * q + (y 0).val → (k 1).val = (y 1).val →
      (k 2).val = (y 2).val → x1 y = A k)
    (y : S2x1x10.Idx) (i : S16x1x10.Idx) (hi0 : (i 0).val = 2 * q + (y 0).val) (hi2 : (i 2).val = (y 2).val) :
    out0_8 (F := Ideal) x0 x1 x2 x3 x4 x5 x6 x7 y = Gv4 X A x2 x3 x4 x5 x6 x7 i := by
  obtain ⟨j, z, o, rfl⟩ : ∃ (j : Fin 2) (z : Fin 1) (o : Fin 10), y = ix3 j z o := ⟨y 0, y 1, y 2, eq_ix3 y⟩
  obtain rfl : z = 0 := Subsingleton.elim _ _
  have hi0' : (i 0).val = 2 * q + j.val := hi0
  have hi2' : (i 2).val = o.val := hi2
  rw [hpay]
  unfold Gv4
  have e0 : (fun n : Fin 1024 => x0 (ix3 j n (0 : Fin 1)))
      = fun n => X (ix3 (⟨(i 0).val, (i 0).isLt⟩ : Fin 16) n (0 : Fin 1)) :=
    funext fun n => h0 (ix3 j n (0 : Fin 1)) (ix3 (⟨(i 0).val, (i 0).isLt⟩ : Fin 16) n (0 : Fin 1)) hi0' rfl rfl
  have e1 : (fun (n m : Fin 1024) => x1 (ix3 j n m))
      = fun n m => A (ix3 (⟨(i 0).val, (i 0).isLt⟩ : Fin 16) n m) :=
    funext fun n => funext fun m => h1 (ix3 j n m) (ix3 (⟨(i 0).val, (i 0).isLt⟩ : Fin 16) n m) hi0' rfl rfl
  have e2 : o = (⟨(i 2).val, (i 2).isLt⟩ : Fin 10) := Fin.ext hi2'.symm
  rw [e0, e1, ← e2]

/-! ## What each point writes back, and the whole array -/

/-- Point t writes back block t of the output function of the arrays as the region finds them. -/
theorem flushed_eq (hpay : PayAt) (c : Dev nD) (t : Fin cfg0.N) :
    (dats m 0 c).flushed 8 t = ((cfg0.win 8).blk t).view.read (Elt Ideal)
      (Gv4 (V m c main_arg0) (V m c main_arg1) (V m c main_v0) (V m c main_v1) (V m c main_arg4) (V m c main_v2)
        (V m c main_arg6) (V m c main_v3)) := by
  obtain ⟨-, -, -, -, -, -, -, -, ⟨e0, e1, e2⟩⟩ := idx_facts t
  show (cfg0.win 8).cut (grid0.coords t) ((dats m 0 c).after 8 t) = _
  rw [after0_8, iblk2_eq, iblk3_eq, iblk4_eq, iblk5_eq, iblk6_eq, iblk7_eq]
  funext y
  rw [View.read_apply]
  refine out_eq_Gv4 hpay (V m c main_arg0) (V m c main_arg1) (iblk m c 0 t) (iblk m c 1 t) (V m c main_v0) (V m c main_v1)
    (V m c main_arg4) (V m c main_v2) (V m c main_arg6) (V m c main_v3) t.val
    (fun y k => iblk0_apply m c t y k) (fun y k => iblk1_apply m c t y k) y (((cfg0.win 8).blk t).view.emb y) ?_ ?_
  · show win0_8.index t (0 : Fin 3) * 2 + 1 * (y 0).val = 2 * t.val + (y 0).val; rw [e0]; omega
  · show win0_8.index t (2 : Fin 3) * 10 + 1 * (y 2).val = (y 2).val; rw [e2]; omega

/-- An index of the output array is in point t's block iff each coordinate is in the block's range on its axis. -/
theorem mem_blk (t : Fin cfg0.N) (i : S16x1x10.Idx) :
    i ∈ ((cfg0.win 8).blk t).view.set ↔ ∀ a : Fin 3, win0_8.index t a * S2x1x10.size a ≤ (i a).val
      ∧ (i a).val < win0_8.index t a * S2x1x10.size a + S2x1x10.size a := by
  show i ∈ ((View.whole main_v4).slice (win0_8.rect t)).set ↔ _
  rw [View.set_slice_whole, Rect.mem_set_unit]
  exact Iff.rfl

/-- Every index (g, ·, o) of the output array lies in the block of point g / 2, which is written back. -/
theorem cover (i : S16x1x10.Idx) : ∃ t : Fin cfg0.N, (cfg0.win 8).flush t = true ∧ i ∈ ((cfg0.win 8).blk t).view.set := by
  have hi0 : (i 0).val < 16 := (i 0).isLt
  have hi1 : (i 1).val < 1 := (i 1).isLt
  have hi2 : (i 2).val < 10 := (i 2).isLt
  have hN : cfg0.N = 8 := N_0
  obtain ⟨t, ht⟩ : ∃ t : Fin cfg0.N, t.val = (i 0).val / 2 := ⟨⟨(i 0).val / 2, by rw [hN]; omega⟩, rfl⟩
  obtain ⟨-, -, -, -, -, -, -, -, ⟨e0, e1, e2⟩⟩ := idx_facts t
  refine ⟨t, flush0_8 t, ?_⟩
  rw [mem_blk]
  intro a
  match a with
  | ⟨0, _⟩ =>
    show win0_8.index t (0 : Fin 3) * 2 ≤ (i 0).val ∧ (i 0).val < win0_8.index t (0 : Fin 3) * 2 + 2
    rw [e0, ht]; omega
  | ⟨1, _⟩ =>
    show win0_8.index t (1 : Fin 3) * 1 ≤ (i 1).val ∧ (i 1).val < win0_8.index t (1 : Fin 3) * 1 + 1
    rw [e1]; omega
  | ⟨2, _⟩ =>
    show win0_8.index t (2 : Fin 3) * 10 ≤ (i 2).val ∧ (i 2).val < win0_8.index t (2 : Fin 3) * 10 + 10
    rw [e2]; omega

/-- The output array after the run: the output function of the arrays as the region finds them. -/
theorem final (hpay : PayAt) (c : Dev nD) :
    (dats m 0 c).arrAt 8 cfg0.N = Gv4 (V m c main_arg0) (V m c main_arg1) (V m c main_v0) (V m c main_v1) (V m c main_arg4)
      (V m c main_v2) (V m c main_arg6) (V m c main_v3) :=
  (dats m 0 c).arrAt_eq_of_cover 8 _ (fun t _ => flushed_eq m hpay c t) cover

end Cert.KernelIdeal.KValue

end
-- ==== Proof.KValueRun.lean ====
/-
  The kernel program's run with its result named.

  After the region the 16 × 1 × 10 output array holds Gv4 of the arrays the region finds; the host reshape that
  follows reads it at (g, 0, o) for entry (g, o) of the 16 × 10 result. The four weights the host reshaped before the
  region ([5,1,128] → [5,128], [128] → [1,128] twice, [10] → [1,10]) read, at the two-axis index, the argument at the
  index with the unit axis dropped or inserted; the other four arrays are the arguments as launched. So the result is
  the mean-first head of graph g's second hidden signal at class o, computed from the arguments: the function G.
-/
import proofs.«126231_g84078279786961_fold_wed_c4_122_26_alg».proof.Proof.KValue

noncomputable section

namespace Cert.KernelIdeal.KValue

open Idealize.ShloMosaic Idealize.ShloMosaic.ValueIdx Cert.KernelIdeal Cert.KernelIdeal.Gen
open Idealize.ShloMosaic.TcCoe Idealize.SL.Sem
open Idealize.ShloMosaic.Pipeline (Dat)

variable (m : (ℓ : Loc nD τ sig) → Buf (Elt Ideal) ℓ) (ρ : Dev nD → PrngReg)

/-- The output function at explicit coordinates: row g, class o. -/
theorem Gv4_apply (X : S16x1024x1.Idx → EReal) (A : S16x1024x1024.Idx → EReal) (w1 : S5x128.Idx → EReal) (b1r : S1x128.Idx → EReal)
    (W2 : S3x128x128.Idx → EReal) (b2r : S1x128.Idx → EReal) (Wo : S128x10.Idx → EReal) (bor : S1x10.Idx → EReal)
    (g : Fin 16) (z : Fin 1) (o : Fin 10) :
    Gv4 X A w1 b1r W2 b2r Wo bor (ix3 g z o)
      = Cert.Backbone.headK
          (Cert.Backbone.hid2 (fun n => X (ix3 g n (0 : Fin 1))) (fun n m => A (ix3 g n m)) (fun k f => w1 (ix2 k f))
            (fun f => b1r (ix2 (0 : Fin 1) f)) (fun k f g => W2 (ix3 k f g)) (fun f => b2r (ix2 (0 : Fin 1) f)))
          (fun f o => Wo (ix2 f o)) (fun o => bor (ix2 (0 : Fin 1) o)) o := rfl

/-- The result buffer after the host reshape that follows the region is the result function of the arguments as
    launched, given how the reshaped weights and the final reshape read at an index. -/
theorem result_eq (hpay : PayAt) (c : Dev nD)
    (hv0 : ∀ (k : Fin 5) (f : Fin 128), V m c main_v0 (ix2 k f) = m ((c.tc : Thread nD τ).loc main_arg2) (ix3 k (0 : Fin 1) f))
    (hv1 : ∀ f : Fin 128, V m c main_v1 (ix2 (0 : Fin 1) f) = m ((c.tc : Thread nD τ).loc main_arg3) (ix1 f))
    (hv2 : ∀ f : Fin 128, V m c main_v2 (ix2 (0 : Fin 1) f) = m ((c.tc : Thread nD τ).loc main_arg5) (ix1 f))
    (hv3 : ∀ o : Fin 10, V m c main_v3 (ix2 (0 : Fin 1) o) = m ((c.tc : Thread nD τ).loc main_arg7) (ix1 o))
    (htail : ∀ (b : Fin 16) (o : Fin 10), Pipeline.afterTail₀ cfgs (dats m) 0 (V0 m) [hostOps1] c main_v5 (ix2 b o)
      = (dats m 0 c).arrAt 8 cfg0.N (ix3 b (0 : Fin 1) o)) :
    Pipeline.afterTail₀ cfgs (dats m) 0 (V0 m) [hostOps1] c main_v5
      = Cert.Backbone.G (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  funext i
  obtain ⟨b, o, rfl⟩ : ∃ (b : Fin 16) (o : Fin 10), i = ix2 b o := ⟨i 0, i 1, eq_ix2 i⟩
  rw [htail, final m hpay c, Gv4_apply, Cert.Backbone.G_apply]
  unfold Cert.Backbone.logit
  rw [V_main_arg0 m c, V_main_arg1 m c, V_main_arg4 m c, V_main_arg6 m c]
  simp only [hv0, hv1, hv2, hv3]

/-- The kernel program's run with its result named: the result buffer ends holding the result function of the eight
    arguments as launched, and the arguments are unchanged. Stated over the four reshaped weights' and the final
    reshape's reads at an index. -/
theorem run_of (hpay : PayAt)
    (hv0 : ∀ (c : Dev nD) (k : Fin 5) (f : Fin 128), V m c main_v0 (ix2 k f) = m ((c.tc : Thread nD τ).loc main_arg2) (ix3 k (0 : Fin 1) f))
    (hv1 : ∀ (c : Dev nD) (f : Fin 128), V m c main_v1 (ix2 (0 : Fin 1) f) = m ((c.tc : Thread nD τ).loc main_arg3) (ix1 f))
    (hv2 : ∀ (c : Dev nD) (f : Fin 128), V m c main_v2 (ix2 (0 : Fin 1) f) = m ((c.tc : Thread nD τ).loc main_arg5) (ix1 f))
    (hv3 : ∀ (c : Dev nD) (o : Fin 10), V m c main_v3 (ix2 (0 : Fin 1) o) = m ((c.tc : Thread nD τ).loc main_arg7) (ix1 o))
    (htail : ∀ (c : Dev nD) (b : Fin 16) (o : Fin 10), Pipeline.afterTail₀ cfgs (dats m) 0 (V0 m) [hostOps1] c main_v5 (ix2 b o)
      = (dats m 0 c).arrAt 8 cfg0.N (ix3 b (0 : Fin 1) o)) :
    θ_run (defs (F := Ideal)) (onTc (τ := τ) (main (F := Ideal))) ⟨m, fun _ => 0, ρ⟩ fun r => ∀ c : Dev nD,
      r.2.mem ((c.tc : Thread nD τ).loc main_v5)
          = Cert.Backbone.G (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨((h c).2 main_v5 (Pipeline.mem_restRefs_of main_v5 (by decide) (by decide))).trans
        (result_eq m hpay c (hv0 c) (hv1 c) (hv2 c) (hv3 c) (htail c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c))⟩)
    (run_main m ρ)

end Cert.KernelIdeal.KValue

end
-- ==== Proof.KHost.lean ====
/-
  The kernel program's host operations read at an index.

  Before the region the program reshapes four arguments: the 5 × 1 × 128 stack of tap rows to a 5 × 128 matrix, and the
  two 128-vectors and the 10-vector of biases to one-row matrices. A reshape keeps the row-major position, so the matrix
  at (k, f) is the stack at (k, ·, f), and a one-row matrix at (·, f) is the vector at f. After the region it reshapes
  the 16 × 1 × 10 output array to 16 × 10: at (b, o) it is the output array at (b, ·, o).
-/
import proofs.«126231_g84078279786961_fold_wed_c4_122_26_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.KHost

open Idealize.ShloMosaic Idealize.ShloMosaic.ValueIdx Idealize.ShloMosaic.TcCoe Idealize.SL.Sem Cert.KernelIdeal Cert.KernelIdeal.Gen
open Idealize.ShloMosaic.StableHlo

variable {α : Type}

/-! ## The reshapes at an index, over any arrays -/

/-- A 5 × 1 × 128 stack reshaped to 5 × 128 reads, at (k, f), the stack at (k, ·, f). -/
theorem cast_5x1x128_apply (x : S5x1x128.Idx → α) (h : S5x1x128.ShapeCasts S5x128) (k : Fin 5) (f : Fin 128) :
    shapeCast S5x128 x h (ix2 k f) = x (ix3 k (0 : Fin 1) f) := by
  refine shapeCast_apply x h (ix2 k f) (ix3 k (0 : Fin 1) f) ?_
  rw [Shape.rowMajor_val_three, Shape.rowMajor_val_two]
  show (k.val * 1 + 0) * 128 + f.val = k.val * 128 + f.val
  omega

/-- A 128-vector reshaped to a 1 × 128 matrix reads, at (·, f), the vector at f. -/
theorem cast_128_apply (x : S128.Idx → α) (h : S128.ShapeCasts S1x128) (u : Fin 1) (f : Fin 128) :
    shapeCast S1x128 x h (ix2 u f) = x (ix1 f) := by
  refine shapeCast_apply x h (ix2 u f) (ix1 f) ?_
  rw [Shape.rowMajor_val_one, Shape.rowMajor_val_two]
  show f.val = u.val * 128 + f.val
  have hu : u.val = 0 := by omega
  omega

/-- A 10-vector reshaped to a 1 × 10 matrix reads, at (·, o), the vector at o. -/
theorem cast_10_apply (x : S10.Idx → α) (h : S10.ShapeCasts S1x10) (u : Fin 1) (o : Fin 10) :
    shapeCast S1x10 x h (ix2 u o) = x (ix1 o) := by
  refine shapeCast_apply x h (ix2 u o) (ix1 o) ?_
  rw [Shape.rowMajor_val_one, Shape.rowMajor_val_two]
  show o.val = u.val * 10 + o.val
  have hu : u.val = 0 := by omega
  omega

/-- A 16 × 1 × 10 array reshaped to 16 × 10 reads, at (b, o), the array at (b, ·, o). -/
theorem cast_16x1x10_apply (x : S16x1x10.Idx → α) (h : S16x1x10.ShapeCasts S16x10) (b : Fin 16) (o : Fin 10) :
    shapeCast S16x10 x h (ix2 b o) = x (ix3 b (0 : Fin 1) o) := by
  refine shapeCast_apply x h (ix2 b o) (ix3 b (0 : Fin 1) o) ?_
  rw [Shape.rowMajor_val_three, Shape.rowMajor_val_two]
  show (b.val * 1 + 0) * 10 + o.val = b.val * 10 + o.val
  omega

variable (m : (ℓ : Loc nD τ sig) → Buf (Elt Ideal) ℓ)

/-! ## Before the region: each reshaped argument as the reshape of the argument as launched -/

theorem V_v0_eq (c : Dev nD) :
    (V m c main_v0 : S5x128.Idx → EReal)
      = shapeCast S5x128 (m ((c.tc : Thread nD τ).loc main_arg2) : S5x1x128.Idx → EReal) Gen.shapeCasts_S5x1x128_S5x128 := by
  show StableHlo.after hostOps0 (fun b => m (c, b)) (Proc.devRef .tc main_v0) = _
  after_results
  rfl

theorem V_v1_eq (c : Dev nD) :
    (V m c main_v1 : S1x128.Idx → EReal)
      = shapeCast S1x128 (m ((c.tc : Thread nD τ).loc main_arg3) : S128.Idx → EReal) Gen.shapeCasts_S128_S1x128 := by
  show StableHlo.after hostOps0 (fun b => m (c, b)) (Proc.devRef .tc main_v1) = _
  after_results
  rfl

theorem V_v2_eq (c : Dev nD) :
    (V m c main_v2 : S1x128.Idx → EReal)
      = shapeCast S1x128 (m ((c.tc : Thread nD τ).loc main_arg5) : S128.Idx → EReal) Gen.shapeCasts_S128_S1x128 := by
  show StableHlo.after hostOps0 (fun b => m (c, b)) (Proc.devRef .tc main_v2) = _
  after_results
  rfl

theorem V_v3_eq (c : Dev nD) :
    (V m c main_v3 : S1x10.Idx → EReal)
      = shapeCast S1x10 (m ((c.tc : Thread nD τ).loc main_arg7) : S10.Idx → EReal) Gen.shapeCasts_S10_S1x10 := by
  show StableHlo.after hostOps0 (fun b => m (c, b)) (Proc.devRef .tc main_v3) = _
  after_results
  rfl

/-! ## … and read at an index -/

theorem V_v0_apply (c : Dev nD) (k : Fin 5) (f : Fin 128) :
    V m c main_v0 (ix2 k f) = m ((c.tc : Thread nD τ).loc main_arg2) (ix3 k (0 : Fin 1) f) :=
  (congrFun (V_v0_eq m c) (ix2 k f)).trans (cast_5x1x128_apply _ _ k f)

theorem V_v1_apply (c : Dev nD) (f : Fin 128) :
    V m c main_v1 (ix2 (0 : Fin 1) f) = m ((c.tc : Thread nD τ).loc main_arg3) (ix1 f) :=
  (congrFun (V_v1_eq m c) (ix2 (0 : Fin 1) f)).trans (cast_128_apply _ _ 0 f)

theorem V_v2_apply (c : Dev nD) (f : Fin 128) :
    V m c main_v2 (ix2 (0 : Fin 1) f) = m ((c.tc : Thread nD τ).loc main_arg5) (ix1 f) :=
  (congrFun (V_v2_eq m c) (ix2 (0 : Fin 1) f)).trans (cast_128_apply _ _ 0 f)

theorem V_v3_apply (c : Dev nD) (o : Fin 10) :
    V m c main_v3 (ix2 (0 : Fin 1) o) = m ((c.tc : Thread nD τ).loc main_arg7) (ix1 o) :=
  (congrFun (V_v3_eq m c) (ix2 (0 : Fin 1) o)).trans (cast_10_apply _ _ 0 o)

/-! ## After the region -/

/-- The result buffer is the reshape of the region's output array. -/
theorem tail_eq (c : Dev nD) :
    (Pipeline.afterTail₀ cfgs (dats m) 0 (V0 m) [hostOps1] c main_v5 : S16x10.Idx → EReal)
      = shapeCast S16x10 ((dats m 0 c).arrAt 8 cfg0.N : S16x1x10.Idx → EReal) Gen.shapeCasts_S16x1x10_S16x10 := by
  unfold Pipeline.afterTail₀
  show StableHlo.after hostOps1 _ (Proc.devRef .tc main_v5) = _
  after_results
  rw [Pipeline.withArrays_arr spec0 launch0.win.arr_inj c _ _ 8]
  rfl

theorem tail_apply (c : Dev nD) (b : Fin 16) (o : Fin 10) :
    Pipeline.afterTail₀ cfgs (dats m) 0 (V0 m) [hostOps1] c main_v5 (ix2 b o)
      = (dats m 0 c).arrAt 8 cfg0.N (ix3 b (0 : Fin 1) o) :=
  (congrFun (tail_eq m c) (ix2 b o)).trans (cast_16x1x10_apply _ _ b o)

end Cert.KernelIdeal.KHost

end
-- ==== Proof.KValueTop.lean ====
/-
  The kernel program's run with its result named, assembled: the run over the reads of the reshaped weights and of
  the final reshape, at those reads as proved for this program's host operations.
-/
import proofs.«126231_g84078279786961_fold_wed_c4_122_26_alg».proof.Proof.KValueRun
import proofs.«126231_g84078279786961_fold_wed_c4_122_26_alg».proof.Proof.KHost

noncomputable section

namespace Cert.KernelIdeal.KValue

open Idealize.ShloMosaic Idealize.ShloMosaic.ValueIdx Cert.KernelIdeal Cert.KernelIdeal.Gen
open Idealize.ShloMosaic.TcCoe Idealize.SL.Sem

/-- Every weakly fair execution of the kernel program terminates with the result buffer at the result function G of
    the eight arguments as launched, and the arguments unchanged — given what the body stores at an index of its
    output block. -/
theorem run (hpay : PayAt) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5)
          = Cert.Backbone.G (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  run_of m ρ hpay (Cert.KernelIdeal.KHost.V_v0_apply m) (Cert.KernelIdeal.KHost.V_v1_apply m) (Cert.KernelIdeal.KHost.V_v2_apply m)
    (Cert.KernelIdeal.KHost.V_v3_apply m) (Cert.KernelIdeal.KHost.tail_apply m)

end Cert.KernelIdeal.KValue

end
-- ==== Proof.Finite.lean ====
/-
  From the precondition to "every input entry is a real number".

  The precondition computes, for each of the eight float inputs v, the array |v| < +inf, reduces it by "and" over all
  axes, and takes the "and" of the eight results. When that scalar is 1, each of the eight reductions is 1, so each
  compared element is 1, so |v i| < ⊤ on the extended reals for every index i. With |a| = max a (-a), neither ⊤ nor ⊥
  satisfies that strict inequality, so v i is a real number.
-/
import proofs.«126231_g84078279786961_fold_wed_c4_122_26_alg».proof.Proof.Gen.Pre_finite_inputs
import proofs.«126231_g84078279786961_fold_wed_c4_122_26_alg».proof.Proof.Spec
import Idealize.ShloMosaic.Lib.ReduceAll
import Idealize.ShloMosaic.Lib.IdealHost

namespace Cert.Finite

open Idealize.ShloMosaic Cert.Pre_finite_inputs

/-- The rank-0 shape has exactly one index. -/
instance : Subsingleton S_.Idx := ⟨fun a b => funext fun d => d.elim0⟩

/-- An extended real whose absolute value max v (-v) lies strictly below ⊤ is a real number: at ⊤ the maximum is ⊤,
    at ⊥ it is -⊥ = ⊤. -/
theorem isReal_of_abs_lt_top (v : EReal) (h : max v (-v) < ⊤) : Cert.Backbone.IsReal v := by
  induction v using EReal.rec with
  | bot => simp at h
  | top => simp at h
  | coe r => exact ⟨r, rfl⟩

/-- The float pattern 0x7F800000 (sign 0, exponent all ones, fraction 0) is +inf. -/
theorem ofBits_inf : Ideal.ofBits .f32 0x7F800000#32 = (⊤ : EReal) := by
  simp [Ideal.ofBits, Ideal.ieee]

/-- One input: when the "and" over all axes of |v| < +inf is 1, every entry of v is a real number. -/
theorem real_of_all {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
      (cmpf .olt (Host.absf v) (broadcastInDim s ![] hb (constant (F := Ideal) S_ .f32 0x7F800000#32))) init hr hu
        ValueIdx.ix0 = 1#1) (i : s.Idx) : Cert.Backbone.IsReal (v i) := by
  have h1 := Host.reduce_andi_all _ init hr hu ValueIdx.ix0 e i
  refine isReal_of_abs_lt_top (v i) ?_
  have hbc : broadcastInDim s ![] hb (constant (F := Ideal) S_ .f32 0x7F800000#32) i = (⊤ : EReal) :=
    (ValueIdx.broadcastInDim_scalar_apply hb _ i).trans ofBits_inf
  have h2 : Ideal.cmp .olt (max (v i) (-(v i)))
      (broadcastInDim s ![] hb (constant (F := Ideal) S_ .f32 0x7F800000#32) i) = 1#1 := h1
  rw [hbc] at h2
  simp only [Ideal.cmp] at h2
  by_contra hc
  simp [hc] at h2

/-- The precondition holds only when every entry of every input is a real number. -/
theorem real_of_fn (x : FVec Ideal S16x1024x1 .f32) (A : FVec Ideal S16x1024x1024 .f32) (W1 : FVec Ideal S5x1x128 .f32)
    (b1 : FVec Ideal S128 .f32) (W2 : FVec Ideal S3x128x128 .f32) (b2 : FVec Ideal S128 .f32) (Wo : FVec Ideal S128x10 .f32)
    (bo : FVec Ideal S10 .f32)
    (h : Cert.Pre_finite_inputs.fn (F := Ideal) x A W1 b1 W2 b2 Wo bo = fun _ => 1#1) :
    (∀ i, Cert.Backbone.IsReal (x i)) ∧ (∀ i, Cert.Backbone.IsReal (A i)) ∧ (∀ i, Cert.Backbone.IsReal (W1 i))
      ∧ (∀ i, Cert.Backbone.IsReal (b1 i)) ∧ (∀ i, Cert.Backbone.IsReal (W2 i)) ∧ (∀ i, Cert.Backbone.IsReal (b2 i))
      ∧ (∀ i, Cert.Backbone.IsReal (Wo i)) ∧ (∀ i, Cert.Backbone.IsReal (bo i)) := by
  have h0 := congrFun h ValueIdx.ix0
  dsimp only [fn, fn_part1, fn_part2] at h0
  obtain ⟨h0, hbo⟩ := IntOp.andi_eq_one.1 h0
  obtain ⟨h0, hWo⟩ := IntOp.andi_eq_one.1 h0
  obtain ⟨h0, hb2⟩ := IntOp.andi_eq_one.1 h0
  obtain ⟨h0, hW2⟩ := IntOp.andi_eq_one.1 h0
  obtain ⟨h0, hb1⟩ := IntOp.andi_eq_one.1 h0
  obtain ⟨h0, hW1⟩ := IntOp.andi_eq_one.1 h0
  obtain ⟨hx, hA⟩ := IntOp.andi_eq_one.1 h0
  exact ⟨real_of_all x _ _ _ _ hx, real_of_all A _ _ _ _ hA, real_of_all W1 _ _ _ _ hW1, real_of_all b1 _ _ _ _ hb1,
    real_of_all W2 _ _ _ _ hW2, real_of_all b2 _ _ _ _ hb2, real_of_all Wo _ _ _ _ hWo, real_of_all bo _ _ _ _ hbo⟩

end Cert.Finite
-- ==== Proof.lean ====
/-
  The certificate's five claims.

  Both idealized programs compute, for each of the 16 graphs, a two-layer graph filter over the graph's 1024 nodes
  followed by a ten-class head (Proof/Spec.lean): hops of the node signal through the adjacency, tap-weighted sums,
  ELU, and at the end a projection to ten classes averaged over the nodes. The kernel handles two graphs per grid
  point, splits every hop into two half-height products, and averages over the nodes BEFORE projecting; the reference
  projects every node and averages afterwards.

  * What the kernel's output block holds, index by index, is Proof/KPay.lean; that the blocks tile the output array,
    and the reshape after the region, give the kernel's result as the function `Backbone.G` of the argument arrays
    (Proof/KValue.lean).
  * The reference's run leaves its result at `RefRun.res` of its arguments (Proof/RRun.lean), which index by index is the
    projection-first head of the same hidden signal (Proof/RValue.lean).
  * The two heads agree when every hidden value is a real number (linearity of the projection; the mean of a constant is
    the constant): Proof/Spec.lean `headK_eq_headR`. The hidden values are real because the precondition makes every input
    entry real (Proof/Finite.lean) and sums, products and ELU keep reals real.
  * The three frames: the two kernels' are the generated frame certificates; the reference's is its run with the result
    dropped. The idealization rewrote nothing, so `preserves` is trivial.
-/
import proofs.«126231_g84078279786961_fold_wed_c4_122_26_alg».proof.Defs
import proofs.«126231_g84078279786961_fold_wed_c4_122_26_alg».proof.Proof.Gen.Kernel
import proofs.«126231_g84078279786961_fold_wed_c4_122_26_alg».proof.Proof.Gen.Kernel.Skeleton
import proofs.«126231_g84078279786961_fold_wed_c4_122_26_alg».proof.Proof.Gen.Kernel.Launch
import proofs.«126231_g84078279786961_fold_wed_c4_122_26_alg».proof.Proof.Gen.Kernel.Points
import proofs.«126231_g84078279786961_fold_wed_c4_122_26_alg».proof.Proof.Gen.Kernel.Frame
import proofs.«126231_g84078279786961_fold_wed_c4_122_26_alg».proof.Proof.Gen.KernelIdeal
import proofs.«126231_g84078279786961_fold_wed_c4_122_26_alg».proof.Proof.Gen.KernelIdeal.Skeleton
import proofs.«126231_g84078279786961_fold_wed_c4_122_26_alg».proof.Proof.Gen.KernelIdeal.Launch
import proofs.«126231_g84078279786961_fold_wed_c4_122_26_alg».proof.Proof.Gen.KernelIdeal.Points
import proofs.«126231_g84078279786961_fold_wed_c4_122_26_alg».proof.Proof.Gen.KernelIdeal.Frame
import proofs.«126231_g84078279786961_fold_wed_c4_122_26_alg».proof.Proof.Gen.ReferenceIdeal
import proofs.«126231_g84078279786961_fold_wed_c4_122_26_alg».proof.Proof.Gen.Pre_finite_inputs
import Idealize.ShloMosaic.Adequacy
import Idealize.ShloMosaic.Init
import proofs.«126231_g84078279786961_fold_wed_c4_122_26_alg».proof.Proof.Spec
import proofs.«126231_g84078279786961_fold_wed_c4_122_26_alg».proof.Proof.SpecG
import proofs.«126231_g84078279786961_fold_wed_c4_122_26_alg».proof.Proof.RRun
import proofs.«126231_g84078279786961_fold_wed_c4_122_26_alg».proof.Proof.RValue
import proofs.«126231_g84078279786961_fold_wed_c4_122_26_alg».proof.Proof.KPay
import proofs.«126231_g84078279786961_fold_wed_c4_122_26_alg».proof.Proof.KValueTop
import proofs.«126231_g84078279786961_fold_wed_c4_122_26_alg».proof.Proof.Finite

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories that agree on the arguments both programs end with the same 16 × 10 array: the kernel's is `G` of the
    arguments; the reference's is, entry by entry, the projection-first head of the same hidden signal, and the two
    heads agree because the precondition keeps every hidden value real. -/
theorem algebraic : Cert.algebraic_KernelIdeal_ReferenceIdeal := by
  intro m ρ m' ρ' hpre hagree
  refine ⟨fun c => Cert.Backbone.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.KValue.run Cert.KernelIdeal.Pay.out0_8_apply m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7⟩ := hagree c
  rw [a0, a1, a2, a3, a4, a5, a6, a7]
  obtain ⟨hx, hA, hW1, hb1, hW2, hb2, hWo, hbo⟩ := Cert.Finite.real_of_fn _ _ _ _ _ _ _ _ (hpre c)
  funext i
  obtain ⟨b, o, rfl⟩ : ∃ (b : Fin 16) (o : Fin 10), i = ix2 b o := ⟨i 0, i 1, eq_ix2 i⟩
  show _ = Cert.Backbone.G _ _ _ _ _ _ _ _ (ix2 b o)
  rw [Cert.ReferenceIdeal.RefValue.res_apply, Cert.Backbone.G_apply]
  unfold Cert.Backbone.logit
  exact (Cert.Backbone.headK_eq_headR
    (Cert.Backbone.isReal_hid2 (fun n => hx _) (fun n k => hA _) (fun k f => hW1 _) (fun f => hb1 _) (fun k f g => hW2 _) (fun f => hb2 _))
    (fun f o => hWo _) (fun o => hbo _) _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
